-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x48x48 : Shape := ⟨4, ![8, 256, 48, 48]⟩
abbrev S_ : Shape := ⟨0, ![]⟩

class Facts : Prop where
  bcast_S_S8x256x48x48 : S_.BroadcastsInDim S8x256x48x48 (![] : Fin 0 → Fin S8x256x48x48.rank)
  reducesTo_S8x256x48x48_S_d0_1_2_3 : S8x256x48x48.ReducesTo [0, 1, 2, 3] S_
  h_S_ : 0 < S_.numel

variable [Facts]

def fn_part1 {F : FTy → Type} [FloatOps F] (main_v13 : IVec S_ 1) (main_v16 : IVec S8x256x48x48 1) : IVec S_ 1 :=
  let main_c_5 : IVec S_ 1 := constantI S_ 1 1#1
  let main_v17 : IVec S_ 1 := (fun x v => Host.reduce IntOp.andi x v reducesTo_S8x256x48x48_S_d0_1_2_3 h_S_) main_v16 main_c_5
  let main_v18 : IVec S_ 1 := andi main_v13 main_v17
  main_v18

def fn {F : FTy → Type} [FloatOps F] (main_arg0 : FVec F S8x256x48x48 .f32) (main_arg1 : FVec F S8x256x48x48 .f32) (main_arg2 : FVec F S8x256x48x48 .f32) (main_arg3 : FVec F S8x256x48x48 .f32) : IVec S_ 1 :=
  let main_v0 : FVec F S8x256x48x48 .f32 := Host.absf main_arg0
  let main_cst : FVec F S_ .f32 := constant S_ .f32 0x7F800000#32
  let main_v1 : FVec F S8x256x48x48 .f32 := broadcastInDim S8x256x48x48 ![] bcast_S_S8x256x48x48 main_cst
  let main_v2 : IVec S8x256x48x48 1 := cmpf .olt main_v0 main_v1
  let main_c : IVec S_ 1 := constantI S_ 1 1#1
  let main_v3 : IVec S_ 1 := (fun x v => Host.reduce IntOp.andi x v reducesTo_S8x256x48x48_S_d0_1_2_3 h_S_) main_v2 main_c
  let main_v4 : FVec F S8x256x48x48 .f32 := Host.absf main_arg1
  let main_cst_0 : FVec F S_ .f32 := constant S_ .f32 0x7F800000#32
  let main_v5 : FVec F S8x256x48x48 .f32 := broadcastInDim S8x256x48x48 ![] bcast_S_S8x256x48x48 main_cst_0
  let main_v6 : IVec S8x256x48x48 1 := cmpf .olt main_v4 main_v5
  let main_c_1 : IVec S_ 1 := constantI S_ 1 1#1
  let main_v7 : IVec S_ 1 := (fun x v => Host.reduce IntOp.andi x v reducesTo_S8x256x48x48_S_d0_1_2_3 h_S_) main_v6 main_c_1
  let main_v8 : IVec S_ 1 := andi main_v3 main_v7
  let main_v9 : FVec F S8x256x48x48 .f32 := Host.absf main_arg2
  let main_cst_2 : FVec F S_ .f32 := constant S_ .f32 0x7F800000#32
  let main_v10 : FVec F S8x256x48x48 .f32 := broadcastInDim S8x256x48x48 ![] bcast_S_S8x256x48x48 main_cst_2
  let main_v11 : IVec S8x256x48x48 1 := cmpf .olt main_v9 main_v10
  let main_c_3 : IVec S_ 1 := constantI S_ 1 1#1
  let main_v12 : IVec S_ 1 := (fun x v => Host.reduce IntOp.andi x v reducesTo_S8x256x48x48_S_d0_1_2_3 h_S_) main_v11 main_c_3
  let main_v13 : IVec S_ 1 := andi main_v8 main_v12
  let main_v14 : FVec F S8x256x48x48 .f32 := Host.absf main_arg3
  let main_cst_4 : FVec F S_ .f32 := constant S_ .f32 0x7F800000#32
  let main_v15 : FVec F S8x256x48x48 .f32 := broadcastInDim S8x256x48x48 ![] bcast_S_S8x256x48x48 main_cst_4
  let main_v16 : IVec S8x256x48x48 1 := cmpf .olt main_v14 main_v15
  fn_part1 (F := F) main_v13 main_v16
-- ==== Kernel.lean ====
abbrev S8x256x48x48 : Shape := ⟨4, ![8, 256, 48, 48]⟩
abbrev S2048x2304 : Shape := ⟨2, ![2048, 2304]⟩
abbrev S2048x1 : Shape := ⟨2, ![2048, 1]⟩
abbrev S256x2304 : Shape := ⟨2, ![256, 2304]⟩
abbrev S256x1 : Shape := ⟨2, ![256, 1]⟩
abbrev S256 : Shape := ⟨1, ![256]⟩
abbrev S8x256 : Shape := ⟨2, ![8, 256]⟩

abbrev nBuf : Space → Nat
  | .hbm => 16
  | .vmem => 16
  | .smem => 0
  | _ => 0

abbrev bufTy : (tb : Table) → Fin (tcTables nBuf tb) → BufTy
  | .hbm, ⟨0, _⟩ => ⟨S8x256x48x48, .f32⟩
  | .hbm, ⟨1, _⟩ => ⟨S8x256x48x48, .f32⟩
  | .hbm, ⟨2, _⟩ => ⟨S8x256x48x48, .f32⟩
  | .hbm, ⟨3, _⟩ => ⟨S8x256x48x48, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .hbm, ⟨8, _⟩ => ⟨S2048x1, .f32⟩
  | .hbm, ⟨9, _⟩ => ⟨S2048x1, .f32⟩
  | .hbm, ⟨10, _⟩ => ⟨S2048x1, .f32⟩
  | .hbm, ⟨11, _⟩ => ⟨S2048x1, .f32⟩
  | .hbm, ⟨12, _⟩ => ⟨S8x256, .f32⟩
  | .hbm, ⟨13, _⟩ => ⟨S8x256, .f32⟩
  | .hbm, ⟨14, _⟩ => ⟨S8x256, .f32⟩
  | .hbm, ⟨15, _⟩ => ⟨S8x256, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x1, .f32⟩
  | _, _ => ⟨S8x256x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x256x48x48_S2048x2304 : S8x256x48x48.ShapeCasts S2048x2304
  inb_S256x2304_S256x2304_0_0 : ∀ a, (![0, 0] : Fin 2 → Nat) a + S256x2304.size a ≤ S256x2304.size a
  h_S256x2304 : 0 < S256x2304.numel
  shapeCasts_S256x2304_S256x2304 : S256x2304.ShapeCasts S256x2304
  reduces_S256x2304_S256 : S256x2304.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S2048x1_S8x256 : S2048x1.ShapeCasts S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2304.size a ≤ S2048x2304.size a
  hwx0_0 : ∀ i : grid0.Coords, EltTy.bits .f32 = 32 ∨ (Rect.block (s := S2048x2304) S256x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2304.size a ≤ S2048x2304.size a
  hwx0_1 : ∀ i : grid0.Coords, EltTy.bits .f32 = 32 ∨ (Rect.block (s := S2048x2304) S256x2304.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2304.size a ≤ S2048x2304.size a
  hwx0_2 : ∀ i : grid0.Coords, EltTy.bits .f32 = 32 ∨ (Rect.block (s := S2048x2304) S256x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2304.size a ≤ S2048x2304.size a
  hwx0_3 : ∀ i : grid0.Coords, EltTy.bits .f32 = 32 ∨ (Rect.block (s := S2048x2304) S256x2304.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S2048x1.size a
  hwx0_4 : ∀ i : grid0.Coords, EltTy.bits .f32 = 32 ∨ (Rect.block (s := S2048x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S2048x1.size a
  hwx0_5 : ∀ i : grid0.Coords, EltTy.bits .f32 = 32 ∨ (Rect.block (s := S2048x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S2048x1.size a
  hwx0_6 : ∀ i : grid0.Coords, EltTy.bits .f32 = 32 ∨ (Rect.block (s := S2048x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S2048x1.size a
  hwx0_7 : ∀ i : grid0.Coords, EltTy.bits .f32 = 32 ∨ (Rect.block (s := S2048x1) S256x1.size (cc0_transform_7 i) (hinb0_7 i)).WholeWords (EltTy.packing .f32)

variable [Facts₀]

abbrev win0_0 : Pipeline.Window sig grid0 :=
  Pipeline.Window.ofSpec (Memref.whole main_v0) S256x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2304.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2304.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S256x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x48x48 : Shape := ⟨4, ![8, 256, 48, 48]⟩
abbrev S2048x2304 : Shape := ⟨2, ![2048, 2304]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩
abbrev S8x256 : Shape := ⟨2, ![8, 256]⟩

abbrev nBuf : Space → Nat
  | .hbm => 16
  | .vmem => 20
  | .smem => 0
  | _ => 0

abbrev bufTy : (tb : Table) → Fin (tcTables nBuf tb) → BufTy
  | .hbm, ⟨0, _⟩ => ⟨S8x256x48x48, .f32⟩
  | .hbm, ⟨1, _⟩ => ⟨S8x256x48x48, .f32⟩
  | .hbm, ⟨2, _⟩ => ⟨S8x256x48x48, .f32⟩
  | .hbm, ⟨3, _⟩ => ⟨S8x256x48x48, .f32⟩
  | .hbm, ⟨4, _⟩ => ⟨S2048x2304, .f32⟩
  | .hbm, ⟨5, _⟩ => ⟨S2048x1, .f32⟩
  | .hbm, ⟨6, _⟩ => ⟨S8x256, .f32⟩
  | .hbm, ⟨7, _⟩ => ⟨S2048x2304, .f32⟩
  | .hbm, ⟨8, _⟩ => ⟨S2048x1, .f32⟩
  | .hbm, ⟨9, _⟩ => ⟨S8x256, .f32⟩
  | .hbm, ⟨10, _⟩ => ⟨S2048x2304, .f32⟩
  | .hbm, ⟨11, _⟩ => ⟨S2048x1, .f32⟩
  | .hbm, ⟨12, _⟩ => ⟨S8x256, .f32⟩
  | .hbm, ⟨13, _⟩ => ⟨S2048x2304, .f32⟩
  | .hbm, ⟨14, _⟩ => ⟨S2048x1, .f32⟩
  | .hbm, ⟨15, _⟩ => ⟨S8x256, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x2048, .f32⟩
  | .local _ .vmem, ⟨6, _⟩ => ⟨S256x2048, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .vmem, ⟨12, _⟩ => ⟨S256x1, .f32⟩
  | .local _ .vmem, ⟨13, _⟩ => ⟨S256x1, .f32⟩
  | .local _ .vmem, ⟨14, _⟩ => ⟨S256x1, .f32⟩
  | .local _ .vmem, ⟨15, _⟩ => ⟨S256x2048, .f32⟩
  | .local _ .vmem, ⟨16, _⟩ => ⟨S256x2048, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | _, _ => ⟨S8x256x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc3_sem0_0 : DmaSem sig := 12
abbrev cc3_sem0_1 : DmaSem sig := 13
abbrev cc3_sem1_0 : DmaSem sig := 14
abbrev cc3_sem1_1 : DmaSem sig := 15

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 2], ![false, false]⟩

def k1_cond2 (i : grid1.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_7 : BitVec 32 := 0#32
  let v22 : BitVec 1 := Scalar.cmpi .ne v21 c0_i32_7
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_7 : BitVec 32 := 0#32
  let v22 : BitVec 1 := Scalar.cmpi .ne v21 c0_i32_7
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨2, ![8, 2], ![false, false]⟩

def k3_cond2 (i : grid3.Coords) : BitVec 1 :=
  let arg1 : BitVec 32 := BitVec.ofNat 32 (i 1).val
  let c1_i32 : BitVec 32 := 1#32
  let v20 : BitVec 1 := Scalar.cmpi .eq arg1 c1_i32
  let v21 : BitVec 32 := Scalar.extui v20
  let c0_i32_7 : BitVec 32 := 0#32
  let v22 : BitVec 1 := Scalar.cmpi .ne v21 c0_i32_7
  v22

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

class Facts₀ : Prop where
  shapeCasts_S8x256x48x48_S2048x2304 : S8x256x48x48.ShapeCasts S2048x2304
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  iota_S256x2048_d1_w32 : S256x2048.Iotas .tc 32 [1]
  reduces_S256x2048_S256 : S256x2048.Reduces [1] S256
  shapeCasts_S256_S256x1 : S256.ShapeCasts S256x1
  shapeCasts_S2048x1_S8x256 : S2048x1.ShapeCasts S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x2048.size a < S2048x2304.size a
  hwx0_0 : ∀ i : grid0.Coords, EltTy.bits .f32 = 32 ∨ (Rect.unit (s := S2048x2304) (fun a => cc0_transform_0 i a * S256x2048.size a) (fun a => (Pipeline.Clip.of (cc0_transform_0 i a) (S256x2048.size a) (S2048x2304.size a)).extent (S256x2048.size a)) fun a => Pipeline.Clip.inb (Pipeline.Clip.ok_of (hstart0_0 i a))).WholeWords (EltTy.packing .f32)
  hwxs0_0 : ∀ i : grid0.Coords, EltTy.bits .f32 = 32 ∨ (Rect.unit (s := S256x2048) (fun _ => 0) (fun a => (Pipeline.Clip.of (cc0_transform_0 i a) (S256x2048.size a) (S2048x2304.size a)).extent (S256x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .f32 = 32 ∨ (Rect.block (s := S2048x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S256x2048.size a < S2048x2304.size a
  hwx1_0 : ∀ i : grid1.Coords, EltTy.bits .f32 = 32 ∨ (Rect.unit (s := S2048x2304) (fun a => cc1_transform_0 i a * S256x2048.size a) (fun a => (Pipeline.Clip.of (cc1_transform_0 i a) (S256x2048.size a) (S2048x2304.size a)).extent (S256x2048.size a)) fun a => Pipeline.Clip.inb (Pipeline.Clip.ok_of (hstart1_0 i a))).WholeWords (EltTy.packing .f32)
  hwxs1_0 : ∀ i : grid1.Coords, EltTy.bits .f32 = 32 ∨ (Rect.unit (s := S256x2048) (fun _ => 0) (fun a => (Pipeline.Clip.of (cc1_transform_0 i a) (S256x2048.size a) (S2048x2304.size a)).extent (S256x2048.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S2048x1.size a
  hwx1_1 : ∀ i : grid1.Coords, EltTy.bits .f32 = 32 ∨ (Rect.block (s := S2048x1) S256x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S256x2048.size a < S2048x2304.size a
  hwx2_0 : ∀ i : grid2.Coords, EltTy.bits .f32 = 32 ∨ (Rect.unit (s := S2048x2304) (fun a => cc2_transform_0 i a * S256x2048.size a) (fun a => (Pipeline.Clip.of (cc2_transform_0 i a) (S256x2048.size a) (S2048x2304.size a)).extent (S256x2048.size a)) fun a => Pipeline.Clip.inb (Pipeline.Clip.ok_of (hstart2_0 i a))).WholeWords (EltTy.packing .f32)
  hwxs2_0 : ∀ i : grid2.Coords, EltTy.bits .f32 = 32 ∨ (Rect.unit (s := S256x2048) (fun _ => 0) (fun a => (Pipeline.Clip.of (cc2_transform_0 i a) (S256x2048.size a) (S2048x2304.size a)).extent (S256x2048.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S2048x1.size a
  hwx2_1 : ∀ i : grid2.Coords, EltTy.bits .f32 = 32 ∨ (Rect.block (s := S2048x1) S256x1.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S256x2048.size a < S2048x2304.size a
  hwx3_0 : ∀ i : grid3.Coords, EltTy.bits .f32 = 32 ∨ (Rect.unit (s := S2048x2304) (fun a => cc3_transform_0 i a * S256x2048.size a) (fun a => (Pipeline.Clip.of (cc3_transform_0 i a) (S256x2048.size a) (S2048x2304.size a)).extent (S256x2048.size a)) fun a => Pipeline.Clip.inb (Pipeline.Clip.ok_of (hstart3_0 i a))).WholeWords (EltTy.packing .f32)
  hwxs3_0 : ∀ i : grid3.Coords, EltTy.bits .f32 = 32 ∨ (Rect.unit (s := S256x2048) (fun _ => 0) (fun a => (Pipeline.Clip.of (cc3_transform_0 i a) (S256x2048.size a) (S2048x2304.size a)).extent (S256x2048.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S2048x1.size a
  hwx3_1 : ∀ i : grid3.Coords, EltTy.bits .f32 = 32 ∨ (Rect.block (s := S2048x1) S256x1.size (cc3_transform_1 i) (hinb3_1 i)).WholeWords (EltTy.packing .f32)

variable [Facts₀]

abbrev win0_0 : Pipeline.Window sig grid0 :=
  Pipeline.Window.ofSpecClip (Memref.whole main_v0) S256x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpecClip (Memref.whole main_v3) S256x2048.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v4) S256x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpecClip (Memref.whole main_v6) S256x2048.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v7) S256x1.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

abbrev win3_0 : Pipeline.Window sig grid3 :=
  Pipeline.Window.ofSpecClip (Memref.whole main_v9) S256x2048.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v10) S256x1.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev idle3 : Fin 2 → grid3.Coords → Bool := fun | 0 => fun _ => false | 1 => fun i => !(k3_cond2 i == 1#1) | ⟨_ + 2, h⟩ => absurd h (Nat.not_lt.2 (Nat.le_add_left _ _))

class Facts : Prop extends Facts₀ where

variable [Facts]
-- ==== Proof.PoolSpec.lean ====
/-
  Global average pooling of one view, as ONE function of the argument array.

  A view is an array x of shape [8, 256, 48, 48]. Flattened to [2048, 2304] (one row per (image, channel) pair,
  one lane per pixel) its pooled value at a row is the sum of the row's 2304 entries times the reciprocal of the
  pixel count, which both programs spell as the same float literal; the [2048, 1] column of these values is then
  re-laid as [8, 256]. The two layout changes are the same row-major casts in both programs and are never opened.

  The one law that joins the two programs: a sum of 2304 terms is the sum of its first 2048 terms plus the sum,
  over a second tile of 2048 lanes of which only the first 256 lie inside the row, of the terms inside the row
  (the lanes outside contribute zero). It holds in any additive commutative monoid, so on the extended reals
  with no finiteness assumption.
-/
import Idealize.ShloMosaic.Lib.ValueIdx
import Idealize.ShloMosaic.Lib.Pipeline.Value
import Idealize.ShloMosaic.PureOps.Ideal.Laws

noncomputable section

open scoped BigOperators

namespace Cert.Pool

open Idealize.ShloMosaic Idealize.ShloMosaic.ValueIdx

/-- A view as the programs receive it; flattened; the pooled column; the result. -/
abbrev SIn : Shape := ⟨4, ![8, 256, 48, 48]⟩
abbrev SFlat : Shape := ⟨2, ![2048, 2304]⟩
abbrev SCol : Shape := ⟨2, ![2048, 1]⟩
abbrev SOut : Shape := ⟨2, ![8, 256]⟩

/-- The reciprocal of the pixel count, the float literal both programs multiply by (never evaluated). -/
abbrev invHW : Ideal .f32 := Scalar.ofBits .f32 0x39E38E39#32

/-- The pooled value of row p of a flattened view: the row's sum times the reciprocal of the pixel count. -/
def rowMean (y : FVec Ideal SFlat .f32) (p : Fin 2048) : Ideal .f32 :=
  (∑ j : Fin 2304, y (ix2 p j)) * invHW

/-- The pooled column of a flattened view. -/
def colMean (y : FVec Ideal SFlat .f32) : FVec Ideal SCol .f32 :=
  fun r => rowMean y ⟨(r 0).val, idx2_lt0 r⟩

theorem colMean_apply (y : FVec Ideal SFlat .f32) (p : Fin 2048) (z : Fin 1) : colMean y (ix2 p z) = rowMean y p := rfl

/-- The two layout changes keep the number of entries. -/
theorem hin : SIn.ShapeCasts SFlat := by decide
theorem hout : SCol.ShapeCasts SOut := by decide

/-- The pooled view: flatten, pool each row, re-lay the column as [8, 256]. -/
def G (x : FVec Ideal SIn .f32) : FVec Ideal SOut .f32 :=
  shapeCast SOut (colMean (shapeCast SFlat x hin)) hout

/-- A sum over a + b terms taken as a first tile of a terms and a second tile of a terms masked to the b terms
    that lie below a + b (b ≤ a). -/
theorem sum_two_tiles_gen {M : Type*} [AddCommMonoid M] (a b : ℕ) (hb : b ≤ a) (g : ℕ → M) :
    (∑ j : Fin a, g j.val) + (∑ j : Fin a, if a + j.val < a + b then g (a + j.val) else 0)
      = ∑ j : Fin (a + b), g j.val := by
  rw [Fin.sum_univ_eq_sum_range (fun j => g j) a, Fin.sum_univ_eq_sum_range (fun j => g j) (a + b),
    Fin.sum_univ_eq_sum_range (fun j => if a + j < a + b then g (a + j) else 0) a, Finset.sum_range_add]
  congr 1
  obtain ⟨d, rfl⟩ := Nat.exists_eq_add_of_le hb
  rw [Finset.sum_range_add]
  rw [Finset.sum_congr rfl (fun j hj => if_pos (by have := Finset.mem_range.mp hj; omega) :
      ∀ j ∈ Finset.range b, (if b + d + j < b + d + b then g (b + d + j) else 0) = g (b + d + j))]
  rw [Finset.sum_congr rfl (fun j _ => if_neg (by omega) :
      ∀ j ∈ Finset.range d, (if b + d + (b + j) < b + d + b then g (b + d + (b + j)) else 0) = 0)]
  rw [Finset.sum_const_zero, add_zero]

/-- A sum over 2304 lanes taken as a first tile of 2048 lanes and a second tile of 2048 lanes masked to the 256
    lanes that lie inside the row. -/
theorem sum_two_tiles {M : Type*} [AddCommMonoid M] (g : ℕ → M) :
    (∑ j : Fin 2048, g j.val) + (∑ j : Fin 2048, if 2048 + j.val < 2304 then g (2048 + j.val) else 0)
      = ∑ j : Fin 2304, g j.val :=
  sum_two_tiles_gen 2048 256 (by omega) g

end Cert.Pool

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.KernelPayload.lean ====
/-
  The kernel body's arithmetic, read at one entry.

  The body handles one block of 256 rows of each flattened view: it sums each row's 2304 lanes, keeps the result
  as a [256, 1] column, and multiplies the column by the splat literal (the reciprocal of the pixel count). At
  exact arithmetic the entry (p, 0) of what it stores is therefore the sum of row p of the block times the
  literal. When the block is rows 256 t … 256 t + 255 of a flattened view, that is entry 256 t + p of the view's
  pooled column. The four views go through four copies of the same arithmetic.
-/
import proofs.«103361_g2000304880361579_pallasbulk_792_2_alg».proof.Proof.Gen.KernelIdeal.Skeleton
import proofs.«103361_g2000304880361579_pallasbulk_792_2_alg».proof.Proof.PoolSpec
import proofs.«103361_g2000304880361579_pallasbulk_792_2_alg».proof.Proof.LibKeepdims
import Idealize.ShloMosaic.Lib.ValueIdx
import Idealize.ShloMosaic.Lib.Pipeline.Value

noncomputable section

open scoped BigOperators

namespace Cert.KernelSide

open Cert.KernelIdeal Cert.KernelIdeal.Gen
open Idealize.ShloMosaic Idealize.ShloMosaic.ValueIdx

/-- What the body stores for the first view, at row p: the row's sum times the literal. -/
theorem pay1_apply (v : Vec Ideal S256x2304 .f32) (p : Fin 256) (z : Fin 1) :
    k0_pay1 (F := Ideal) v (ix2 p z) = (∑ j : Fin 2304, v (ix2 p j)) * Cert.Pool.invHW := by
  unfold k0_pay1
  refine (mulf_apply _ _ _).trans ?_
  refine congrArg (· * Cert.Pool.invHW) ?_
  refine (LibKeepdims.shapeCast_col_apply _ _ p z).trans ?_
  refine (LibKeepdims.sum_axis1_apply _ _ _ _ _ p).trans ?_
  rw [shapeCast_self]

/-- The same for the second view, -/
theorem pay2_apply (v : Vec Ideal S256x2304 .f32) (p : Fin 256) (z : Fin 1) :
    k0_pay2 (F := Ideal) v (ix2 p z) = (∑ j : Fin 2304, v (ix2 p j)) * Cert.Pool.invHW := by
  unfold k0_pay2
  refine (mulf_apply _ _ _).trans ?_
  refine congrArg (· * Cert.Pool.invHW) ?_
  refine (LibKeepdims.shapeCast_col_apply _ _ p z).trans ?_
  refine (LibKeepdims.sum_axis1_apply _ _ _ _ _ p).trans ?_
  rw [shapeCast_self]

/-- the third, -/
theorem pay3_apply (v : Vec Ideal S256x2304 .f32) (p : Fin 256) (z : Fin 1) :
    k0_pay3 (F := Ideal) v (ix2 p z) = (∑ j : Fin 2304, v (ix2 p j)) * Cert.Pool.invHW := by
  unfold k0_pay3
  refine (mulf_apply _ _ _).trans ?_
  refine congrArg (· * Cert.Pool.invHW) ?_
  refine (LibKeepdims.shapeCast_col_apply _ _ p z).trans ?_
  refine (LibKeepdims.sum_axis1_apply _ _ _ _ _ p).trans ?_
  rw [shapeCast_self]

/-- and the fourth. -/
theorem pay4_apply (v : Vec Ideal S256x2304 .f32) (p : Fin 256) (z : Fin 1) :
    k0_pay4 (F := Ideal) v (ix2 p z) = (∑ j : Fin 2304, v (ix2 p j)) * Cert.Pool.invHW := by
  unfold k0_pay4
  refine (mulf_apply _ _ _).trans ?_
  refine congrArg (· * Cert.Pool.invHW) ?_
  refine (LibKeepdims.shapeCast_col_apply _ _ p z).trans ?_
  refine (LibKeepdims.sum_axis1_apply _ _ _ _ _ p).trans ?_
  rw [shapeCast_self]

/-- Rows 256 t … 256 t + 255 of a flattened view y, each summed and scaled, are entries 256 t … 256 t + 255 of
    y's pooled column: a column of row values whose entry (p, 0) is row p's sum times the literal, over a block x0
    that is those rows of y, agrees with the pooled column at the entry i with i = 256 t + p. -/
theorem block_of_column (y : FVec Ideal Cert.Pool.SFlat .f32) (x0 : Vec Ideal S256x2304 .f32)
    (col : FVec Ideal S256x1 .f32)
    (hcol : ∀ (p : Fin 256) (z : Fin 1), col (ix2 p z) = (∑ j : Fin 2304, x0 (ix2 p j)) * Cert.Pool.invHW)
    (tv : ℕ) (ht : tv < 8)
    (hx : ∀ (p : Fin 256) (j : Fin 2304), x0 (ix2 p j) = y (ix2 (⟨tv * 256 + p.val, by omega⟩ : Fin 2048) j))
    (j : S256x1.Idx) (i : S2048x1.Idx) (hi : (i 0).val = tv * 256 + (j 0).val) :
    col j = Cert.Pool.colMean y i := by
  obtain ⟨p, z, rfl⟩ : ∃ (p : Fin 256) (z : Fin 1), j = ix2 p z := ⟨j 0, j 1, eq_ix2 j⟩
  rw [hcol]
  unfold Cert.Pool.colMean Cert.Pool.rowMean
  refine congrArg (· * Cert.Pool.invHW) ?_
  refine Finset.sum_congr rfl fun k _ => ?_
  rw [hx p k]
  refine congrArg y ?_
  funext a
  match a with
  | ⟨0, _⟩ => exact Fin.ext hi.symm
  | ⟨1, _⟩ => rfl

end Cert.KernelSide

end
-- ==== Proof.KernelBlocks.lean ====
/-
  From blocks to arrays: what each of the four [2048, 1] result arrays holds after the grid has run.

  The grid has eight points. At point t every window is at block (t, 0): an input window holds rows
  256 t … 256 t + 255 of its flattened view (all 2304 lanes), an output window rows 256 t … 256 t + 255 of its
  [2048, 1] array. The body stores, for each view, the pooled values of the block's 256 rows, and every point
  writes its output blocks back. Row r of an output array is therefore written at point r / 256 with the pooled
  value of row r of the view, so after the grid each output array is the whole pooled column of its view. The
  views are the flattened arguments as the region finds them.
-/
import proofs.«103361_g2000304880361579_pallasbulk_792_2_alg».proof.Proof.Gen.KernelIdeal.Frame
import proofs.«103361_g2000304880361579_pallasbulk_792_2_alg».proof.Proof.KernelPayload
import Idealize.ShloMosaic.Lib.Pipeline.Value

noncomputable section

open scoped BigOperators

namespace Cert.KernelSide

open Cert.KernelIdeal Cert.KernelIdeal.Gen
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The body loads and stores whole staging buffers: rectangles at offset (0, 0). -/
theorem zero_offsets : (![0, 0] : Fin 2 → Nat) = fun _ => 0 := funext fun a => by fin_cases a <;> rfl

/-! ## The index maps, decided over the eight grid points -/

/-- Input window 0's block at point t is block (t, 0). -/
theorem in_index0 : ∀ t : Fin cfg0.N, win0_0.index t (0 : Fin 2) = t.val ∧ win0_0.index t (1 : Fin 2) = 0 :=
  (by decide +kernel : ∀ t : Fin grid0.N, _)
/-- Output window 4's block at point t is block (t, 0). -/
theorem out_index4 : ∀ t : Fin cfg0.N, win0_4.index t (0 : Fin 2) = t.val ∧ win0_4.index t (1 : Fin 2) = 0 :=
  (by decide +kernel : ∀ t : Fin grid0.N, _)
/-- Input window 1's block at point t is block (t, 0). -/
theorem in_index1 : ∀ t : Fin cfg0.N, win0_1.index t (0 : Fin 2) = t.val ∧ win0_1.index t (1 : Fin 2) = 0 :=
  (by decide +kernel : ∀ t : Fin grid0.N, _)
/-- Output window 5's block at point t is block (t, 0). -/
theorem out_index5 : ∀ t : Fin cfg0.N, win0_5.index t (0 : Fin 2) = t.val ∧ win0_5.index t (1 : Fin 2) = 0 :=
  (by decide +kernel : ∀ t : Fin grid0.N, _)
/-- Input window 2's block at point t is block (t, 0). -/
theorem in_index2 : ∀ t : Fin cfg0.N, win0_2.index t (0 : Fin 2) = t.val ∧ win0_2.index t (1 : Fin 2) = 0 :=
  (by decide +kernel : ∀ t : Fin grid0.N, _)
/-- Output window 6's block at point t is block (t, 0). -/
theorem out_index6 : ∀ t : Fin cfg0.N, win0_6.index t (0 : Fin 2) = t.val ∧ win0_6.index t (1 : Fin 2) = 0 :=
  (by decide +kernel : ∀ t : Fin grid0.N, _)
/-- Input window 3's block at point t is block (t, 0). -/
theorem in_index3 : ∀ t : Fin cfg0.N, win0_3.index t (0 : Fin 2) = t.val ∧ win0_3.index t (1 : Fin 2) = 0 :=
  (by decide +kernel : ∀ t : Fin grid0.N, _)
/-- Output window 7's block at point t is block (t, 0). -/
theorem out_index7 : ∀ t : Fin cfg0.N, win0_7.index t (0 : Fin 2) = t.val ∧ win0_7.index t (1 : Fin 2) = 0 :=
  (by decide +kernel : ∀ t : Fin grid0.N, _)

/-! ## The first view: input window 0, output window 4 -/

/-- The input block of the first view at point t is rows 256 t … 256 t + 255 of the flattened view. -/
theorem in_rows0 (c : Dev nD) (t : Fin cfg0.N) (p : Fin 256) (j : Fin 2304) :
    (iblk m c 0 t : Vec Ideal S256x2304 .f32) (ix2 p j)
      = (V m c main_v0 : FVec Ideal Cert.Pool.SFlat .f32)
          (ix2 (⟨t.val * 256 + p.val, by have := t.isLt; have hN : cfg0.N = 8 := N_0; omega⟩ : Fin 2048) j) := by
  obtain ⟨e0, e1⟩ := in_index0 t
  unfold iblk
  rw [View.read_apply]
  show V m c main_v0 _ = V m c main_v0 _
  refine congrArg (V m c main_v0) ?_
  funext a
  apply Fin.ext
  match a with
  | ⟨0, _⟩ => show win0_0.index t (0 : Fin 2) * 256 + 1 * p.val = t.val * 256 + p.val; omega
  | ⟨1, _⟩ => show win0_0.index t (1 : Fin 2) * 2304 + 1 * j.val = j.val; omega

/-- What point t writes back through output window 4: rows 256 t … 256 t + 255 of the first view's pooled column. -/
theorem written_back4 (c : Dev nD) (t : Fin cfg0.N) :
    (dats m 0 c).flushed 4 t
      = ((cfg0.win 4).blk t).view.read (Elt Ideal) (Cert.Pool.colMean (V m c main_v0)) := by
  show (cfg0.win 4).cut (grid0.coords t) ((dats m 0 c).after 4 t) = _
  rw [after0_4]
  unfold out0_4
  rw [View.canon_unit_zero zero_offsets]
  simp only [View.ld_unit_zero (S := S256x2304) zero_offsets]
  obtain ⟨e0, e1⟩ := out_index4 t
  have hN : cfg0.N = 8 := N_0
  funext j
  rw [View.read_apply]
  refine block_of_column (V m c main_v0) (iblk m c 0 t) (k0_pay1 (F := Ideal) (iblk m c 0 t))
    (pay1_apply (iblk m c 0 t)) t.val (by have := t.isLt; omega) (in_rows0 m c t) j
    (((cfg0.win 4).blk t).view.emb j) ?_
  show win0_4.index t (0 : Fin 2) * 256 + 1 * (j 0).val = t.val * 256 + (j 0).val
  omega

/-- An entry of the [2048, 1] array lies in point t's block iff its row is one of the block's 256 rows. -/
theorem mem_rows4 (t : Fin cfg0.N) (i : S2048x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v4_0).slice (win0_4.rect t)).set ↔ _
  rw [View.set_slice_whole, Rect.mem_set_unit]
  exact Iff.rfl

/-- Row r of the array is written back at point r / 256: the eight blocks cover the 2048 rows. -/
theorem rows_covered4 (i : S2048x1.Idx) :
    ∃ t : Fin cfg0.N, (cfg0.win 4).flush t = true ∧ i ∈ ((cfg0.win 4).blk t).view.set := by
  have hN : cfg0.N = 8 := N_0
  have hi0 : (i 0).val < 2048 := (i 0).isLt
  have hi1 : (i 1).val < 1 := (i 1).isLt
  let t : Fin cfg0.N := ⟨(i 0).val / 256, by omega⟩
  obtain ⟨e0, e1⟩ := out_index4 t
  have ht : t.val = (i 0).val / 256 := rfl
  refine ⟨t, flush0_4 t, ?_⟩
  rw [mem_rows4]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 1 ≤ (i 1).val ∧ (i 1).val < win0_4.index t (1 : Fin 2) * 1 + 1
    omega

/-- After the region, output window 4's array is the pooled column of the first flattened view. -/
theorem column4 (c : Dev nD) : (dats m 0 c).arrAt 4 cfg0.N = Cert.Pool.colMean (V m c main_v0) :=
  (dats m 0 c).arrAt_eq_of_cover 4 (Cert.Pool.colMean (V m c main_v0)) (fun t _ => written_back4 m c t) rows_covered4

/-! ## The second view: input window 1, output window 5 -/

/-- The input block of the second view at point t is rows 256 t … 256 t + 255 of the flattened view. -/
theorem in_rows1 (c : Dev nD) (t : Fin cfg0.N) (p : Fin 256) (j : Fin 2304) :
    (iblk m c 1 t : Vec Ideal S256x2304 .f32) (ix2 p j)
      = (V m c main_v1 : FVec Ideal Cert.Pool.SFlat .f32)
          (ix2 (⟨t.val * 256 + p.val, by have := t.isLt; have hN : cfg0.N = 8 := N_0; omega⟩ : Fin 2048) j) := by
  obtain ⟨e0, e1⟩ := in_index1 t
  unfold iblk
  rw [View.read_apply]
  show V m c main_v1 _ = V m c main_v1 _
  refine congrArg (V m c main_v1) ?_
  funext a
  apply Fin.ext
  match a with
  | ⟨0, _⟩ => show win0_1.index t (0 : Fin 2) * 256 + 1 * p.val = t.val * 256 + p.val; omega
  | ⟨1, _⟩ => show win0_1.index t (1 : Fin 2) * 2304 + 1 * j.val = j.val; omega

/-- What point t writes back through output window 5: rows 256 t … 256 t + 255 of the second view's pooled column. -/
theorem written_back5 (c : Dev nD) (t : Fin cfg0.N) :
    (dats m 0 c).flushed 5 t
      = ((cfg0.win 5).blk t).view.read (Elt Ideal) (Cert.Pool.colMean (V m c main_v1)) := by
  show (cfg0.win 5).cut (grid0.coords t) ((dats m 0 c).after 5 t) = _
  rw [after0_5]
  unfold out0_5
  rw [View.canon_unit_zero zero_offsets]
  simp only [View.ld_unit_zero (S := S256x2304) zero_offsets]
  obtain ⟨e0, e1⟩ := out_index5 t
  have hN : cfg0.N = 8 := N_0
  funext j
  rw [View.read_apply]
  refine block_of_column (V m c main_v1) (iblk m c 1 t) (k0_pay2 (F := Ideal) (iblk m c 1 t))
    (pay2_apply (iblk m c 1 t)) t.val (by have := t.isLt; omega) (in_rows1 m c t) j
    (((cfg0.win 5).blk t).view.emb j) ?_
  show win0_5.index t (0 : Fin 2) * 256 + 1 * (j 0).val = t.val * 256 + (j 0).val
  omega

/-- An entry of the [2048, 1] array lies in point t's block iff its row is one of the block's 256 rows. -/
theorem mem_rows5 (t : Fin cfg0.N) (i : S2048x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v4_1).slice (win0_5.rect t)).set ↔ _
  rw [View.set_slice_whole, Rect.mem_set_unit]
  exact Iff.rfl

/-- Row r of the array is written back at point r / 256: the eight blocks cover the 2048 rows. -/
theorem rows_covered5 (i : S2048x1.Idx) :
    ∃ t : Fin cfg0.N, (cfg0.win 5).flush t = true ∧ i ∈ ((cfg0.win 5).blk t).view.set := by
  have hN : cfg0.N = 8 := N_0
  have hi0 : (i 0).val < 2048 := (i 0).isLt
  have hi1 : (i 1).val < 1 := (i 1).isLt
  let t : Fin cfg0.N := ⟨(i 0).val / 256, by omega⟩
  obtain ⟨e0, e1⟩ := out_index5 t
  have ht : t.val = (i 0).val / 256 := rfl
  refine ⟨t, flush0_5 t, ?_⟩
  rw [mem_rows5]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 1 ≤ (i 1).val ∧ (i 1).val < win0_5.index t (1 : Fin 2) * 1 + 1
    omega

/-- After the region, output window 5's array is the pooled column of the second flattened view. -/
theorem column5 (c : Dev nD) : (dats m 0 c).arrAt 5 cfg0.N = Cert.Pool.colMean (V m c main_v1) :=
  (dats m 0 c).arrAt_eq_of_cover 5 (Cert.Pool.colMean (V m c main_v1)) (fun t _ => written_back5 m c t) rows_covered5

/-! ## The third view: input window 2, output window 6 -/

/-- The input block of the third view at point t is rows 256 t … 256 t + 255 of the flattened view. -/
theorem in_rows2 (c : Dev nD) (t : Fin cfg0.N) (p : Fin 256) (j : Fin 2304) :
    (iblk m c 2 t : Vec Ideal S256x2304 .f32) (ix2 p j)
      = (V m c main_v2 : FVec Ideal Cert.Pool.SFlat .f32)
          (ix2 (⟨t.val * 256 + p.val, by have := t.isLt; have hN : cfg0.N = 8 := N_0; omega⟩ : Fin 2048) j) := by
  obtain ⟨e0, e1⟩ := in_index2 t
  unfold iblk
  rw [View.read_apply]
  show V m c main_v2 _ = V m c main_v2 _
  refine congrArg (V m c main_v2) ?_
  funext a
  apply Fin.ext
  match a with
  | ⟨0, _⟩ => show win0_2.index t (0 : Fin 2) * 256 + 1 * p.val = t.val * 256 + p.val; omega
  | ⟨1, _⟩ => show win0_2.index t (1 : Fin 2) * 2304 + 1 * j.val = j.val; omega

/-- What point t writes back through output window 6: rows 256 t … 256 t + 255 of the third view's pooled column. -/
theorem written_back6 (c : Dev nD) (t : Fin cfg0.N) :
    (dats m 0 c).flushed 6 t
      = ((cfg0.win 6).blk t).view.read (Elt Ideal) (Cert.Pool.colMean (V m c main_v2)) := by
  show (cfg0.win 6).cut (grid0.coords t) ((dats m 0 c).after 6 t) = _
  rw [after0_6]
  unfold out0_6
  rw [View.canon_unit_zero zero_offsets]
  simp only [View.ld_unit_zero (S := S256x2304) zero_offsets]
  obtain ⟨e0, e1⟩ := out_index6 t
  have hN : cfg0.N = 8 := N_0
  funext j
  rw [View.read_apply]
  refine block_of_column (V m c main_v2) (iblk m c 2 t) (k0_pay3 (F := Ideal) (iblk m c 2 t))
    (pay3_apply (iblk m c 2 t)) t.val (by have := t.isLt; omega) (in_rows2 m c t) j
    (((cfg0.win 6).blk t).view.emb j) ?_
  show win0_6.index t (0 : Fin 2) * 256 + 1 * (j 0).val = t.val * 256 + (j 0).val
  omega

/-- An entry of the [2048, 1] array lies in point t's block iff its row is one of the block's 256 rows. -/
theorem mem_rows6 (t : Fin cfg0.N) (i : S2048x1.Idx) :
    i ∈ ((cfg0.win 6).blk t).view.set ↔ ∀ a : Fin 2, win0_6.index t a * S256x1.size a ≤ (i a).val
      ∧ (i a).val < win0_6.index t a * S256x1.size a + S256x1.size a := by
  show i ∈ ((View.whole main_v4_2).slice (win0_6.rect t)).set ↔ _
  rw [View.set_slice_whole, Rect.mem_set_unit]
  exact Iff.rfl

/-- Row r of the array is written back at point r / 256: the eight blocks cover the 2048 rows. -/
theorem rows_covered6 (i : S2048x1.Idx) :
    ∃ t : Fin cfg0.N, (cfg0.win 6).flush t = true ∧ i ∈ ((cfg0.win 6).blk t).view.set := by
  have hN : cfg0.N = 8 := N_0
  have hi0 : (i 0).val < 2048 := (i 0).isLt
  have hi1 : (i 1).val < 1 := (i 1).isLt
  let t : Fin cfg0.N := ⟨(i 0).val / 256, by omega⟩
  obtain ⟨e0, e1⟩ := out_index6 t
  have ht : t.val = (i 0).val / 256 := rfl
  refine ⟨t, flush0_6 t, ?_⟩
  rw [mem_rows6]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1 ≤ (i 1).val ∧ (i 1).val < win0_6.index t (1 : Fin 2) * 1 + 1
    omega

/-- After the region, output window 6's array is the pooled column of the third flattened view. -/
theorem column6 (c : Dev nD) : (dats m 0 c).arrAt 6 cfg0.N = Cert.Pool.colMean (V m c main_v2) :=
  (dats m 0 c).arrAt_eq_of_cover 6 (Cert.Pool.colMean (V m c main_v2)) (fun t _ => written_back6 m c t) rows_covered6

/-! ## The fourth view: input window 3, output window 7 -/

/-- The input block of the fourth view at point t is rows 256 t … 256 t + 255 of the flattened view. -/
theorem in_rows3 (c : Dev nD) (t : Fin cfg0.N) (p : Fin 256) (j : Fin 2304) :
    (iblk m c 3 t : Vec Ideal S256x2304 .f32) (ix2 p j)
      = (V m c main_v3 : FVec Ideal Cert.Pool.SFlat .f32)
          (ix2 (⟨t.val * 256 + p.val, by have := t.isLt; have hN : cfg0.N = 8 := N_0; omega⟩ : Fin 2048) j) := by
  obtain ⟨e0, e1⟩ := in_index3 t
  unfold iblk
  rw [View.read_apply]
  show V m c main_v3 _ = V m c main_v3 _
  refine congrArg (V m c main_v3) ?_
  funext a
  apply Fin.ext
  match a with
  | ⟨0, _⟩ => show win0_3.index t (0 : Fin 2) * 256 + 1 * p.val = t.val * 256 + p.val; omega
  | ⟨1, _⟩ => show win0_3.index t (1 : Fin 2) * 2304 + 1 * j.val = j.val; omega

/-- What point t writes back through output window 7: rows 256 t … 256 t + 255 of the fourth view's pooled column. -/
theorem written_back7 (c : Dev nD) (t : Fin cfg0.N) :
    (dats m 0 c).flushed 7 t
      = ((cfg0.win 7).blk t).view.read (Elt Ideal) (Cert.Pool.colMean (V m c main_v3)) := by
  show (cfg0.win 7).cut (grid0.coords t) ((dats m 0 c).after 7 t) = _
  rw [after0_7]
  unfold out0_7
  rw [View.canon_unit_zero zero_offsets]
  simp only [View.ld_unit_zero (S := S256x2304) zero_offsets]
  obtain ⟨e0, e1⟩ := out_index7 t
  have hN : cfg0.N = 8 := N_0
  funext j
  rw [View.read_apply]
  refine block_of_column (V m c main_v3) (iblk m c 3 t) (k0_pay4 (F := Ideal) (iblk m c 3 t))
    (pay4_apply (iblk m c 3 t)) t.val (by have := t.isLt; omega) (in_rows3 m c t) j
    (((cfg0.win 7).blk t).view.emb j) ?_
  show win0_7.index t (0 : Fin 2) * 256 + 1 * (j 0).val = t.val * 256 + (j 0).val
  omega

/-- An entry of the [2048, 1] array lies in point t's block iff its row is one of the block's 256 rows. -/
theorem mem_rows7 (t : Fin cfg0.N) (i : S2048x1.Idx) :
    i ∈ ((cfg0.win 7).blk t).view.set ↔ ∀ a : Fin 2, win0_7.index t a * S256x1.size a ≤ (i a).val
      ∧ (i a).val < win0_7.index t a * S256x1.size a + S256x1.size a := by
  show i ∈ ((View.whole main_v4_3).slice (win0_7.rect t)).set ↔ _
  rw [View.set_slice_whole, Rect.mem_set_unit]
  exact Iff.rfl

/-- Row r of the array is written back at point r / 256: the eight blocks cover the 2048 rows. -/
theorem rows_covered7 (i : S2048x1.Idx) :
    ∃ t : Fin cfg0.N, (cfg0.win 7).flush t = true ∧ i ∈ ((cfg0.win 7).blk t).view.set := by
  have hN : cfg0.N = 8 := N_0
  have hi0 : (i 0).val < 2048 := (i 0).isLt
  have hi1 : (i 1).val < 1 := (i 1).isLt
  let t : Fin cfg0.N := ⟨(i 0).val / 256, by omega⟩
  obtain ⟨e0, e1⟩ := out_index7 t
  have ht : t.val = (i 0).val / 256 := rfl
  refine ⟨t, flush0_7 t, ?_⟩
  rw [mem_rows7]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1 ≤ (i 1).val ∧ (i 1).val < win0_7.index t (1 : Fin 2) * 1 + 1
    omega

/-- After the region, output window 7's array is the pooled column of the fourth flattened view. -/
theorem column7 (c : Dev nD) : (dats m 0 c).arrAt 7 cfg0.N = Cert.Pool.colMean (V m c main_v3) :=
  (dats m 0 c).arrAt_eq_of_cover 7 (Cert.Pool.colMean (V m c main_v3)) (fun t _ => written_back7 m c t) rows_covered7

end Cert.KernelSide

end
-- ==== Proof.KernelValue.lean ====
/-
  The kernel's run, read: each of its four results is the pooled view of the matching argument.

  The program flattens each argument [8, 256, 48, 48] to [2048, 2304] before the region, the region leaves in
  each [2048, 1] result array the pooled column of its flattened view, and the lines after the region re-lay each
  column as [8, 256]. Composed, result k is flatten, pool each row, re-lay — the function the specification calls
  the pooled view — of argument k. No line writes an argument, so the arguments end as they began.
-/
import proofs.«103361_g2000304880361579_pallasbulk_792_2_alg».proof.Proof.Gen.KernelIdeal.Frame
import proofs.«103361_g2000304880361579_pallasbulk_792_2_alg».proof.Proof.PoolSpec
import proofs.«103361_g2000304880361579_pallasbulk_792_2_alg».proof.Proof.LibKeepdims
import proofs.«103361_g2000304880361579_pallasbulk_792_2_alg».proof.Proof.KernelBlocks

noncomputable section

namespace Cert.KernelSide

open Cert.KernelIdeal
open Cert.KernelIdeal.Gen
open Idealize.ShloMosaic Idealize.ShloMosaic.ValueIdx Idealize.ShloMosaic.TcCoe Idealize.SL.Sem
open Idealize.ShloMosaic.Pipeline (Dat)

section
variable (m : (ℓ : Loc nD τ sig) → Buf (Elt Ideal) ℓ)

/-! ## Before the region: the four flattened views -/

/-- The first flattened view as the region finds it: the argument array re-laid as [2048, 2304]. -/
theorem flat0 (c : Dev nD) :
    (V m c main_v0 : FVec Ideal Cert.Pool.SFlat .f32)
      = shapeCast Cert.Pool.SFlat (m ((c.tc : Thread nD τ).loc main_arg0) : FVec Ideal Cert.Pool.SIn .f32) Cert.Pool.hin := by
  show StableHlo.after hostOps0 (fun b => m (c, b)) (Proc.devRef .tc main_v0) = _
  after_results
  rfl

/-- The second flattened view as the region finds it: the argument array re-laid as [2048, 2304]. -/
theorem flat1 (c : Dev nD) :
    (V m c main_v1 : FVec Ideal Cert.Pool.SFlat .f32)
      = shapeCast Cert.Pool.SFlat (m ((c.tc : Thread nD τ).loc main_arg1) : FVec Ideal Cert.Pool.SIn .f32) Cert.Pool.hin := by
  show StableHlo.after hostOps0 (fun b => m (c, b)) (Proc.devRef .tc main_v1) = _
  after_results
  rfl

/-- The third flattened view as the region finds it: the argument array re-laid as [2048, 2304]. -/
theorem flat2 (c : Dev nD) :
    (V m c main_v2 : FVec Ideal Cert.Pool.SFlat .f32)
      = shapeCast Cert.Pool.SFlat (m ((c.tc : Thread nD τ).loc main_arg2) : FVec Ideal Cert.Pool.SIn .f32) Cert.Pool.hin := by
  show StableHlo.after hostOps0 (fun b => m (c, b)) (Proc.devRef .tc main_v2) = _
  after_results
  rfl

/-- The fourth flattened view as the region finds it: the argument array re-laid as [2048, 2304]. -/
theorem flat3 (c : Dev nD) :
    (V m c main_v3 : FVec Ideal Cert.Pool.SFlat .f32)
      = shapeCast Cert.Pool.SFlat (m ((c.tc : Thread nD τ).loc main_arg3) : FVec Ideal Cert.Pool.SIn .f32) Cert.Pool.hin := by
  show StableHlo.after hostOps0 (fun b => m (c, b)) (Proc.devRef .tc main_v3) = _
  after_results
  rfl

/-! ## After the region: each pooled column re-laid as [8, 256] -/

/-- The first result after the lines that follow the region: the pooled first view. -/
theorem result5 (c : Dev nD) :
    Pipeline.afterTail₀ cfgs (dats m) 0 (V0 m) [hostOps1] c main_v5
      = Cert.Pool.G (m ((c.tc : Thread nD τ).loc main_arg0)) := by
  unfold Pipeline.afterTail₀
  show StableHlo.after hostOps1 _ (Proc.devRef .tc main_v5) = _
  after_results
  have e := (Pipeline.withArrays_arr spec0 launch0.win.arr_inj c (V0 m c) (fun w => (dats m 0 c).arrAt w cfg0.N) 4).trans
    (column4 m c)
  show shapeCast Cert.Pool.SOut (Pipeline.withArrays spec0 c (V0 m c) (fun w => (dats m 0 c).arrAt w cfg0.N)
      (Proc.devRef .tc (Pipeline.arrRef spec0 4))) Cert.Pool.hout = _
  rw [e, flat0]
  rfl

/-- The second result after the lines that follow the region: the pooled second view. -/
theorem result6 (c : Dev nD) :
    Pipeline.afterTail₀ cfgs (dats m) 0 (V0 m) [hostOps1] c main_v6
      = Cert.Pool.G (m ((c.tc : Thread nD τ).loc main_arg1)) := by
  unfold Pipeline.afterTail₀
  show StableHlo.after hostOps1 _ (Proc.devRef .tc main_v6) = _
  after_results
  have e := (Pipeline.withArrays_arr spec0 launch0.win.arr_inj c (V0 m c) (fun w => (dats m 0 c).arrAt w cfg0.N) 5).trans
    (column5 m c)
  show shapeCast Cert.Pool.SOut (Pipeline.withArrays spec0 c (V0 m c) (fun w => (dats m 0 c).arrAt w cfg0.N)
      (Proc.devRef .tc (Pipeline.arrRef spec0 5))) Cert.Pool.hout = _
  rw [e, flat1]
  rfl

/-- The third result after the lines that follow the region: the pooled third view. -/
theorem result7 (c : Dev nD) :
    Pipeline.afterTail₀ cfgs (dats m) 0 (V0 m) [hostOps1] c main_v7
      = Cert.Pool.G (m ((c.tc : Thread nD τ).loc main_arg2)) := by
  unfold Pipeline.afterTail₀
  show StableHlo.after hostOps1 _ (Proc.devRef .tc main_v7) = _
  after_results
  have e := (Pipeline.withArrays_arr spec0 launch0.win.arr_inj c (V0 m c) (fun w => (dats m 0 c).arrAt w cfg0.N) 6).trans
    (column6 m c)
  show shapeCast Cert.Pool.SOut (Pipeline.withArrays spec0 c (V0 m c) (fun w => (dats m 0 c).arrAt w cfg0.N)
      (Proc.devRef .tc (Pipeline.arrRef spec0 6))) Cert.Pool.hout = _
  rw [e, flat2]
  rfl

/-- The fourth result after the lines that follow the region: the pooled fourth view. -/
theorem result8 (c : Dev nD) :
    Pipeline.afterTail₀ cfgs (dats m) 0 (V0 m) [hostOps1] c main_v8
      = Cert.Pool.G (m ((c.tc : Thread nD τ).loc main_arg3)) := by
  unfold Pipeline.afterTail₀
  show StableHlo.after hostOps1 _ (Proc.devRef .tc main_v8) = _
  after_results
  have e := (Pipeline.withArrays_arr spec0 launch0.win.arr_inj c (V0 m c) (fun w => (dats m 0 c).arrAt w cfg0.N) 7).trans
    (column7 m c)
  show shapeCast Cert.Pool.SOut (Pipeline.withArrays spec0 c (V0 m c) (fun w => (dats m 0 c).arrAt w cfg0.N)
      (Proc.devRef .tc (Pipeline.arrRef spec0 7))) Cert.Pool.hout = _
  rw [e, flat3]
  rfl

end

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Pool.G (m ((c.tc : Thread nD τ).loc main_arg0))
      ∧ r.2.mem ((c.tc : Thread nD τ).loc main_v6) = Cert.Pool.G (m ((c.tc : Thread nD τ).loc main_arg1))
      ∧ r.2.mem ((c.tc : Thread nD τ).loc main_v7) = Cert.Pool.G (m ((c.tc : Thread nD τ).loc main_arg2))
      ∧ r.2.mem ((c.tc : Thread nD τ).loc main_v8) = Cert.Pool.G (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v5 (Pipeline.mem_restRefs_of main_v5 (by decide) (by decide))).trans (result5 m c),
      ((h c).2 main_v6 (Pipeline.mem_restRefs_of main_v6 (by decide) (by decide))).trans (result6 m c),
      ((h c).2 main_v7 (Pipeline.mem_restRefs_of main_v7 (by decide) (by decide))).trans (result7 m c),
      ((h c).2 main_v8 (Pipeline.mem_restRefs_of main_v8 (by decide) (by decide))).trans (result8 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (Cert.KernelIdeal.Gen.run_main (F := Ideal) m ρ)

end Cert.KernelSide

end
-- ==== Proof.RefBody0.lean ====
/-
  One pooling region of the reference, its body run at a grid point.

  The region walks a grid of 8 row blocks by 2 lane tiles. At a point (r, k) the body first clears the
  accumulator (a [256, 1] scratch) when k = 0, then adds to it the lane sums of the staged tile with the lanes
  beyond the row's end masked to zero, and, when k = 1, multiplies the accumulator by the reciprocal of the pixel
  count and stores that into the output's staging buffer. So there are two kinds of points: at an even point
  (k = 0) the scratch is rebuilt from nothing and the output's buffer is left alone; at an odd point (k = 1) the
  scratch is read, extended, and the output's buffer is written whole.

  This module decides the two branch conditions over the grid, says where the output window is idle, and runs
  the body symbolically in each of the two cases on arbitrary whole memrefs: what the scratch and the output
  buffer end up holding is recorded as the list of stores made into them.
-/
import proofs.«103361_g2000304880361579_pallasbulk_792_2_alg».proof.Proof.Gen.ReferenceIdeal.Launch
import proofs.«103361_g2000304880361579_pallasbulk_792_2_alg».proof.Proof.Gen.ReferenceIdeal.Skeleton
import proofs.«103361_g2000304880361579_pallasbulk_792_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.RefRegion0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- "This is the first lane tile of its row block" (k = 0): the accumulator is cleared. -/
abbrev condFirst (i : grid0.Coords) : Prop :=
  (Scalar.cmpi .ne (Scalar.extui (Scalar.cmpi .eq (BitVec.ofNat 32 (i 1).val) 0#32)) 0#32) = 1#1
/-- It holds at the even points. -/
theorem hcondFirst : ∀ t : Fin cfg0.N, condFirst (grid0.coords t) ↔ t.val % 2 = 0 :=
  (by decide +kernel : ∀ t : Fin grid0.N, condFirst (grid0.coords t) ↔ t.val % 2 = 0)

/-- "This is the last lane tile of its row block" (k = 1): the mean is stored. -/
abbrev condLast (i : grid0.Coords) : Prop := k0_cond2 i = 1#1
/-- It holds at the odd points. -/
theorem hcondLast : ∀ t : Fin cfg0.N, condLast (grid0.coords t) ↔ t.val % 2 = 1 :=
  (by decide +kernel : ∀ t : Fin grid0.N, condLast (grid0.coords t) ↔ t.val % 2 = 1)

/-! ## Where the windows are idle -/

/-- The input window is never idle. -/
theorem live_in : ∀ t : Fin cfg0.N, cfg0.idle 0 (grid0.coords t) = false := by decide +kernel
/-- At an even point nothing is stored into the output's buffer, and the block is not written back. -/
theorem idle_out_even : ∀ t : Fin cfg0.N, t.val % 2 = 0 → cfg0.idle 1 (grid0.coords t) = true := by decide +kernel
theorem noflush_out_even : ∀ t : Fin cfg0.N, t.val % 2 = 0 → (cfg0.win 1).flush t = false := by decide +kernel
/-- At an odd point the output's buffer is stored whole and written back. -/
theorem live_out_odd : ∀ t : Fin cfg0.N, t.val % 2 = 1 → cfg0.idle 1 (grid0.coords t) = false := by decide +kernel
theorem flush_out_odd : ∀ t : Fin cfg0.N, t.val % 2 = 1 → (cfg0.win 1).flush t = true := by decide +kernel
/-- The output window is never fetched. -/
theorem nofetch_out : ∀ t : Fin cfg0.N, (cfg0.win 1).fetch t = false := by decide +kernel

/-! ## The memrefs the body is called with -/

abbrev ms_in (t : Fin cfg0.N) : Memref sig .tc .vmem S256x2048 .f32 := win0_0.stage (cfg0.slots t 0)
abbrev hs_in (t : Fin cfg0.N) : (ms_in t).IsWhole := hstage0_0 ((cfg0.slots t 0).cast nbuf0_0)
abbrev ms_out (t : Fin cfg0.N) : Memref sig .tc .vmem S256x1 .f32 := win0_1.stage (cfg0.slots t 1)
abbrev hs_out (t : Fin cfg0.N) : (ms_out t).IsWhole := hstage0_1 ((cfg0.slots t 1).cast nbuf0_1)
/-- The accumulator: a whole scoped buffer of the kernel's own. -/
abbrev scM : Memref sig .tc .vmem S256x1 .f32 := Memref.whole cc0_scratch0
/-- Views through which the accumulator's and the output buffer's contents are stated. -/
abbrev VS : View sig .tc .vmem S256x1 .f32 := scM.view
abbrev VO : View sig .tc .vmem S256x1 .f32 := (Memref.whole cc0_stg1_0 : Memref sig .tc .vmem S256x1 .f32).view

/-- Every scoped buffer that is neither a staging buffer of this region nor its accumulator, at some contents each:
    the other regions' buffers, which ride through this region unopened. -/
abbrev others (c : Dev nD) : sProp 𝕄 :=
  Pipeline.scopedRestBut (Ix := Unit) (Name := ℕ) (U := UR sig nD τ) (Lvl := ℕ) (Val := Elt F) spec0 c [cc0_scratch0]

/-- The region's resting invariant: the accumulator (as a memref) at some contents, the other scoped buffers, and the
    generator register at some state. -/
theorem PhiA_eq (c : Dev nD) :
    (Pipeline.ΦA spec0 c : sProp 𝕄)
      = iprop(iprop((∃ d, owns (c : Thread nD τ) scM fullShare d) ∗ others c) ∗ (∃ r, prngReg c r)) := by
  have h : (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
    Pipeline.scopedRest_split_of_list spec0 c [cc0_scratch0] (by decide) (by decide)
  unfold Pipeline.ΦA; rw [h]; simp only [scM, owns_whole]; try rfl

/-! ## The body run in each case -/

set_option maxHeartbeats 1000000 in
/-- AT AN EVEN POINT (the first condition holds, the second does not): on whole memrefs, the input's at contents
    `x0`, the output's at contents `xi1` that are handed back untouched, the accumulator at anything, the body runs
    to the continuation with the input's as it was and the accumulator holding the stores `LS` (last first). -/
noncomputable def runEven (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) :
    { LS : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc0__sum_pool_kernel i arg2 harg2 arg3 harg3 arg4 harg4) K } := by
  refine ⟨?_, fun xi1 E K => ?run⟩
  case run =>
    simp only [cc0__sum_pool_kernel_eq_skeleton]; unfold cc0__sum_pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- AT AN ODD POINT (the first condition fails, the second holds): on whole memrefs, the input's at contents `x0`,
    the output's at anything, the accumulator at the contents `xs` the point before left, the body runs to the
    continuation with the input's as it was, the output's buffer holding the stores `LO` and the accumulator the
    stores `LS` (last first). -/
noncomputable def runOdd (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__sum_pool_kernel i arg2 harg2 arg3 harg3 arg4 harg4) K } := by
  refine ⟨?_, ?_, fun E K => ?run⟩
  case run =>
    simp only [cc0__sum_pool_kernel_eq_skeleton]; unfold cc0__sum_pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the two runs leave, read back as the body's payloads -/

theorem hz2 : (![0, 0] : Fin 2 → Nat) = fun _ => 0 := funext fun a => by fin_cases a <;> rfl

/-- At an even point the accumulator's stores cover it. -/
theorem scoverEven (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) (y : S256x1.Idx) :
    ∃ pc ∈ (runEven c i arg2 harg2 arg3 harg3 arg4 harg4 hc0 hc1 x0).1, y ∈ pc.1.set :=
  View.cover_of_tiledL (runEven c i arg2 harg2 arg3 harg3 arg4 harg4 hc0 hc1 x0).1 S256x1.size (by sl_kernel_rfl) y

/-- What an even point leaves in the accumulator. -/
def soutEven (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : Vec F S256x1 .f32 :=
  VS.read (Elt F) (VS.writes (Elt F) VS.junk (runEven c i arg2 harg2 arg3 harg3 arg4 harg4 hc0 hc1 x0).1)

/-- It is the accumulation step applied to the cleared accumulator: the last store covers the buffer, and the
    accumulator it read back is what the clearing store wrote. -/
theorem soutEven_eq (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : soutEven c i arg2 harg2 arg3 harg3 arg4 harg4 hc0 hc1 x0 = k0_pay2 i x0 (k0_pay1 (F := F)) := by
  unfold soutEven
  rw [View.read_writes_eq_canon _ _ _ (scoverEven c i arg2 harg2 arg3 harg3 arg4 harg4 hc0 hc1 x0)]
  unfold runEven; dsimp only
  rw [View.canon_cons_unit_zero hz2]
  sl_unfold_words
  rw [View.readCov_unit_zero arg4.view hz2, View.readAt_eq_ld, harg2.read_unread, View.ld_unit_zero (S := S256x2048) hz2]

/-- At an odd point the accumulator's stores cover it, and so do the output buffer's. -/
theorem scoverOdd (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).2.1, y ∈ pc.1.set :=
  View.cover_of_tiledL (runOdd c i arg2 harg2 arg3 harg3 arg4 harg4 hc0 hc1 x0 xs).2.1 S256x1.size (by sl_kernel_rfl) y
theorem coverOdd (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).1, y ∈ pc.1.set :=
  View.cover_of_tiledL (runOdd c i arg2 harg2 arg3 harg3 arg4 harg4 hc0 hc1 x0 xs).1 S256x1.size (by sl_kernel_rfl) y

/-- What an odd point leaves in the accumulator and in the output's buffer. -/
def soutOdd (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VS.read (Elt F) (VS.writes (Elt F) VS.junk (runOdd c i arg2 harg2 arg3 harg3 arg4 harg4 hc0 hc1 x0 xs).2.1)
def outOdd (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VO.read (Elt F) (VO.writes (Elt F) VO.junk (runOdd c i arg2 harg2 arg3 harg3 arg4 harg4 hc0 hc1 x0 xs).1)

/-- The accumulator: the accumulation step applied to what the point before left. -/
theorem soutOdd_eq (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : soutOdd c i arg2 harg2 arg3 harg3 arg4 harg4 hc0 hc1 x0 xs = k0_pay2 i x0 xs := by
  unfold soutOdd
  rw [View.read_writes_eq_canon _ _ _ (scoverOdd c i arg2 harg2 arg3 harg3 arg4 harg4 hc0 hc1 x0 xs)]
  unfold runOdd; dsimp only
  sl_unfold_words
  rw [View.canon_unit_zero hz2]
  simp only [View.readAt_eq_ld, harg2.read_unread, harg4.read_unread, View.ld_unit_zero (S := S256x2048) hz2, View.ld_unit_zero (S := S256x1) hz2]

/-- The output's buffer: the new accumulator times the reciprocal of the pixel count. -/
theorem outOdd_eq (c : Dev nD) (i : grid0.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : outOdd c i arg2 harg2 arg3 harg3 arg4 harg4 hc0 hc1 x0 xs = k0_pay3 (k0_pay2 i x0 xs) := by
  unfold outOdd
  rw [View.read_writes_eq_canon _ _ _ (coverOdd c i arg2 harg2 arg3 harg3 arg4 harg4 hc0 hc1 x0 xs)]
  unfold runOdd; dsimp only
  rw [View.canon_unit_zero hz2]
  sl_unfold_words
  rw [View.readCov_unit_zero arg4.view hz2]
  simp only [View.readAt_eq_ld, harg2.read_unread, harg4.read_unread, View.ld_unit_zero (S := S256x2048) hz2, View.ld_unit_zero (S := S256x1) hz2]

end Cert.RefRegion0

end
-- ==== Proof.RefPayload.lean ====
/-
  The arithmetic of the reference's pooling kernel, read at an index.

  Each of the reference's four kernels visits a view's flattened rows tile by tile: a tile is 2048 lanes of a
  block of 256 rows, and a row of 2304 entries is covered by two tiles, the second of which overhangs the row by
  1792 lanes. A scratch column holds the running row sums. Three values are stored: at the first tile the scratch
  is set to zero; at every tile the scratch gets, added to it, the sum over the tile's lanes of the entries whose
  position in the row, (tile position) · 2048 + lane, lies below 2304 (the lanes outside the row are replaced
  by zero before summing); after the last tile the scratch times the reciprocal of the pixel count is the result.

  The mask compares 32-bit words as signed integers. A tile position is 0 or 1 and a lane is below 2048, so
  position · 2048 + lane is below 4096: nothing wraps, both sides of the comparison are small nonnegative numbers,
  and the comparison is that of the natural numbers.

  Two steps on one row, from the zeroed scratch, then give (0 + first tile's sum) + second tile's masked sum,
  which is the sum of the row's 2304 entries by the two-tile law; no finiteness is involved, only the laws of a
  commutative additive monoid on the extended reals.
-/
import proofs.«103361_g2000304880361579_pallasbulk_792_2_alg».proof.Proof.Gen.ReferenceIdeal.Skeleton
import proofs.«103361_g2000304880361579_pallasbulk_792_2_alg».proof.Proof.PoolSpec
import proofs.«103361_g2000304880361579_pallasbulk_792_2_alg».proof.Proof.LibKeepdims
import Idealize.ShloMosaic.Lib.ValueIdx
import Idealize.ShloMosaic.Lib.Pipeline.Value

noncomputable section

open scoped BigOperators

namespace Cert.RefPayload

open Idealize.ShloMosaic Idealize.ShloMosaic.ValueIdx
open Cert.ReferenceIdeal Cert.ReferenceIdeal.Gen

/-- A small natural number, as a 32-bit word, reads back as itself when the word is read signed. -/
theorem toInt_small (n : ℕ) (hn : n < 2 ^ 31) : (BitVec.ofNat 32 n).toInt = (n : ℤ) := by
  have h : (BitVec.ofNat 32 n).toNat = n := by
    rw [BitVec.toNat_ofNat]
    exact Nat.mod_eq_of_lt (by omega)
  rw [BitVec.toInt_eq_toNat_of_lt (by rw [h]; omega), h]

/-- The mask bit of lane j of the tile at position a (a is 0 or 1, j below 2048): the signed 32-bit comparison of
    a · 2048 + j with 2304 is the comparison of the natural numbers, since nothing wraps. -/
theorem mask_bit (a j : ℕ) (ha : a < 2) (hj : j < 2048) :
    IntOp.cmpi .slt (IntOp.addi (Scalar.muli (BitVec.ofNat 32 a) 2048#32) (BitVec.ofNat 32 j)) 2304#32
      = if a * 2048 + j < 2304 then 1#1 else 0#1 := by
  have e : IntOp.addi (Scalar.muli (BitVec.ofNat 32 a) 2048#32) (BitVec.ofNat 32 j) = BitVec.ofNat 32 (a * 2048 + j) := by
    show BitVec.ofNat 32 a * BitVec.ofNat 32 2048 + BitVec.ofNat 32 j = _
    rw [← BitVec.ofNat_mul, ← BitVec.ofNat_add]
  rw [e]
  have hn : a * 2048 + j < 2 ^ 31 := by omega
  have h2304 : (2304#32 : BitVec 32).toInt = (2304 : ℤ) := toInt_small 2304 (by omega)
  unfold IntOp.cmpi
  dsimp only
  by_cases h : a * 2048 + j < 2304
  · rw [if_pos h]
    have hs : (BitVec.ofNat 32 (a * 2048 + j)).slt 2304#32 = true := by
      rw [BitVec.slt_iff_toInt_lt, toInt_small _ hn, h2304]
      exact_mod_cast h
    rw [hs]
    rfl
  · rw [if_neg h]
    have hs : (BitVec.ofNat 32 (a * 2048 + j)).slt 2304#32 = false := by
      rw [Bool.eq_false_iff]
      intro hh
      rw [BitVec.slt_iff_toInt_lt, toInt_small _ hn, h2304] at hh
      exact h (by exact_mod_cast hh)
    rw [hs]
    rfl

/-! ## Kernel 0 -/

/-- The first payload of kernel 0: the splat of the zero word, which is the extended real zero. -/
theorem pay1_0 (p : Fin 256) (z : Fin 1) : (k0_pay1 (F := Ideal)) (ix2 p z) = 0 := by
  unfold k0_pay1
  rw [shapeCast_self]
  exact Ideal.ofBits_zero_f32

/-- The accumulation step of kernel 0 at row p: the scratch entry plus the sum over the tile's 2048 lanes of the
    entries whose position in the row, (i 1) · 2048 + j, lies below 2304 (the others are masked to zero). -/
theorem pay2_0 (i : grid0.Coords) (x : Vec Ideal S256x2048 .f32) (s : Vec Ideal S256x1 .f32) (p : Fin 256) (z : Fin 1) :
    k0_pay2 (F := Ideal) i x s (ix2 p z)
      = s (ix2 p z) + ∑ j : Fin 2048, (if (i 1).val * 2048 + j.val < 2304 then x (ix2 p j) else 0) := by
  have hi : (i 1).val < 2 := (i 1).isLt
  unfold k0_pay2
  refine (congrFun (shapeCast_self _ _) (ix2 p z)).trans ?_
  refine (addf_apply _ _ _).trans ?_
  refine congrArg (fun t => s (ix2 p z) + t) ?_
  refine (LibKeepdims.shapeCast_col_apply _ _ p z).trans ?_
  refine (LibKeepdims.sum_axis1_apply _ _ _ _ _ p).trans ?_
  refine Finset.sum_congr rfl fun j _ => ?_
  refine (select_apply _ _ _ _).trans ?_
  have hm : (cmpi .slt (addi (broadcast S256x2048 (Scalar.muli (BitVec.ofNat 32 (i 1).val) 2048#32))
        (iota .tc S256x2048 32 [1] iota_S256x2048_d1_w32)) (broadcast S256x2048 2304#32)) (ix2 p j)
      = if (i 1).val * 2048 + j.val < 2304 then 1#1 else 0#1 := by
    show IntOp.cmpi .slt (IntOp.addi (Scalar.muli (BitVec.ofNat 32 (i 1).val) 2048#32)
        (iota .tc S256x2048 32 [1] iota_S256x2048_d1_w32 (ix2 p j))) 2304#32 = _
    rw [iota_single_apply]
    exact mask_bit _ _ hi j.isLt
  rw [hm, shapeCast_self]
  by_cases h : (i 1).val * 2048 + j.val < 2304
  · rw [if_pos h, if_pos h, select_one]
  · rw [if_neg h, if_neg h, select_zero]
    exact Ideal.ofBits_zero_f32

/-- The last payload of kernel 0: the scratch entry times the reciprocal of the pixel count. -/
theorem pay3_0 (v : Vec Ideal S256x1 .f32) (p : Fin 256) (z : Fin 1) :
    k0_pay3 (F := Ideal) v (ix2 p z) = v (ix2 p z) * Cert.Pool.invHW := rfl

/-- The two accumulation steps of kernel 0 on one row, followed by the scaling: starting from the zeroed scratch,
    the first tile (position 0) adds its 2048 lanes, all inside the row; the second tile (position 1) adds the
    lanes whose position 2048 + j lies below 2304. Together that is the sum of the row's 2304 entries, and the last
    payload multiplies it by the reciprocal of the pixel count. Only the commutative-monoid laws of + are used. -/
theorem two_steps_0 (i0 i1 : grid0.Coords) (h0 : (i0 1).val = 0) (h1 : (i1 1).val = 1)
    (x0 x1 : Vec Ideal S256x2048 .f32) (g : ℕ → EReal) (p : Fin 256) (z : Fin 1)
    (hx0 : ∀ j : Fin 2048, x0 (ix2 p j) = g j.val)
    (hx1 : ∀ j : Fin 2048, 2048 + j.val < 2304 → x1 (ix2 p j) = g (2048 + j.val)) :
    k0_pay3 (F := Ideal) (k0_pay2 (F := Ideal) i1 x1 (k0_pay2 (F := Ideal) i0 x0 (k0_pay1 (F := Ideal)))) (ix2 p z)
      = (∑ j : Fin 2304, g j.val) * Cert.Pool.invHW := by
  rw [pay3_0, pay2_0, pay2_0, pay1_0, h0, h1, zero_add, ← Cert.Pool.sum_two_tiles g]
  refine congrArg (fun t => t * Cert.Pool.invHW) ?_
  refine congrArg₂ (fun a b => a + b) ?_ ?_
  · refine Finset.sum_congr rfl fun j _ => ?_
    have hc : 0 * 2048 + j.val < 2304 := by have := j.isLt; omega
    rw [if_pos hc, hx0]
  · refine Finset.sum_congr rfl fun j _ => ?_
    by_cases h : 2048 + j.val < 2304
    · have hc : 1 * 2048 + j.val < 2304 := by omega
      rw [if_pos hc, if_pos h, hx1 j h]
    · have hc : ¬ 1 * 2048 + j.val < 2304 := by omega
      rw [if_neg hc, if_neg h]

/-! ## Kernel 1 -/

/-- The first payload of kernel 1: the splat of the zero word, which is the extended real zero. -/
theorem pay1_1 (p : Fin 256) (z : Fin 1) : (k1_pay1 (F := Ideal)) (ix2 p z) = 0 := by
  unfold k1_pay1
  rw [shapeCast_self]
  exact Ideal.ofBits_zero_f32

/-- The accumulation step of kernel 1 at row p: the scratch entry plus the sum over the tile's 2048 lanes of the
    entries whose position in the row, (i 1) · 2048 + j, lies below 2304 (the others are masked to zero). -/
theorem pay2_1 (i : grid1.Coords) (x : Vec Ideal S256x2048 .f32) (s : Vec Ideal S256x1 .f32) (p : Fin 256) (z : Fin 1) :
    k1_pay2 (F := Ideal) i x s (ix2 p z)
      = s (ix2 p z) + ∑ j : Fin 2048, (if (i 1).val * 2048 + j.val < 2304 then x (ix2 p j) else 0) := by
  have hi : (i 1).val < 2 := (i 1).isLt
  unfold k1_pay2
  refine (congrFun (shapeCast_self _ _) (ix2 p z)).trans ?_
  refine (addf_apply _ _ _).trans ?_
  refine congrArg (fun t => s (ix2 p z) + t) ?_
  refine (LibKeepdims.shapeCast_col_apply _ _ p z).trans ?_
  refine (LibKeepdims.sum_axis1_apply _ _ _ _ _ p).trans ?_
  refine Finset.sum_congr rfl fun j _ => ?_
  refine (select_apply _ _ _ _).trans ?_
  have hm : (cmpi .slt (addi (broadcast S256x2048 (Scalar.muli (BitVec.ofNat 32 (i 1).val) 2048#32))
        (iota .tc S256x2048 32 [1] iota_S256x2048_d1_w32)) (broadcast S256x2048 2304#32)) (ix2 p j)
      = if (i 1).val * 2048 + j.val < 2304 then 1#1 else 0#1 := by
    show IntOp.cmpi .slt (IntOp.addi (Scalar.muli (BitVec.ofNat 32 (i 1).val) 2048#32)
        (iota .tc S256x2048 32 [1] iota_S256x2048_d1_w32 (ix2 p j))) 2304#32 = _
    rw [iota_single_apply]
    exact mask_bit _ _ hi j.isLt
  rw [hm, shapeCast_self]
  by_cases h : (i 1).val * 2048 + j.val < 2304
  · rw [if_pos h, if_pos h, select_one]
  · rw [if_neg h, if_neg h, select_zero]
    exact Ideal.ofBits_zero_f32

/-- The last payload of kernel 1: the scratch entry times the reciprocal of the pixel count. -/
theorem pay3_1 (v : Vec Ideal S256x1 .f32) (p : Fin 256) (z : Fin 1) :
    k1_pay3 (F := Ideal) v (ix2 p z) = v (ix2 p z) * Cert.Pool.invHW := rfl

/-- The two accumulation steps of kernel 1 on one row, followed by the scaling: starting from the zeroed scratch,
    the first tile (position 0) adds its 2048 lanes, all inside the row; the second tile (position 1) adds the
    lanes whose position 2048 + j lies below 2304. Together that is the sum of the row's 2304 entries, and the last
    payload multiplies it by the reciprocal of the pixel count. Only the commutative-monoid laws of + are used. -/
theorem two_steps_1 (i0 i1 : grid1.Coords) (h0 : (i0 1).val = 0) (h1 : (i1 1).val = 1)
    (x0 x1 : Vec Ideal S256x2048 .f32) (g : ℕ → EReal) (p : Fin 256) (z : Fin 1)
    (hx0 : ∀ j : Fin 2048, x0 (ix2 p j) = g j.val)
    (hx1 : ∀ j : Fin 2048, 2048 + j.val < 2304 → x1 (ix2 p j) = g (2048 + j.val)) :
    k1_pay3 (F := Ideal) (k1_pay2 (F := Ideal) i1 x1 (k1_pay2 (F := Ideal) i0 x0 (k1_pay1 (F := Ideal)))) (ix2 p z)
      = (∑ j : Fin 2304, g j.val) * Cert.Pool.invHW := by
  rw [pay3_1, pay2_1, pay2_1, pay1_1, h0, h1, zero_add, ← Cert.Pool.sum_two_tiles g]
  refine congrArg (fun t => t * Cert.Pool.invHW) ?_
  refine congrArg₂ (fun a b => a + b) ?_ ?_
  · refine Finset.sum_congr rfl fun j _ => ?_
    have hc : 0 * 2048 + j.val < 2304 := by have := j.isLt; omega
    rw [if_pos hc, hx0]
  · refine Finset.sum_congr rfl fun j _ => ?_
    by_cases h : 2048 + j.val < 2304
    · have hc : 1 * 2048 + j.val < 2304 := by omega
      rw [if_pos hc, if_pos h, hx1 j h]
    · have hc : ¬ 1 * 2048 + j.val < 2304 := by omega
      rw [if_neg hc, if_neg h]

/-! ## Kernel 2 -/

/-- The first payload of kernel 2: the splat of the zero word, which is the extended real zero. -/
theorem pay1_2 (p : Fin 256) (z : Fin 1) : (k2_pay1 (F := Ideal)) (ix2 p z) = 0 := by
  unfold k2_pay1
  rw [shapeCast_self]
  exact Ideal.ofBits_zero_f32

/-- The accumulation step of kernel 2 at row p: the scratch entry plus the sum over the tile's 2048 lanes of the
    entries whose position in the row, (i 1) · 2048 + j, lies below 2304 (the others are masked to zero). -/
theorem pay2_2 (i : grid2.Coords) (x : Vec Ideal S256x2048 .f32) (s : Vec Ideal S256x1 .f32) (p : Fin 256) (z : Fin 1) :
    k2_pay2 (F := Ideal) i x s (ix2 p z)
      = s (ix2 p z) + ∑ j : Fin 2048, (if (i 1).val * 2048 + j.val < 2304 then x (ix2 p j) else 0) := by
  have hi : (i 1).val < 2 := (i 1).isLt
  unfold k2_pay2
  refine (congrFun (shapeCast_self _ _) (ix2 p z)).trans ?_
  refine (addf_apply _ _ _).trans ?_
  refine congrArg (fun t => s (ix2 p z) + t) ?_
  refine (LibKeepdims.shapeCast_col_apply _ _ p z).trans ?_
  refine (LibKeepdims.sum_axis1_apply _ _ _ _ _ p).trans ?_
  refine Finset.sum_congr rfl fun j _ => ?_
  refine (select_apply _ _ _ _).trans ?_
  have hm : (cmpi .slt (addi (broadcast S256x2048 (Scalar.muli (BitVec.ofNat 32 (i 1).val) 2048#32))
        (iota .tc S256x2048 32 [1] iota_S256x2048_d1_w32)) (broadcast S256x2048 2304#32)) (ix2 p j)
      = if (i 1).val * 2048 + j.val < 2304 then 1#1 else 0#1 := by
    show IntOp.cmpi .slt (IntOp.addi (Scalar.muli (BitVec.ofNat 32 (i 1).val) 2048#32)
        (iota .tc S256x2048 32 [1] iota_S256x2048_d1_w32 (ix2 p j))) 2304#32 = _
    rw [iota_single_apply]
    exact mask_bit _ _ hi j.isLt
  rw [hm, shapeCast_self]
  by_cases h : (i 1).val * 2048 + j.val < 2304
  · rw [if_pos h, if_pos h, select_one]
  · rw [if_neg h, if_neg h, select_zero]
    exact Ideal.ofBits_zero_f32

/-- The last payload of kernel 2: the scratch entry times the reciprocal of the pixel count. -/
theorem pay3_2 (v : Vec Ideal S256x1 .f32) (p : Fin 256) (z : Fin 1) :
    k2_pay3 (F := Ideal) v (ix2 p z) = v (ix2 p z) * Cert.Pool.invHW := rfl

/-- The two accumulation steps of kernel 2 on one row, followed by the scaling: starting from the zeroed scratch,
    the first tile (position 0) adds its 2048 lanes, all inside the row; the second tile (position 1) adds the
    lanes whose position 2048 + j lies below 2304. Together that is the sum of the row's 2304 entries, and the last
    payload multiplies it by the reciprocal of the pixel count. Only the commutative-monoid laws of + are used. -/
theorem two_steps_2 (i0 i1 : grid2.Coords) (h0 : (i0 1).val = 0) (h1 : (i1 1).val = 1)
    (x0 x1 : Vec Ideal S256x2048 .f32) (g : ℕ → EReal) (p : Fin 256) (z : Fin 1)
    (hx0 : ∀ j : Fin 2048, x0 (ix2 p j) = g j.val)
    (hx1 : ∀ j : Fin 2048, 2048 + j.val < 2304 → x1 (ix2 p j) = g (2048 + j.val)) :
    k2_pay3 (F := Ideal) (k2_pay2 (F := Ideal) i1 x1 (k2_pay2 (F := Ideal) i0 x0 (k2_pay1 (F := Ideal)))) (ix2 p z)
      = (∑ j : Fin 2304, g j.val) * Cert.Pool.invHW := by
  rw [pay3_2, pay2_2, pay2_2, pay1_2, h0, h1, zero_add, ← Cert.Pool.sum_two_tiles g]
  refine congrArg (fun t => t * Cert.Pool.invHW) ?_
  refine congrArg₂ (fun a b => a + b) ?_ ?_
  · refine Finset.sum_congr rfl fun j _ => ?_
    have hc : 0 * 2048 + j.val < 2304 := by have := j.isLt; omega
    rw [if_pos hc, hx0]
  · refine Finset.sum_congr rfl fun j _ => ?_
    by_cases h : 2048 + j.val < 2304
    · have hc : 1 * 2048 + j.val < 2304 := by omega
      rw [if_pos hc, if_pos h, hx1 j h]
    · have hc : ¬ 1 * 2048 + j.val < 2304 := by omega
      rw [if_neg hc, if_neg h]

/-! ## Kernel 3 -/

/-- The first payload of kernel 3: the splat of the zero word, which is the extended real zero. -/
theorem pay1_3 (p : Fin 256) (z : Fin 1) : (k3_pay1 (F := Ideal)) (ix2 p z) = 0 := by
  unfold k3_pay1
  rw [shapeCast_self]
  exact Ideal.ofBits_zero_f32

/-- The accumulation step of kernel 3 at row p: the scratch entry plus the sum over the tile's 2048 lanes of the
    entries whose position in the row, (i 1) · 2048 + j, lies below 2304 (the others are masked to zero). -/
theorem pay2_3 (i : grid3.Coords) (x : Vec Ideal S256x2048 .f32) (s : Vec Ideal S256x1 .f32) (p : Fin 256) (z : Fin 1) :
    k3_pay2 (F := Ideal) i x s (ix2 p z)
      = s (ix2 p z) + ∑ j : Fin 2048, (if (i 1).val * 2048 + j.val < 2304 then x (ix2 p j) else 0) := by
  have hi : (i 1).val < 2 := (i 1).isLt
  unfold k3_pay2
  refine (congrFun (shapeCast_self _ _) (ix2 p z)).trans ?_
  refine (addf_apply _ _ _).trans ?_
  refine congrArg (fun t => s (ix2 p z) + t) ?_
  refine (LibKeepdims.shapeCast_col_apply _ _ p z).trans ?_
  refine (LibKeepdims.sum_axis1_apply _ _ _ _ _ p).trans ?_
  refine Finset.sum_congr rfl fun j _ => ?_
  refine (select_apply _ _ _ _).trans ?_
  have hm : (cmpi .slt (addi (broadcast S256x2048 (Scalar.muli (BitVec.ofNat 32 (i 1).val) 2048#32))
        (iota .tc S256x2048 32 [1] iota_S256x2048_d1_w32)) (broadcast S256x2048 2304#32)) (ix2 p j)
      = if (i 1).val * 2048 + j.val < 2304 then 1#1 else 0#1 := by
    show IntOp.cmpi .slt (IntOp.addi (Scalar.muli (BitVec.ofNat 32 (i 1).val) 2048#32)
        (iota .tc S256x2048 32 [1] iota_S256x2048_d1_w32 (ix2 p j))) 2304#32 = _
    rw [iota_single_apply]
    exact mask_bit _ _ hi j.isLt
  rw [hm, shapeCast_self]
  by_cases h : (i 1).val * 2048 + j.val < 2304
  · rw [if_pos h, if_pos h, select_one]
  · rw [if_neg h, if_neg h, select_zero]
    exact Ideal.ofBits_zero_f32

/-- The last payload of kernel 3: the scratch entry times the reciprocal of the pixel count. -/
theorem pay3_3 (v : Vec Ideal S256x1 .f32) (p : Fin 256) (z : Fin 1) :
    k3_pay3 (F := Ideal) v (ix2 p z) = v (ix2 p z) * Cert.Pool.invHW := rfl

/-- The two accumulation steps of kernel 3 on one row, followed by the scaling: starting from the zeroed scratch,
    the first tile (position 0) adds its 2048 lanes, all inside the row; the second tile (position 1) adds the
    lanes whose position 2048 + j lies below 2304. Together that is the sum of the row's 2304 entries, and the last
    payload multiplies it by the reciprocal of the pixel count. Only the commutative-monoid laws of + are used. -/
theorem two_steps_3 (i0 i1 : grid3.Coords) (h0 : (i0 1).val = 0) (h1 : (i1 1).val = 1)
    (x0 x1 : Vec Ideal S256x2048 .f32) (g : ℕ → EReal) (p : Fin 256) (z : Fin 1)
    (hx0 : ∀ j : Fin 2048, x0 (ix2 p j) = g j.val)
    (hx1 : ∀ j : Fin 2048, 2048 + j.val < 2304 → x1 (ix2 p j) = g (2048 + j.val)) :
    k3_pay3 (F := Ideal) (k3_pay2 (F := Ideal) i1 x1 (k3_pay2 (F := Ideal) i0 x0 (k3_pay1 (F := Ideal)))) (ix2 p z)
      = (∑ j : Fin 2304, g j.val) * Cert.Pool.invHW := by
  rw [pay3_3, pay2_3, pay2_3, pay1_3, h0, h1, zero_add, ← Cert.Pool.sum_two_tiles g]
  refine congrArg (fun t => t * Cert.Pool.invHW) ?_
  refine congrArg₂ (fun a b => a + b) ?_ ?_
  · refine Finset.sum_congr rfl fun j _ => ?_
    have hc : 0 * 2048 + j.val < 2304 := by have := j.isLt; omega
    rw [if_pos hc, hx0]
  · refine Finset.sum_congr rfl fun j _ => ?_
    by_cases h : 2048 + j.val < 2304
    · have hc : 1 * 2048 + j.val < 2304 := by omega
      rw [if_pos hc, if_pos h, hx1 j h]
    · have hc : ¬ 1 * 2048 + j.val < 2304 := by omega
      rw [if_neg hc, if_neg h]

end Cert.RefPayload

end
-- ==== Proof.RefData0.lean ====
/-
  One pooling region of the reference: its proof data and what it leaves in its output array.

  The region's input array y has shape [2048, 2304]; its output array is a [2048, 1] column. The grid is 8 row
  blocks of 256 rows by 2 lane tiles of 2048 lanes; the second tile overhangs the row (only its first 256 lanes are
  inside the array), so what its staging buffer holds beyond them is not determined — but the body masks exactly
  those lanes to zero, so nothing it computes depends on them. Point 2r stages lanes 0..2047 of row block r and
  leaves in the accumulator the row sums of that tile; point 2r+1 stages lanes 2048..2303 (and 1792 undetermined
  lanes), adds the row sums of the lanes inside the row, and writes the accumulator times the reciprocal of the
  pixel count into the output's block r, which the pipeline writes back. So after the region row p of the output
  column is (the sum of the 2304 entries of row p of y) times that reciprocal: the pooled column of y.
-/
import proofs.«103361_g2000304880361579_pallasbulk_792_2_alg».proof.Proof.RefBody0
import proofs.«103361_g2000304880361579_pallasbulk_792_2_alg».proof.Proof.RefPayload
import proofs.«103361_g2000304880361579_pallasbulk_792_2_alg».proof.Proof.PoolSpec

set_option maxRecDepth 16384

noncomputable section

namespace Cert.RefRegion0

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the buffer contents when the region is entered
variable (V : (c : Dev nD) → (b : Ref sig .tc) → Buf (Elt Ideal) ((c : Thread nD τ).loc b))

/-! ## The tile a point stages -/

/-- Window `w`'s block at point `t`, its part inside the array, read off the array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- The staged tile with zeros on the lanes beyond the row's end. -/
def xin (c : Dev nD) (t : Fin cfg0.N) : Vec Ideal S256x2048 .f32 :=
  win0_0.fill (grid0.coords t) (fun _ => (0 : EReal)) (iblk V c 0 t)

/-- Where the tiles sit: every tile has all 256 rows; a first tile (k = 0) has all 2048 lanes inside the row, a second
    (k = 1) only 256. Decided over the grid. -/
theorem tile_facts : ∀ t : Fin cfg0.N, win0_0.xsize (grid0.coords t) 0 = 256
    ∧ (((grid0.coords t) 1).val = 0 ∧ win0_0.xsize (grid0.coords t) 1 = 2048
      ∨ ((grid0.coords t) 1).val = 1 ∧ win0_0.xsize (grid0.coords t) 1 = 256) :=
  (by decide +kernel : ∀ t : Fin grid0.N, win0_0.xsize (grid0.coords t) 0 = 256
    ∧ (((grid0.coords t) 1).val = 0 ∧ win0_0.xsize (grid0.coords t) 1 = 2048
      ∨ ((grid0.coords t) 1).val = 1 ∧ win0_0.xsize (grid0.coords t) 1 = 256))

/-- A lane the mask keeps lies inside the row, so the staged tile is the array's there whatever fills the rest. -/
theorem kept_lane_moved (t : Fin cfg0.N) (p : Fin 256) (j : Fin 2048)
    (h : ((grid0.coords t) 1).val * 2048 + j.val < 2304) : win0_0.moved (grid0.coords t) (ix2 p j) = true := by
  refine (win0_0.moved_iff _ _).mpr fun a => ?_
  obtain ⟨h0, h1⟩ := tile_facts t
  match a with
  | ⟨0, _⟩ => show p.val < win0_0.xsize (grid0.coords t) 0; rw [h0]; exact p.isLt
  | ⟨1, _⟩ =>
    show j.val < win0_0.xsize (grid0.coords t) 1
    rcases h1 with ⟨hk, hx⟩ | ⟨hk, hx⟩
    · rw [hx]; exact j.isLt
    · rw [hx]; rw [hk] at h; omega

/-- The accumulation step does not depend on what fills the staged tile beyond the row's end. -/
theorem pay2_indep (c : Dev nD) (t : Fin cfg0.N) (d : S256x2048.Idx → EReal) (s : Vec Ideal S256x1 .f32) :
    k0_pay2 (F := Ideal) (grid0.coords t) (win0_0.fill (grid0.coords t) d (iblk V c 0 t)) s
      = k0_pay2 (F := Ideal) (grid0.coords t) (xin V c t) s := by
  funext y
  obtain ⟨p, z, rfl⟩ : ∃ (p : Fin 256) (z : Fin 1), y = ix2 p z := ⟨y 0, y 1, eq_ix2 y⟩
  rw [Cert.RefPayload.pay2_0, Cert.RefPayload.pay2_0]
  congr 1
  refine Finset.sum_congr rfl fun j _ => ?_
  split
  · rename_i h
    have hm := kept_lane_moved t p j h
    unfold xin Window.fill
    rw [dif_pos hm, dif_pos hm]
  · rfl

/-! ## What the accumulator and the output's buffer hold after each point -/

/-- After an even point: the row sums of the first tile. -/
def accEven (c : Dev nD) (t : Fin cfg0.N) : Vec Ideal S256x1 .f32 :=
  k0_pay2 (F := Ideal) (grid0.coords t) (xin V c t) (k0_pay1 (F := Ideal))

/-- After point `n`: at an even point the first tile's row sums, at an odd point those plus the second tile's. -/
def accAt (c : Dev nD) (n : ℕ) (hn : n < cfg0.N) : Vec Ideal S256x1 .f32 :=
  if n % 2 = 0 then accEven V c ⟨n, hn⟩
  else k0_pay2 (F := Ideal) (grid0.coords ⟨n, hn⟩) (xin V c ⟨n, hn⟩) (accEven V c ⟨n - 1, Nat.lt_of_le_of_lt (Nat.sub_le _ _) hn⟩)

theorem accAt_even (c : Dev nD) (t : Fin cfg0.N) (h : t.val % 2 = 0) : accAt V c t.val t.isLt = accEven V c t := by
  unfold accAt; rw [if_pos h]
theorem accAt_odd (c : Dev nD) (t : Fin cfg0.N) (h : t.val % 2 = 1) :
    accAt V c t.val t.isLt = k0_pay2 (F := Ideal) (grid0.coords t) (xin V c t) (accAt V c (t.val - 1) (Nat.lt_of_le_of_lt (Nat.sub_le _ _) t.isLt)) := by
  have h1 : ¬ t.val % 2 = 0 := by omega
  have h2 : (t.val - 1) % 2 = 0 := by omega
  unfold accAt; rw [if_neg h1, if_pos h2]

/-- The output's staging buffer after point `t` (stored only at the odd points; at an even point nothing reads this). -/
def outAt (c : Dev nD) (t : Fin cfg0.N) : Vec Ideal S256x1 .f32 := k0_pay3 (F := Ideal) (accAt V c t.val t.isLt)

/-! ## The region's invariant and proof data -/

/-- Before point `n`: at the start the resting invariant (the accumulator at anything); afterwards the accumulator at what
    point `n - 1` left, the other scoped buffers and the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM fullShare (accAt V c n hn) ∗ others c) ∗ (∃ r, prngReg c r)) := rfl
theorem PhiS_pos (c : Dev nD) (n : ℕ) (h : n ≤ cfg0.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-- The proof data: the arrays as the region finds them; after the body the input's buffer at its tile (zeros beyond the
    row's end) and the output's at `outAt`; the invariant `PhiS`; nothing owed; full shares. -/
def dat (c : Dev nD) : Dat τ (Elt Ideal) Unit ℕ (UR sig nD τ) ℕ cfg0 c where
  A w := V c (Pipeline.arrRef spec0 w)
  after w t := match w with
    | ⟨0, _⟩ => xin V c t
    | ⟨1, _⟩ => outAt V c t
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem after_in (c : Dev nD) (t : Fin cfg0.N) : (dat V c).after 0 t = xin V c t := by dsimp only [dat]
theorem after_out (c : Dev nD) (t : Fin cfg0.N) : (dat V c).after 1 t = outAt V c t := by dsimp only [dat]
theorem PhiS_castSucc (c : Dev nD) (t : Fin cfg0.N) :
    (dat V c).Φ t.castSucc = PhiS V c t.val (Nat.le_of_lt t.isLt) := by
  dsimp only [dat]; simp only [Fin.coe_castSucc]

/-! ## What the body finds in the staging buffers -/

/-- The input's buffer was just fetched: the tile on the lanes inside the row, anything elsewhere. -/
theorem before_in (c : Dev nD) (t : Fin cfg0.N) (d) :
    (dat V c).before 0 t d = win0_0.fill (grid0.coords t) d (iblk V c 0 t) := by
  unfold Dat.before; rw [if_pos (fetch0_0 t)]; rfl

/-- The output's buffer holds nothing anyone named: at an even point it was written back at the point before (or this is
    the first point); at an odd point the even point before it left it alone. -/
theorem before_out_even (c : Dev nD) (t : Fin cfg0.N) (ht : t.val % 2 = 0) (d) : (dat V c).before 1 t d = d := by
  unfold Dat.before
  rw [nofetch_out t, if_neg Bool.false_ne_true]
  by_cases hz : t.val = 0
  · rw [if_pos hz]
  · rw [if_neg hz]
    dsimp only
    rw [if_pos (flush_out_odd ⟨t.val - 1, _⟩ (by show (t.val - 1) % 2 = 1; omega))]
theorem before_out (c : Dev nD) (t : Fin cfg0.N) (d) : (dat V c).before 1 t d = d := by
  rcases Nat.mod_two_eq_zero_or_one t.val with h | h
  · exact before_out_even V c t h d
  · unfold Dat.before
    rw [nofetch_out t, if_neg Bool.false_ne_true, if_neg (by omega : ¬ t.val = 0)]
    dsimp only
    rw [noflush_out_even ⟨t.val - 1, _⟩ (by show (t.val - 1) % 2 = 0; omega), if_neg Bool.false_ne_true]
    have hi : idle0 1 (grid0.coords ⟨t.val - 1, Nat.lt_of_le_of_lt (Nat.sub_le _ _) t.isLt⟩) = true :=
      idle_out_even ⟨t.val - 1, Nat.lt_of_le_of_lt (Nat.sub_le _ _) t.isLt⟩ (by show (t.val - 1) % 2 = 0; omega)
    rw [hi]
    dsimp only
    rw [Dat.found_eq_before]
    exact before_out_even V c ⟨t.val - 1, _⟩ (by show (t.val - 1) % 2 = 0; omega) d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_in t) fullShare ((dat V c).before 0 t d))
    ∗ (∃ d, owns (c : Thread nD τ) (ms_out t) fullShare ((dat V c).before 1 t d)))

def bodyPost (c : Dev nD) (t : Fin cfg0.N) : sProp 𝕄 :=
  iprop((dat V c).Φ t.succ ∗ (dat V c).owesAt () t.succ
    ∗ (dat V c).leaves 0 t
    ∗ (dat V c).leaves 1 t)

/-- The input window's post: its buffer handed back as the body found it — the tile on the lanes inside the row, anything
    beyond (the window's last block overhangs, so only the part inside the array is stated). -/
theorem leaves_in (c : Dev nD) (t : Fin cfg0.N) :
    (dat V c).leaves 0 t = iprop(∃ d, owns (c : Thread nD τ) (ms_in t) fullShare (win0_0.fill (grid0.coords t) d (iblk V c 0 t))) := by
  show iprop(∃ d, owns (c : Thread nD τ) (ms_in t) fullShare (win0_0.fill (grid0.coords t) d (win0_0.cut (grid0.coords t) (xin V c t)))) = _
  unfold xin
  simp only [Window.cut_fill]

/-- The output window's post at an odd point: its buffer at the new accumulator times the reciprocal of the pixel count. -/
theorem leaves_out_odd (c : Dev nD) (t : Fin cfg0.N) (h : t.val % 2 = 1) :
    (dat V c).leaves 1 t = owns (c : Thread nD τ) (ms_out t) fullShare (k0_pay3 (F := Ideal) (accAt V c t.val t.isLt)) := by
  unfold Dat.leaves; rw [live_out_odd t h]; rfl

set_option maxHeartbeats 4000000 in
/-- The body at any point. At an even point the accumulator (at anything at the very first point, at what the point before
    left afterwards) is cleared and rebuilt from the staged tile, and the output's buffer is handed back untouched; at an odd
    point the accumulator is read at what the even point before left, extended, and the output's buffer stored. What the
    stores leave is the body's payloads (the stores cover the buffers), and those do not depend on what fills the staged
    tile beyond the row's end. -/
theorem sound_body (c : Dev nD) (t : Fin cfg0.N) :
    bodyPre V c t ⊢ wp frame (wpE (defs₀ (F := Ideal)) Variants.none c none) Set.univ (bodyAt0 t) (fun _ => bodyPost V c t) := by
  unfold bodyPre bodyPost bodyAt0
  simp only [before_in, before_out]
  rw [show (dat V c).owesAt () t.succ = (dat V c).owesAt () t.castSucc from rfl]
  rw [show (dat V c).Φ t.succ = PhiS V c (t.val + 1) t.isLt from rfl, PhiS_succ]
  rw [leaves_in]
  have hN : cfg0.N = 16 := N_0
  rcases Nat.mod_two_eq_zero_or_one t.val with h0 | h1
  · have hc0 : condFirst (grid0.coords t) := (hcondFirst t).mpr h0
    have hc1 : ¬condLast (grid0.coords t) := fun h => by have := (hcondLast t).mp h; omega
    rw [Dat.leaves_idle (dat V c) 1 t (idle_out_even t h0) (noflush_out_even t h0)]
    simp only [before_out]
    rw [accAt_even V c t h0]
    unfold accEven
    by_cases hz : t.val = 0
    · rw [PhiS_castSucc V c t, PhiS_zero V c _ _ hz, PhiA_eq]
      iintro ⟨⟨⟨HS0, Hr⟩, Hg⟩, Ho, ⟨%d0, H0⟩, ⟨%d1, H1⟩⟩
      iapply ((runEven c (grid0.coords t) _ _ _ _ _ _ hc0 hc1 (win0_0.fill (grid0.coords t) d0 (iblk V c 0 t))).2 d1 Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
    · rw [PhiS_castSucc V c t, PhiS_pos V c _ _ hz]
      iintro ⟨⟨⟨HS0, Hr⟩, Hg⟩, Ho, ⟨%d0, H0⟩, ⟨%d1, H1⟩⟩
      iapply ((runEven c (grid0.coords t) _ _ _ _ _ _ hc0 hc1 (win0_0.fill (grid0.coords t) d0 (iblk V c 0 t))).2 d1 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
  · have hc0 : ¬condFirst (grid0.coords t) := fun h => by have := (hcondFirst t).mp h; omega
    have hc1 : condLast (grid0.coords t) := (hcondLast t).mpr h1
    have hz : t.val ≠ 0 := by omega
    rw [leaves_out_odd V c t h1]
    rw [accAt_odd V c t h1]
    rw [PhiS_castSucc V c t, PhiS_pos V c _ _ hz]
    iintro ⟨⟨⟨HS0, Hr⟩, Hg⟩, Ho, ⟨%d0, H0⟩, ⟨%d1, H1⟩⟩
    iapply ((runOdd c (grid0.coords t) _ _ _ _ _ _ hc0 hc1 (win0_0.fill (grid0.coords t) d0 (iblk V c 0 t)) (accAt V c (t.val - 1) (by omega))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro
          exact (View.read_writes_of_cover _ _ _ _ _ (scoverOdd c _ _ _ _ _ _ _ hc0 hc1 _ _)).trans
            ((soutOdd_eq c _ _ _ _ _ _ _ hc0 hc1 _ _).trans (pay2_indep V c t d0 _))
        iexact Hr
      iexact Hg
    isplitl [Ho]; · iexact Ho
    isplitl [H0]; · iexists d0; iexact H0
    unfold owns; iexists _; isplitr
    swap; · iexact H1
    ipureintro
    exact (View.read_writes_of_cover _ _ _ _ _ (coverOdd c _ _ _ _ _ _ _ hc0 hc1 _ _)).trans
      ((outOdd_eq c _ _ _ _ _ _ _ hc0 hc1 _ _).trans (congrArg (k0_pay3 (F := Ideal)) (pay2_indep V c t d0 _)))

/-- The library's body obligation (the form for windows whose blocks may overhang), at every point. -/
theorem body_obligation (c : Dev nD) : BodyObligationLoose (dat V c) (defs₀ (F := Ideal)) Variants.none () Set.univ := fun t => by
  rw [bigSep_W0, bigSep_W0]
  exact sound_body V c t

/-! ## The invariant at the region's two ends -/

theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg0.N) ⊢ Pipeline.ΦA spec0 c := by
  have hN : cfg0.N = 16 := N_0
  rw [show (dat V c).Φ (Fin.last cfg0.N) = PhiS V c (Fin.last cfg0.N).val (Nat.le_of_lt_succ (Fin.last cfg0.N).isLt) from rfl,
    PhiS_pos V c _ _ (by rw [Fin.val_last]; omega), PhiA_eq]
  iintro ⟨⟨HS0, Hr⟩, Hg⟩
  isplitl [HS0 Hr]
  · isplitl [HS0]
    · iexists _; iexact HS0
    iexact Hr
  iexact Hg

/-! ## The arrays after the region -/

/-- The input array is never written. -/
theorem final_in (c : Dev nD) : (dat V c).arrAt 0 cfg0.N = V c main_v0 :=
  ((dat V c).arrAt_in 0 rfl _).trans (A_eq V c 0)

/-- Where the blocks sit: point t = 2r + k stages input block (r, k) and holds output block (r, 0). Decided over the grid. -/
theorem in_index : ∀ t : Fin cfg0.N, win0_0.index t (0 : Fin 2) = t.val / 2 ∧ win0_0.index t (1 : Fin 2) = t.val % 2 :=
  (by decide +kernel : ∀ t : Fin grid0.N, _)
theorem out_index : ∀ t : Fin cfg0.N, win0_1.index t (0 : Fin 2) = t.val / 2 ∧ win0_1.index t (1 : Fin 2) = 0 :=
  (by decide +kernel : ∀ t : Fin grid0.N, _)
theorem tile_of_point : ∀ t : Fin cfg0.N, ((grid0.coords t) 1).val = t.val % 2 :=
  (by decide +kernel : ∀ t : Fin grid0.N, _)

/-- Two spellings of one entry of a flattened view. -/
theorem entry_congr (A : FVec Ideal Cert.Pool.SFlat .f32) {r r' : Fin 2048} {l l' : Fin 2304} (hr : r.val = r'.val) (hl : l.val = l'.val) :
    A (ix2 r l) = A (ix2 r' l') := by
  cases Fin.ext hr; cases Fin.ext hl; rfl

/-- The staged tile at a lane inside the row is the input array's entry: row 256 (t / 2) + p, lane 2048 (t % 2) + j. -/
theorem xin_apply (c : Dev nD) (t : Fin cfg0.N) (p : Fin 256) (j : Fin 2048) (hj : (t.val % 2) * 2048 + j.val < 2304) :
    xin V c t (ix2 p j) = (V c main_v0 : FVec Ideal Cert.Pool.SFlat .f32)
      (ix2 (⟨(t.val / 2) * 256 + p.val, by have := t.isLt; have hN : cfg0.N = 16 := N_0; omega⟩ : Fin 2048) (⟨(t.val % 2) * 2048 + j.val, hj⟩ : Fin 2304)) := by
  obtain ⟨e0, e1⟩ := in_index t
  have hm := kept_lane_moved t p j (by rw [tile_of_point t]; exact hj)
  unfold xin Window.fill
  rw [dif_pos hm]
  unfold iblk
  rw [View.read_apply]
  show V c main_v0 _ = V c main_v0 _
  refine congrArg (V c main_v0) ?_
  funext a
  apply Fin.ext
  match a with
  | ⟨0, _⟩ => show win0_0.index t (0 : Fin 2) * 256 + 1 * p.val = (t.val / 2) * 256 + p.val; omega
  | ⟨1, _⟩ => show win0_0.index t (1 : Fin 2) * 2048 + 1 * j.val = (t.val % 2) * 2048 + j.val; omega

/-- What an odd point t = 2r + 1 stores into the output's buffer: at row p the pooled value of row 256 r + p of the
    input array — the two accumulation steps are one sum over the row's 2304 lanes. -/
theorem out_value (c : Dev nD) (t : Fin cfg0.N) (hodd : t.val % 2 = 1) (p : Fin 256) (z : Fin 1) :
    outAt V c t (ix2 p z) = Cert.Pool.rowMean (V c main_v0)
      (⟨(t.val / 2) * 256 + p.val, by have := t.isLt; have hN : cfg0.N = 16 := N_0; omega⟩ : Fin 2048) := by
  have hN : cfg0.N = 16 := N_0
  have hlt := t.isLt
  have hrow : (t.val / 2) * 256 + p.val < 2048 := by omega
  unfold outAt
  rw [accAt_odd V c t hodd, accAt_even V c ⟨t.val - 1, Nat.lt_of_le_of_lt (Nat.sub_le _ _) t.isLt⟩ (by show (t.val - 1) % 2 = 0; omega)]
  unfold accEven
  refine (Cert.RefPayload.two_steps_0 (grid0.coords ⟨t.val - 1, Nat.lt_of_le_of_lt (Nat.sub_le _ _) t.isLt⟩) (grid0.coords t)
    (by rw [tile_of_point]; show (t.val - 1) % 2 = 0; omega) (by rw [tile_of_point]; exact hodd)
    (xin V c ⟨t.val - 1, Nat.lt_of_le_of_lt (Nat.sub_le _ _) t.isLt⟩) (xin V c t)
    (fun n => if h : n < 2304 then (V c main_v0 : FVec Ideal Cert.Pool.SFlat .f32) (ix2 (⟨(t.val / 2) * 256 + p.val, hrow⟩ : Fin 2048) (⟨n, h⟩ : Fin 2304)) else 0)
    p z ?_ ?_).trans ?_
  · intro j
    have hj : j.val < 2304 := by have := j.isLt; omega
    rw [dif_pos hj, xin_apply V c ⟨t.val - 1, Nat.lt_of_le_of_lt (Nat.sub_le _ _) t.isLt⟩ p j (by show ((t.val - 1) % 2) * 2048 + j.val < 2304; omega)]
    exact entry_congr _ (by show ((t.val - 1) / 2) * 256 + p.val = (t.val / 2) * 256 + p.val; omega) (by show ((t.val - 1) % 2) * 2048 + j.val = j.val; omega)
  · intro j hj
    rw [dif_pos hj, xin_apply V c t p j (by omega)]
    exact entry_congr _ rfl (by show (t.val % 2) * 2048 + j.val = 2048 + j.val; omega)
  · unfold Cert.Pool.rowMean
    refine congrArg (fun s : EReal => s * Cert.Pool.invHW) ?_
    exact Finset.sum_congr rfl fun j _ => dif_pos j.isLt

/-- What an odd point writes back: its 256 rows of the pooled column of the input array. -/
theorem written_back (c : Dev nD) (t : Fin cfg0.N) (hodd : t.val % 2 = 1) :
    (dat V c).flushed 1 t
      = ((cfg0.win 1).blk t).view.read (Elt Ideal) (Cert.Pool.colMean (V c main_v0) : Buf (Elt Ideal) ((cfg0.win 1).arr.view.loc (c : Thread nD τ))) := by
  show (cfg0.win 1).cut (grid0.coords t) ((dat V c).after 1 t) = _
  rw [after_out]
  obtain ⟨e0, e1⟩ := out_index t
  funext j
  rw [View.read_apply]
  show outAt V c t (win0_1.xinj (grid0.coords t) j) = Cert.Pool.colMean (V c main_v0) (((cfg0.win 1).blk t).view.emb j)
  obtain ⟨p, z, hy⟩ : ∃ (p : Fin 256) (z : Fin 1), win0_1.xinj (grid0.coords t) j = ix2 p z := ⟨_, _, eq_ix2 _⟩
  have hp : p.val = (j 0).val := (congrArg (fun y : S256x1.Idx => (y 0).val) hy).symm
  rw [hy, out_value V c t hodd p z]
  show Cert.Pool.rowMean (V c main_v0) _ = Cert.Pool.rowMean (V c main_v0) _
  refine congrArg (Cert.Pool.rowMean (V c main_v0)) (Fin.ext ?_)
  show (t.val / 2) * 256 + p.val = win0_1.index t (0 : Fin 2) * 256 + 1 * (j 0).val
  omega

/-- An entry of the output column lies in point t's block iff its row is one of the block's 256 rows. -/
theorem mem_rows (t : Fin cfg0.N) (i : S2048x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v1).slice (win0_1.rect t)).set ↔ _
  rw [View.set_slice_whole, Rect.mem_set_unit]
  exact Iff.rfl

/-- Row r of the output column is written back at the odd point of its row block: the eight written blocks cover it. -/
theorem rows_covered (i : S2048x1.Idx) :
    ∃ t : Fin cfg0.N, (cfg0.win 1).flush t = true ∧ i ∈ ((cfg0.win 1).blk t).view.set := by
  have hN : cfg0.N = 16 := N_0
  have hi0 : (i 0).val < 2048 := (i 0).isLt
  have hi1 : (i 1).val < 1 := (i 1).isLt
  let t : Fin cfg0.N := ⟨2 * ((i 0).val / 256) + 1, by omega⟩
  obtain ⟨e0, e1⟩ := out_index t
  have ht : t.val = 2 * ((i 0).val / 256) + 1 := rfl
  refine ⟨t, flush_out_odd t (by omega), ?_⟩
  rw [mem_rows]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 1 ≤ (i 1).val ∧ (i 1).val < win0_1.index t (1 : Fin 2) * 1 + 1
    omega

/-- The output array ends holding the pooled column of the input array. -/
theorem final_out (c : Dev nD) :
    (dat V c).arrAt 1 cfg0.N = (Cert.Pool.colMean (V c main_v0) : Buf (Elt Ideal) ((cfg0.win 1).arr.view.loc (c : Thread nD τ))) :=
  (dat V c).arrAt_eq_of_cover 1 _ (fun t hf => written_back V c t ((flush0_1 t).mp hf)) rows_covered

end Cert.RefRegion0

end
-- ==== Proof.RefBody1.lean ====
/-
  One pooling region of the reference, its body run at a grid point.

  The region walks a grid of 8 row blocks by 2 lane tiles. At a point (r, k) the body first clears the
  accumulator (a [256, 1] scratch) when k = 0, then adds to it the lane sums of the staged tile with the lanes
  beyond the row's end masked to zero, and, when k = 1, multiplies the accumulator by the reciprocal of the pixel
  count and stores that into the output's staging buffer. So there are two kinds of points: at an even point
  (k = 0) the scratch is rebuilt from nothing and the output's buffer is left alone; at an odd point (k = 1) the
  scratch is read, extended, and the output's buffer is written whole.

  This module decides the two branch conditions over the grid, says where the output window is idle, and runs
  the body symbolically in each of the two cases on arbitrary whole memrefs: what the scratch and the output
  buffer end up holding is recorded as the list of stores made into them.
-/
import proofs.«103361_g2000304880361579_pallasbulk_792_2_alg».proof.Proof.Gen.ReferenceIdeal.Launch
import proofs.«103361_g2000304880361579_pallasbulk_792_2_alg».proof.Proof.Gen.ReferenceIdeal.Skeleton
import proofs.«103361_g2000304880361579_pallasbulk_792_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.RefRegion1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- "This is the first lane tile of its row block" (k = 0): the accumulator is cleared. -/
abbrev condFirst (i : grid1.Coords) : Prop :=
  (Scalar.cmpi .ne (Scalar.extui (Scalar.cmpi .eq (BitVec.ofNat 32 (i 1).val) 0#32)) 0#32) = 1#1
/-- It holds at the even points. -/
theorem hcondFirst : ∀ t : Fin cfg1.N, condFirst (grid1.coords t) ↔ t.val % 2 = 0 :=
  (by decide +kernel : ∀ t : Fin grid1.N, condFirst (grid1.coords t) ↔ t.val % 2 = 0)

/-- "This is the last lane tile of its row block" (k = 1): the mean is stored. -/
abbrev condLast (i : grid1.Coords) : Prop := k1_cond2 i = 1#1
/-- It holds at the odd points. -/
theorem hcondLast : ∀ t : Fin cfg1.N, condLast (grid1.coords t) ↔ t.val % 2 = 1 :=
  (by decide +kernel : ∀ t : Fin grid1.N, condLast (grid1.coords t) ↔ t.val % 2 = 1)

/-! ## Where the windows are idle -/

/-- The input window is never idle. -/
theorem live_in : ∀ t : Fin cfg1.N, cfg1.idle 0 (grid1.coords t) = false := by decide +kernel
/-- At an even point nothing is stored into the output's buffer, and the block is not written back. -/
theorem idle_out_even : ∀ t : Fin cfg1.N, t.val % 2 = 0 → cfg1.idle 1 (grid1.coords t) = true := by decide +kernel
theorem noflush_out_even : ∀ t : Fin cfg1.N, t.val % 2 = 0 → (cfg1.win 1).flush t = false := by decide +kernel
/-- At an odd point the output's buffer is stored whole and written back. -/
theorem live_out_odd : ∀ t : Fin cfg1.N, t.val % 2 = 1 → cfg1.idle 1 (grid1.coords t) = false := by decide +kernel
theorem flush_out_odd : ∀ t : Fin cfg1.N, t.val % 2 = 1 → (cfg1.win 1).flush t = true := by decide +kernel
/-- The output window is never fetched. -/
theorem nofetch_out : ∀ t : Fin cfg1.N, (cfg1.win 1).fetch t = false := by decide +kernel

/-! ## The memrefs the body is called with -/

abbrev ms_in (t : Fin cfg1.N) : Memref sig .tc .vmem S256x2048 .f32 := win1_0.stage (cfg1.slots t 0)
abbrev hs_in (t : Fin cfg1.N) : (ms_in t).IsWhole := hstage1_0 ((cfg1.slots t 0).cast nbuf1_0)
abbrev ms_out (t : Fin cfg1.N) : Memref sig .tc .vmem S256x1 .f32 := win1_1.stage (cfg1.slots t 1)
abbrev hs_out (t : Fin cfg1.N) : (ms_out t).IsWhole := hstage1_1 ((cfg1.slots t 1).cast nbuf1_1)
/-- The accumulator: a whole scoped buffer of the kernel's own. -/
abbrev scM : Memref sig .tc .vmem S256x1 .f32 := Memref.whole cc1_scratch0
/-- Views through which the accumulator's and the output buffer's contents are stated. -/
abbrev VS : View sig .tc .vmem S256x1 .f32 := scM.view
abbrev VO : View sig .tc .vmem S256x1 .f32 := (Memref.whole cc1_stg1_0 : Memref sig .tc .vmem S256x1 .f32).view

/-- Every scoped buffer that is neither a staging buffer of this region nor its accumulator, at some contents each:
    the other regions' buffers, which ride through this region unopened. -/
abbrev others (c : Dev nD) : sProp 𝕄 :=
  Pipeline.scopedRestBut (Ix := Unit) (Name := ℕ) (U := UR sig nD τ) (Lvl := ℕ) (Val := Elt F) spec1 c [cc1_scratch0]

/-- The region's resting invariant: the accumulator (as a memref) at some contents, the other scoped buffers, and the
    generator register at some state. -/
theorem PhiA_eq (c : Dev nD) :
    (Pipeline.ΦA spec1 c : sProp 𝕄)
      = iprop(iprop((∃ d, owns (c : Thread nD τ) scM fullShare d) ∗ others c) ∗ (∃ r, prngReg c r)) := by
  have h : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  unfold Pipeline.ΦA; rw [h]; simp only [scM, owns_whole]; try rfl

/-! ## The body run in each case -/

set_option maxHeartbeats 1000000 in
/-- AT AN EVEN POINT (the first condition holds, the second does not): on whole memrefs, the input's at contents
    `x0`, the output's at contents `xi1` that are handed back untouched, the accumulator at anything, the body runs
    to the continuation with the input's as it was and the accumulator holding the stores `LS` (last first). -/
noncomputable def runEven (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) :
    { LS : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc1__sum_pool_kernel i arg2 harg2 arg3 harg3 arg4 harg4) K } := by
  refine ⟨?_, fun xi1 E K => ?run⟩
  case run =>
    simp only [cc1__sum_pool_kernel_eq_skeleton]; unfold cc1__sum_pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- AT AN ODD POINT (the first condition fails, the second holds): on whole memrefs, the input's at contents `x0`,
    the output's at anything, the accumulator at the contents `xs` the point before left, the body runs to the
    continuation with the input's as it was, the output's buffer holding the stores `LO` and the accumulator the
    stores `LS` (last first). -/
noncomputable def runOdd (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc1__sum_pool_kernel i arg2 harg2 arg3 harg3 arg4 harg4) K } := by
  refine ⟨?_, ?_, fun E K => ?run⟩
  case run =>
    simp only [cc1__sum_pool_kernel_eq_skeleton]; unfold cc1__sum_pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the two runs leave, read back as the body's payloads -/

theorem hz2 : (![0, 0] : Fin 2 → Nat) = fun _ => 0 := funext fun a => by fin_cases a <;> rfl

/-- At an even point the accumulator's stores cover it. -/
theorem scoverEven (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) (y : S256x1.Idx) :
    ∃ pc ∈ (runEven c i arg2 harg2 arg3 harg3 arg4 harg4 hc0 hc1 x0).1, y ∈ pc.1.set :=
  View.cover_of_tiledL (runEven c i arg2 harg2 arg3 harg3 arg4 harg4 hc0 hc1 x0).1 S256x1.size (by sl_kernel_rfl) y

/-- What an even point leaves in the accumulator. -/
def soutEven (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : Vec F S256x1 .f32 :=
  VS.read (Elt F) (VS.writes (Elt F) VS.junk (runEven c i arg2 harg2 arg3 harg3 arg4 harg4 hc0 hc1 x0).1)

/-- It is the accumulation step applied to the cleared accumulator: the last store covers the buffer, and the
    accumulator it read back is what the clearing store wrote. -/
theorem soutEven_eq (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : soutEven c i arg2 harg2 arg3 harg3 arg4 harg4 hc0 hc1 x0 = k1_pay2 i x0 (k1_pay1 (F := F)) := by
  unfold soutEven
  rw [View.read_writes_eq_canon _ _ _ (scoverEven c i arg2 harg2 arg3 harg3 arg4 harg4 hc0 hc1 x0)]
  unfold runEven; dsimp only
  rw [View.canon_cons_unit_zero hz2]
  sl_unfold_words
  rw [View.readCov_unit_zero arg4.view hz2, View.readAt_eq_ld, harg2.read_unread, View.ld_unit_zero (S := S256x2048) hz2]

/-- At an odd point the accumulator's stores cover it, and so do the output buffer's. -/
theorem scoverOdd (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).2.1, y ∈ pc.1.set :=
  View.cover_of_tiledL (runOdd c i arg2 harg2 arg3 harg3 arg4 harg4 hc0 hc1 x0 xs).2.1 S256x1.size (by sl_kernel_rfl) y
theorem coverOdd (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).1, y ∈ pc.1.set :=
  View.cover_of_tiledL (runOdd c i arg2 harg2 arg3 harg3 arg4 harg4 hc0 hc1 x0 xs).1 S256x1.size (by sl_kernel_rfl) y

/-- What an odd point leaves in the accumulator and in the output's buffer. -/
def soutOdd (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VS.read (Elt F) (VS.writes (Elt F) VS.junk (runOdd c i arg2 harg2 arg3 harg3 arg4 harg4 hc0 hc1 x0 xs).2.1)
def outOdd (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VO.read (Elt F) (VO.writes (Elt F) VO.junk (runOdd c i arg2 harg2 arg3 harg3 arg4 harg4 hc0 hc1 x0 xs).1)

/-- The accumulator: the accumulation step applied to what the point before left. -/
theorem soutOdd_eq (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : soutOdd c i arg2 harg2 arg3 harg3 arg4 harg4 hc0 hc1 x0 xs = k1_pay2 i x0 xs := by
  unfold soutOdd
  rw [View.read_writes_eq_canon _ _ _ (scoverOdd c i arg2 harg2 arg3 harg3 arg4 harg4 hc0 hc1 x0 xs)]
  unfold runOdd; dsimp only
  sl_unfold_words
  rw [View.canon_unit_zero hz2]
  simp only [View.readAt_eq_ld, harg2.read_unread, harg4.read_unread, View.ld_unit_zero (S := S256x2048) hz2, View.ld_unit_zero (S := S256x1) hz2]

/-- The output's buffer: the new accumulator times the reciprocal of the pixel count. -/
theorem outOdd_eq (c : Dev nD) (i : grid1.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : outOdd c i arg2 harg2 arg3 harg3 arg4 harg4 hc0 hc1 x0 xs = k1_pay3 (k1_pay2 i x0 xs) := by
  unfold outOdd
  rw [View.read_writes_eq_canon _ _ _ (coverOdd c i arg2 harg2 arg3 harg3 arg4 harg4 hc0 hc1 x0 xs)]
  unfold runOdd; dsimp only
  rw [View.canon_unit_zero hz2]
  sl_unfold_words
  rw [View.readCov_unit_zero arg4.view hz2]
  simp only [View.readAt_eq_ld, harg2.read_unread, harg4.read_unread, View.ld_unit_zero (S := S256x2048) hz2, View.ld_unit_zero (S := S256x1) hz2]

end Cert.RefRegion1

end
-- ==== Proof.RefData1.lean ====
/-
  One pooling region of the reference: its proof data and what it leaves in its output array.

  The region's input array y has shape [2048, 2304]; its output array is a [2048, 1] column. The grid is 8 row
  blocks of 256 rows by 2 lane tiles of 2048 lanes; the second tile overhangs the row (only its first 256 lanes are
  inside the array), so what its staging buffer holds beyond them is not determined — but the body masks exactly
  those lanes to zero, so nothing it computes depends on them. Point 2r stages lanes 0..2047 of row block r and
  leaves in the accumulator the row sums of that tile; point 2r+1 stages lanes 2048..2303 (and 1792 undetermined
  lanes), adds the row sums of the lanes inside the row, and writes the accumulator times the reciprocal of the
  pixel count into the output's block r, which the pipeline writes back. So after the region row p of the output
  column is (the sum of the 2304 entries of row p of y) times that reciprocal: the pooled column of y.
-/
import proofs.«103361_g2000304880361579_pallasbulk_792_2_alg».proof.Proof.RefBody1
import proofs.«103361_g2000304880361579_pallasbulk_792_2_alg».proof.Proof.RefPayload
import proofs.«103361_g2000304880361579_pallasbulk_792_2_alg».proof.Proof.PoolSpec

set_option maxRecDepth 16384

noncomputable section

namespace Cert.RefRegion1

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the buffer contents when the region is entered
variable (V : (c : Dev nD) → (b : Ref sig .tc) → Buf (Elt Ideal) ((c : Thread nD τ).loc b))

/-! ## The tile a point stages -/

/-- Window `w`'s block at point `t`, its part inside the array, read off the array as the region finds it. -/
def iblk (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The staged tile with zeros on the lanes beyond the row's end. -/
def xin (c : Dev nD) (t : Fin cfg1.N) : Vec Ideal S256x2048 .f32 :=
  win1_0.fill (grid1.coords t) (fun _ => (0 : EReal)) (iblk V c 0 t)

/-- Where the tiles sit: every tile has all 256 rows; a first tile (k = 0) has all 2048 lanes inside the row, a second
    (k = 1) only 256. Decided over the grid. -/
theorem tile_facts : ∀ t : Fin cfg1.N, win1_0.xsize (grid1.coords t) 0 = 256
    ∧ (((grid1.coords t) 1).val = 0 ∧ win1_0.xsize (grid1.coords t) 1 = 2048
      ∨ ((grid1.coords t) 1).val = 1 ∧ win1_0.xsize (grid1.coords t) 1 = 256) :=
  (by decide +kernel : ∀ t : Fin grid1.N, win1_0.xsize (grid1.coords t) 0 = 256
    ∧ (((grid1.coords t) 1).val = 0 ∧ win1_0.xsize (grid1.coords t) 1 = 2048
      ∨ ((grid1.coords t) 1).val = 1 ∧ win1_0.xsize (grid1.coords t) 1 = 256))

/-- A lane the mask keeps lies inside the row, so the staged tile is the array's there whatever fills the rest. -/
theorem kept_lane_moved (t : Fin cfg1.N) (p : Fin 256) (j : Fin 2048)
    (h : ((grid1.coords t) 1).val * 2048 + j.val < 2304) : win1_0.moved (grid1.coords t) (ix2 p j) = true := by
  refine (win1_0.moved_iff _ _).mpr fun a => ?_
  obtain ⟨h0, h1⟩ := tile_facts t
  match a with
  | ⟨0, _⟩ => show p.val < win1_0.xsize (grid1.coords t) 0; rw [h0]; exact p.isLt
  | ⟨1, _⟩ =>
    show j.val < win1_0.xsize (grid1.coords t) 1
    rcases h1 with ⟨hk, hx⟩ | ⟨hk, hx⟩
    · rw [hx]; exact j.isLt
    · rw [hx]; rw [hk] at h; omega

/-- The accumulation step does not depend on what fills the staged tile beyond the row's end. -/
theorem pay2_indep (c : Dev nD) (t : Fin cfg1.N) (d : S256x2048.Idx → EReal) (s : Vec Ideal S256x1 .f32) :
    k1_pay2 (F := Ideal) (grid1.coords t) (win1_0.fill (grid1.coords t) d (iblk V c 0 t)) s
      = k1_pay2 (F := Ideal) (grid1.coords t) (xin V c t) s := by
  funext y
  obtain ⟨p, z, rfl⟩ : ∃ (p : Fin 256) (z : Fin 1), y = ix2 p z := ⟨y 0, y 1, eq_ix2 y⟩
  rw [Cert.RefPayload.pay2_1, Cert.RefPayload.pay2_1]
  congr 1
  refine Finset.sum_congr rfl fun j _ => ?_
  split
  · rename_i h
    have hm := kept_lane_moved t p j h
    unfold xin Window.fill
    rw [dif_pos hm, dif_pos hm]
  · rfl

/-! ## What the accumulator and the output's buffer hold after each point -/

/-- After an even point: the row sums of the first tile. -/
def accEven (c : Dev nD) (t : Fin cfg1.N) : Vec Ideal S256x1 .f32 :=
  k1_pay2 (F := Ideal) (grid1.coords t) (xin V c t) (k1_pay1 (F := Ideal))

/-- After point `n`: at an even point the first tile's row sums, at an odd point those plus the second tile's. -/
def accAt (c : Dev nD) (n : ℕ) (hn : n < cfg1.N) : Vec Ideal S256x1 .f32 :=
  if n % 2 = 0 then accEven V c ⟨n, hn⟩
  else k1_pay2 (F := Ideal) (grid1.coords ⟨n, hn⟩) (xin V c ⟨n, hn⟩) (accEven V c ⟨n - 1, Nat.lt_of_le_of_lt (Nat.sub_le _ _) hn⟩)

theorem accAt_even (c : Dev nD) (t : Fin cfg1.N) (h : t.val % 2 = 0) : accAt V c t.val t.isLt = accEven V c t := by
  unfold accAt; rw [if_pos h]
theorem accAt_odd (c : Dev nD) (t : Fin cfg1.N) (h : t.val % 2 = 1) :
    accAt V c t.val t.isLt = k1_pay2 (F := Ideal) (grid1.coords t) (xin V c t) (accAt V c (t.val - 1) (Nat.lt_of_le_of_lt (Nat.sub_le _ _) t.isLt)) := by
  have h1 : ¬ t.val % 2 = 0 := by omega
  have h2 : (t.val - 1) % 2 = 0 := by omega
  unfold accAt; rw [if_neg h1, if_pos h2]

/-- The output's staging buffer after point `t` (stored only at the odd points; at an even point nothing reads this). -/
def outAt (c : Dev nD) (t : Fin cfg1.N) : Vec Ideal S256x1 .f32 := k1_pay3 (F := Ideal) (accAt V c t.val t.isLt)

/-! ## The region's invariant and proof data -/

/-- Before point `n`: at the start the resting invariant (the accumulator at anything); afterwards the accumulator at what
    point `n - 1` left, the other scoped buffers and the generator register. -/
def PhiS (c : Dev nD) : (n : ℕ) → n ≤ cfg1.N → sProp 𝕄
  | 0, _ => Pipeline.ΦA spec1 c
  | n + 1, hn => iprop(iprop(owns (c : Thread nD τ) scM fullShare (accAt V c n hn) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) scM fullShare (accAt V c n hn) ∗ others c) ∗ (∃ r, prngReg c r)) := rfl
theorem PhiS_pos (c : Dev nD) (n : ℕ) (h : n ≤ cfg1.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-- The proof data: the arrays as the region finds them; after the body the input's buffer at its tile (zeros beyond the
    row's end) and the output's at `outAt`; the invariant `PhiS`; nothing owed; full shares. -/
def dat (c : Dev nD) : Dat τ (Elt Ideal) Unit ℕ (UR sig nD τ) ℕ cfg1 c where
  A w := V c (Pipeline.arrRef spec1 w)
  after w t := match w with
    | ⟨0, _⟩ => xin V c t
    | ⟨1, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem after_in (c : Dev nD) (t : Fin cfg1.N) : (dat V c).after 0 t = xin V c t := by dsimp only [dat]
theorem after_out (c : Dev nD) (t : Fin cfg1.N) : (dat V c).after 1 t = outAt V c t := by dsimp only [dat]
theorem PhiS_castSucc (c : Dev nD) (t : Fin cfg1.N) :
    (dat V c).Φ t.castSucc = PhiS V c t.val (Nat.le_of_lt t.isLt) := by
  dsimp only [dat]; simp only [Fin.coe_castSucc]

/-! ## What the body finds in the staging buffers -/

/-- The input's buffer was just fetched: the tile on the lanes inside the row, anything elsewhere. -/
theorem before_in (c : Dev nD) (t : Fin cfg1.N) (d) :
    (dat V c).before 0 t d = win1_0.fill (grid1.coords t) d (iblk V c 0 t) := by
  unfold Dat.before; rw [if_pos (fetch1_0 t)]; rfl

/-- The output's buffer holds nothing anyone named: at an even point it was written back at the point before (or this is
    the first point); at an odd point the even point before it left it alone. -/
theorem before_out_even (c : Dev nD) (t : Fin cfg1.N) (ht : t.val % 2 = 0) (d) : (dat V c).before 1 t d = d := by
  unfold Dat.before
  rw [nofetch_out t, if_neg Bool.false_ne_true]
  by_cases hz : t.val = 0
  · rw [if_pos hz]
  · rw [if_neg hz]
    dsimp only
    rw [if_pos (flush_out_odd ⟨t.val - 1, _⟩ (by show (t.val - 1) % 2 = 1; omega))]
theorem before_out (c : Dev nD) (t : Fin cfg1.N) (d) : (dat V c).before 1 t d = d := by
  rcases Nat.mod_two_eq_zero_or_one t.val with h | h
  · exact before_out_even V c t h d
  · unfold Dat.before
    rw [nofetch_out t, if_neg Bool.false_ne_true, if_neg (by omega : ¬ t.val = 0)]
    dsimp only
    rw [noflush_out_even ⟨t.val - 1, _⟩ (by show (t.val - 1) % 2 = 0; omega), if_neg Bool.false_ne_true]
    have hi : idle1 1 (grid1.coords ⟨t.val - 1, Nat.lt_of_le_of_lt (Nat.sub_le _ _) t.isLt⟩) = true :=
      idle_out_even ⟨t.val - 1, Nat.lt_of_le_of_lt (Nat.sub_le _ _) t.isLt⟩ (by show (t.val - 1) % 2 = 0; omega)
    rw [hi]
    dsimp only
    rw [Dat.found_eq_before]
    exact before_out_even V c ⟨t.val - 1, _⟩ (by show (t.val - 1) % 2 = 0; omega) d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_in t) fullShare ((dat V c).before 0 t d))
    ∗ (∃ d, owns (c : Thread nD τ) (ms_out t) fullShare ((dat V c).before 1 t d)))

def bodyPost (c : Dev nD) (t : Fin cfg1.N) : sProp 𝕄 :=
  iprop((dat V c).Φ t.succ ∗ (dat V c).owesAt () t.succ
    ∗ (dat V c).leaves 0 t
    ∗ (dat V c).leaves 1 t)

/-- The input window's post: its buffer handed back as the body found it — the tile on the lanes inside the row, anything
    beyond (the window's last block overhangs, so only the part inside the array is stated). -/
theorem leaves_in (c : Dev nD) (t : Fin cfg1.N) :
    (dat V c).leaves 0 t = iprop(∃ d, owns (c : Thread nD τ) (ms_in t) fullShare (win1_0.fill (grid1.coords t) d (iblk V c 0 t))) := by
  show iprop(∃ d, owns (c : Thread nD τ) (ms_in t) fullShare (win1_0.fill (grid1.coords t) d (win1_0.cut (grid1.coords t) (xin V c t)))) = _
  unfold xin
  simp only [Window.cut_fill]

/-- The output window's post at an odd point: its buffer at the new accumulator times the reciprocal of the pixel count. -/
theorem leaves_out_odd (c : Dev nD) (t : Fin cfg1.N) (h : t.val % 2 = 1) :
    (dat V c).leaves 1 t = owns (c : Thread nD τ) (ms_out t) fullShare (k1_pay3 (F := Ideal) (accAt V c t.val t.isLt)) := by
  unfold Dat.leaves; rw [live_out_odd t h]; rfl

set_option maxHeartbeats 4000000 in
/-- The body at any point. At an even point the accumulator (at anything at the very first point, at what the point before
    left afterwards) is cleared and rebuilt from the staged tile, and the output's buffer is handed back untouched; at an odd
    point the accumulator is read at what the even point before left, extended, and the output's buffer stored. What the
    stores leave is the body's payloads (the stores cover the buffers), and those do not depend on what fills the staged
    tile beyond the row's end. -/
theorem sound_body (c : Dev nD) (t : Fin cfg1.N) :
    bodyPre V c t ⊢ wp frame (wpE (defs₀ (F := Ideal)) Variants.none c none) Set.univ (bodyAt1 t) (fun _ => bodyPost V c t) := by
  unfold bodyPre bodyPost bodyAt1
  simp only [before_in, before_out]
  rw [show (dat V c).owesAt () t.succ = (dat V c).owesAt () t.castSucc from rfl]
  rw [show (dat V c).Φ t.succ = PhiS V c (t.val + 1) t.isLt from rfl, PhiS_succ]
  rw [leaves_in]
  have hN : cfg1.N = 16 := N_1
  rcases Nat.mod_two_eq_zero_or_one t.val with h0 | h1
  · have hc0 : condFirst (grid1.coords t) := (hcondFirst t).mpr h0
    have hc1 : ¬condLast (grid1.coords t) := fun h => by have := (hcondLast t).mp h; omega
    rw [Dat.leaves_idle (dat V c) 1 t (idle_out_even t h0) (noflush_out_even t h0)]
    simp only [before_out]
    rw [accAt_even V c t h0]
    unfold accEven
    by_cases hz : t.val = 0
    · rw [PhiS_castSucc V c t, PhiS_zero V c _ _ hz, PhiA_eq]
      iintro ⟨⟨⟨HS0, Hr⟩, Hg⟩, Ho, ⟨%d0, H0⟩, ⟨%d1, H1⟩⟩
      iapply ((runEven c (grid1.coords t) _ _ _ _ _ _ hc0 hc1 (win1_0.fill (grid1.coords t) d0 (iblk V c 0 t))).2 d1 Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
    · rw [PhiS_castSucc V c t, PhiS_pos V c _ _ hz]
      iintro ⟨⟨⟨HS0, Hr⟩, Hg⟩, Ho, ⟨%d0, H0⟩, ⟨%d1, H1⟩⟩
      iapply ((runEven c (grid1.coords t) _ _ _ _ _ _ hc0 hc1 (win1_0.fill (grid1.coords t) d0 (iblk V c 0 t))).2 d1 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
  · have hc0 : ¬condFirst (grid1.coords t) := fun h => by have := (hcondFirst t).mp h; omega
    have hc1 : condLast (grid1.coords t) := (hcondLast t).mpr h1
    have hz : t.val ≠ 0 := by omega
    rw [leaves_out_odd V c t h1]
    rw [accAt_odd V c t h1]
    rw [PhiS_castSucc V c t, PhiS_pos V c _ _ hz]
    iintro ⟨⟨⟨HS0, Hr⟩, Hg⟩, Ho, ⟨%d0, H0⟩, ⟨%d1, H1⟩⟩
    iapply ((runOdd c (grid1.coords t) _ _ _ _ _ _ hc0 hc1 (win1_0.fill (grid1.coords t) d0 (iblk V c 0 t)) (accAt V c (t.val - 1) (by omega))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro
          exact (View.read_writes_of_cover _ _ _ _ _ (scoverOdd c _ _ _ _ _ _ _ hc0 hc1 _ _)).trans
            ((soutOdd_eq c _ _ _ _ _ _ _ hc0 hc1 _ _).trans (pay2_indep V c t d0 _))
        iexact Hr
      iexact Hg
    isplitl [Ho]; · iexact Ho
    isplitl [H0]; · iexists d0; iexact H0
    unfold owns; iexists _; isplitr
    swap; · iexact H1
    ipureintro
    exact (View.read_writes_of_cover _ _ _ _ _ (coverOdd c _ _ _ _ _ _ _ hc0 hc1 _ _)).trans
      ((outOdd_eq c _ _ _ _ _ _ _ hc0 hc1 _ _).trans (congrArg (k1_pay3 (F := Ideal)) (pay2_indep V c t d0 _)))

/-- The library's body obligation (the form for windows whose blocks may overhang), at every point. -/
theorem body_obligation (c : Dev nD) : BodyObligationLoose (dat V c) (defs₀ (F := Ideal)) Variants.none () Set.univ := fun t => by
  rw [bigSep_W1, bigSep_W1]
  exact sound_body V c t

/-! ## The invariant at the region's two ends -/

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ Pipeline.ΦA spec1 c := by
  have hN : cfg1.N = 16 := N_1
  rw [show (dat V c).Φ (Fin.last cfg1.N) = PhiS V c (Fin.last cfg1.N).val (Nat.le_of_lt_succ (Fin.last cfg1.N).isLt) from rfl,
    PhiS_pos V c _ _ (by rw [Fin.val_last]; omega), PhiA_eq]
  iintro ⟨⟨HS0, Hr⟩, Hg⟩
  isplitl [HS0 Hr]
  · isplitl [HS0]
    · iexists _; iexact HS0
    iexact Hr
  iexact Hg

/-! ## The arrays after the region -/

/-- The input array is never written. -/
theorem final_in (c : Dev nD) : (dat V c).arrAt 0 cfg1.N = V c main_v3 :=
  ((dat V c).arrAt_in 0 rfl _).trans (A_eq V c 0)

/-- Where the blocks sit: point t = 2r + k stages input block (r, k) and holds output block (r, 0). Decided over the grid. -/
theorem in_index : ∀ t : Fin cfg1.N, win1_0.index t (0 : Fin 2) = t.val / 2 ∧ win1_0.index t (1 : Fin 2) = t.val % 2 :=
  (by decide +kernel : ∀ t : Fin grid1.N, _)
theorem out_index : ∀ t : Fin cfg1.N, win1_1.index t (0 : Fin 2) = t.val / 2 ∧ win1_1.index t (1 : Fin 2) = 0 :=
  (by decide +kernel : ∀ t : Fin grid1.N, _)
theorem tile_of_point : ∀ t : Fin cfg1.N, ((grid1.coords t) 1).val = t.val % 2 :=
  (by decide +kernel : ∀ t : Fin grid1.N, _)

/-- Two spellings of one entry of a flattened view. -/
theorem entry_congr (A : FVec Ideal Cert.Pool.SFlat .f32) {r r' : Fin 2048} {l l' : Fin 2304} (hr : r.val = r'.val) (hl : l.val = l'.val) :
    A (ix2 r l) = A (ix2 r' l') := by
  cases Fin.ext hr; cases Fin.ext hl; rfl

/-- The staged tile at a lane inside the row is the input array's entry: row 256 (t / 2) + p, lane 2048 (t % 2) + j. -/
theorem xin_apply (c : Dev nD) (t : Fin cfg1.N) (p : Fin 256) (j : Fin 2048) (hj : (t.val % 2) * 2048 + j.val < 2304) :
    xin V c t (ix2 p j) = (V c main_v3 : FVec Ideal Cert.Pool.SFlat .f32)
      (ix2 (⟨(t.val / 2) * 256 + p.val, by have := t.isLt; have hN : cfg1.N = 16 := N_1; omega⟩ : Fin 2048) (⟨(t.val % 2) * 2048 + j.val, hj⟩ : Fin 2304)) := by
  obtain ⟨e0, e1⟩ := in_index t
  have hm := kept_lane_moved t p j (by rw [tile_of_point t]; exact hj)
  unfold xin Window.fill
  rw [dif_pos hm]
  unfold iblk
  rw [View.read_apply]
  show V c main_v3 _ = V c main_v3 _
  refine congrArg (V c main_v3) ?_
  funext a
  apply Fin.ext
  match a with
  | ⟨0, _⟩ => show win1_0.index t (0 : Fin 2) * 256 + 1 * p.val = (t.val / 2) * 256 + p.val; omega
  | ⟨1, _⟩ => show win1_0.index t (1 : Fin 2) * 2048 + 1 * j.val = (t.val % 2) * 2048 + j.val; omega

/-- What an odd point t = 2r + 1 stores into the output's buffer: at row p the pooled value of row 256 r + p of the
    input array — the two accumulation steps are one sum over the row's 2304 lanes. -/
theorem out_value (c : Dev nD) (t : Fin cfg1.N) (hodd : t.val % 2 = 1) (p : Fin 256) (z : Fin 1) :
    outAt V c t (ix2 p z) = Cert.Pool.rowMean (V c main_v3)
      (⟨(t.val / 2) * 256 + p.val, by have := t.isLt; have hN : cfg1.N = 16 := N_1; omega⟩ : Fin 2048) := by
  have hN : cfg1.N = 16 := N_1
  have hlt := t.isLt
  have hrow : (t.val / 2) * 256 + p.val < 2048 := by omega
  unfold outAt
  rw [accAt_odd V c t hodd, accAt_even V c ⟨t.val - 1, Nat.lt_of_le_of_lt (Nat.sub_le _ _) t.isLt⟩ (by show (t.val - 1) % 2 = 0; omega)]
  unfold accEven
  refine (Cert.RefPayload.two_steps_1 (grid1.coords ⟨t.val - 1, Nat.lt_of_le_of_lt (Nat.sub_le _ _) t.isLt⟩) (grid1.coords t)
    (by rw [tile_of_point]; show (t.val - 1) % 2 = 0; omega) (by rw [tile_of_point]; exact hodd)
    (xin V c ⟨t.val - 1, Nat.lt_of_le_of_lt (Nat.sub_le _ _) t.isLt⟩) (xin V c t)
    (fun n => if h : n < 2304 then (V c main_v3 : FVec Ideal Cert.Pool.SFlat .f32) (ix2 (⟨(t.val / 2) * 256 + p.val, hrow⟩ : Fin 2048) (⟨n, h⟩ : Fin 2304)) else 0)
    p z ?_ ?_).trans ?_
  · intro j
    have hj : j.val < 2304 := by have := j.isLt; omega
    rw [dif_pos hj, xin_apply V c ⟨t.val - 1, Nat.lt_of_le_of_lt (Nat.sub_le _ _) t.isLt⟩ p j (by show ((t.val - 1) % 2) * 2048 + j.val < 2304; omega)]
    exact entry_congr _ (by show ((t.val - 1) / 2) * 256 + p.val = (t.val / 2) * 256 + p.val; omega) (by show ((t.val - 1) % 2) * 2048 + j.val = j.val; omega)
  · intro j hj
    rw [dif_pos hj, xin_apply V c t p j (by omega)]
    exact entry_congr _ rfl (by show (t.val % 2) * 2048 + j.val = 2048 + j.val; omega)
  · unfold Cert.Pool.rowMean
    refine congrArg (fun s : EReal => s * Cert.Pool.invHW) ?_
    exact Finset.sum_congr rfl fun j _ => dif_pos j.isLt

/-- What an odd point writes back: its 256 rows of the pooled column of the input array. -/
theorem written_back (c : Dev nD) (t : Fin cfg1.N) (hodd : t.val % 2 = 1) :
    (dat V c).flushed 1 t
      = ((cfg1.win 1).blk t).view.read (Elt Ideal) (Cert.Pool.colMean (V c main_v3) : Buf (Elt Ideal) ((cfg1.win 1).arr.view.loc (c : Thread nD τ))) := by
  show (cfg1.win 1).cut (grid1.coords t) ((dat V c).after 1 t) = _
  rw [after_out]
  obtain ⟨e0, e1⟩ := out_index t
  funext j
  rw [View.read_apply]
  show outAt V c t (win1_1.xinj (grid1.coords t) j) = Cert.Pool.colMean (V c main_v3) (((cfg1.win 1).blk t).view.emb j)
  obtain ⟨p, z, hy⟩ : ∃ (p : Fin 256) (z : Fin 1), win1_1.xinj (grid1.coords t) j = ix2 p z := ⟨_, _, eq_ix2 _⟩
  have hp : p.val = (j 0).val := (congrArg (fun y : S256x1.Idx => (y 0).val) hy).symm
  rw [hy, out_value V c t hodd p z]
  show Cert.Pool.rowMean (V c main_v3) _ = Cert.Pool.rowMean (V c main_v3) _
  refine congrArg (Cert.Pool.rowMean (V c main_v3)) (Fin.ext ?_)
  show (t.val / 2) * 256 + p.val = win1_1.index t (0 : Fin 2) * 256 + 1 * (j 0).val
  omega

/-- An entry of the output column lies in point t's block iff its row is one of the block's 256 rows. -/
theorem mem_rows (t : Fin cfg1.N) (i : S2048x1.Idx) :
    i ∈ ((cfg1.win 1).blk t).view.set ↔ ∀ a : Fin 2, win1_1.index t a * S256x1.size a ≤ (i a).val
      ∧ (i a).val < win1_1.index t a * S256x1.size a + S256x1.size a := by
  show i ∈ ((View.whole main_v4).slice (win1_1.rect t)).set ↔ _
  rw [View.set_slice_whole, Rect.mem_set_unit]
  exact Iff.rfl

/-- Row r of the output column is written back at the odd point of its row block: the eight written blocks cover it. -/
theorem rows_covered (i : S2048x1.Idx) :
    ∃ t : Fin cfg1.N, (cfg1.win 1).flush t = true ∧ i ∈ ((cfg1.win 1).blk t).view.set := by
  have hN : cfg1.N = 16 := N_1
  have hi0 : (i 0).val < 2048 := (i 0).isLt
  have hi1 : (i 1).val < 1 := (i 1).isLt
  let t : Fin cfg1.N := ⟨2 * ((i 0).val / 256) + 1, by omega⟩
  obtain ⟨e0, e1⟩ := out_index t
  have ht : t.val = 2 * ((i 0).val / 256) + 1 := rfl
  refine ⟨t, flush_out_odd t (by omega), ?_⟩
  rw [mem_rows]
  intro a
  match a with
  | ⟨0, _⟩ =>
    show win1_1.index t (0 : Fin 2) * 256 ≤ (i 0).val ∧ (i 0).val < win1_1.index t (0 : Fin 2) * 256 + 256
    omega
  | ⟨1, _⟩ =>
    show win1_1.index t (1 : Fin 2) * 1 ≤ (i 1).val ∧ (i 1).val < win1_1.index t (1 : Fin 2) * 1 + 1
    omega

/-- The output array ends holding the pooled column of the input array. -/
theorem final_out (c : Dev nD) :
    (dat V c).arrAt 1 cfg1.N = (Cert.Pool.colMean (V c main_v3) : Buf (Elt Ideal) ((cfg1.win 1).arr.view.loc (c : Thread nD τ))) :=
  (dat V c).arrAt_eq_of_cover 1 _ (fun t hf => written_back V c t ((flush1_1 t).mp hf)) rows_covered

end Cert.RefRegion1

end
-- ==== Proof.RefBody2.lean ====
/-
  One pooling region of the reference, its body run at a grid point.

  The region walks a grid of 8 row blocks by 2 lane tiles. At a point (r, k) the body first clears the
  accumulator (a [256, 1] scratch) when k = 0, then adds to it the lane sums of the staged tile with the lanes
  beyond the row's end masked to zero, and, when k = 1, multiplies the accumulator by the reciprocal of the pixel
  count and stores that into the output's staging buffer. So there are two kinds of points: at an even point
  (k = 0) the scratch is rebuilt from nothing and the output's buffer is left alone; at an odd point (k = 1) the
  scratch is read, extended, and the output's buffer is written whole.

  This module decides the two branch conditions over the grid, says where the output window is idle, and runs
  the body symbolically in each of the two cases on arbitrary whole memrefs: what the scratch and the output
  buffer end up holding is recorded as the list of stores made into them.
-/
import proofs.«103361_g2000304880361579_pallasbulk_792_2_alg».proof.Proof.Gen.ReferenceIdeal.Launch
import proofs.«103361_g2000304880361579_pallasbulk_792_2_alg».proof.Proof.Gen.ReferenceIdeal.Skeleton
import proofs.«103361_g2000304880361579_pallasbulk_792_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.RefRegion2

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- "This is the first lane tile of its row block" (k = 0): the accumulator is cleared. -/
abbrev condFirst (i : grid2.Coords) : Prop :=
  (Scalar.cmpi .ne (Scalar.extui (Scalar.cmpi .eq (BitVec.ofNat 32 (i 1).val) 0#32)) 0#32) = 1#1
/-- It holds at the even points. -/
theorem hcondFirst : ∀ t : Fin cfg2.N, condFirst (grid2.coords t) ↔ t.val % 2 = 0 :=
  (by decide +kernel : ∀ t : Fin grid2.N, condFirst (grid2.coords t) ↔ t.val % 2 = 0)

/-- "This is the last lane tile of its row block" (k = 1): the mean is stored. -/
abbrev condLast (i : grid2.Coords) : Prop := k2_cond2 i = 1#1
/-- It holds at the odd points. -/
theorem hcondLast : ∀ t : Fin cfg2.N, condLast (grid2.coords t) ↔ t.val % 2 = 1 :=
  (by decide +kernel : ∀ t : Fin grid2.N, condLast (grid2.coords t) ↔ t.val % 2 = 1)

/-! ## Where the windows are idle -/

/-- The input window is never idle. -/
theorem live_in : ∀ t : Fin cfg2.N, cfg2.idle 0 (grid2.coords t) = false := by decide +kernel
/-- At an even point nothing is stored into the output's buffer, and the block is not written back. -/
theorem idle_out_even : ∀ t : Fin cfg2.N, t.val % 2 = 0 → cfg2.idle 1 (grid2.coords t) = true := by decide +kernel
theorem noflush_out_even : ∀ t : Fin cfg2.N, t.val % 2 = 0 → (cfg2.win 1).flush t = false := by decide +kernel
/-- At an odd point the output's buffer is stored whole and written back. -/
theorem live_out_odd : ∀ t : Fin cfg2.N, t.val % 2 = 1 → cfg2.idle 1 (grid2.coords t) = false := by decide +kernel
theorem flush_out_odd : ∀ t : Fin cfg2.N, t.val % 2 = 1 → (cfg2.win 1).flush t = true := by decide +kernel
/-- The output window is never fetched. -/
theorem nofetch_out : ∀ t : Fin cfg2.N, (cfg2.win 1).fetch t = false := by decide +kernel

/-! ## The memrefs the body is called with -/

abbrev ms_in (t : Fin cfg2.N) : Memref sig .tc .vmem S256x2048 .f32 := win2_0.stage (cfg2.slots t 0)
abbrev hs_in (t : Fin cfg2.N) : (ms_in t).IsWhole := hstage2_0 ((cfg2.slots t 0).cast nbuf2_0)
abbrev ms_out (t : Fin cfg2.N) : Memref sig .tc .vmem S256x1 .f32 := win2_1.stage (cfg2.slots t 1)
abbrev hs_out (t : Fin cfg2.N) : (ms_out t).IsWhole := hstage2_1 ((cfg2.slots t 1).cast nbuf2_1)
/-- The accumulator: a whole scoped buffer of the kernel's own. -/
abbrev scM : Memref sig .tc .vmem S256x1 .f32 := Memref.whole cc2_scratch0
/-- Views through which the accumulator's and the output buffer's contents are stated. -/
abbrev VS : View sig .tc .vmem S256x1 .f32 := scM.view
abbrev VO : View sig .tc .vmem S256x1 .f32 := (Memref.whole cc2_stg1_0 : Memref sig .tc .vmem S256x1 .f32).view

/-- Every scoped buffer that is neither a staging buffer of this region nor its accumulator, at some contents each:
    the other regions' buffers, which ride through this region unopened. -/
abbrev others (c : Dev nD) : sProp 𝕄 :=
  Pipeline.scopedRestBut (Ix := Unit) (Name := ℕ) (U := UR sig nD τ) (Lvl := ℕ) (Val := Elt F) spec2 c [cc2_scratch0]

/-- The region's resting invariant: the accumulator (as a memref) at some contents, the other scoped buffers, and the
    generator register at some state. -/
theorem PhiA_eq (c : Dev nD) :
    (Pipeline.ΦA spec2 c : sProp 𝕄)
      = iprop(iprop((∃ d, owns (c : Thread nD τ) scM fullShare d) ∗ others c) ∗ (∃ r, prngReg c r)) := by
  have h : (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
    Pipeline.scopedRest_split_of_list spec2 c [cc2_scratch0] (by decide) (by decide)
  unfold Pipeline.ΦA; rw [h]; simp only [scM, owns_whole]; try rfl

/-! ## The body run in each case -/

set_option maxHeartbeats 1000000 in
/-- AT AN EVEN POINT (the first condition holds, the second does not): on whole memrefs, the input's at contents
    `x0`, the output's at contents `xi1` that are handed back untouched, the accumulator at anything, the body runs
    to the continuation with the input's as it was and the accumulator holding the stores `LS` (last first). -/
noncomputable def runEven (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) :
    { LS : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc2__sum_pool_kernel i arg2 harg2 arg3 harg3 arg4 harg4) K } := by
  refine ⟨?_, fun xi1 E K => ?run⟩
  case run =>
    simp only [cc2__sum_pool_kernel_eq_skeleton]; unfold cc2__sum_pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- AT AN ODD POINT (the first condition fails, the second holds): on whole memrefs, the input's at contents `x0`,
    the output's at anything, the accumulator at the contents `xs` the point before left, the body runs to the
    continuation with the input's as it was, the output's buffer holding the stores `LO` and the accumulator the
    stores `LS` (last first). -/
noncomputable def runOdd (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc2__sum_pool_kernel i arg2 harg2 arg3 harg3 arg4 harg4) K } := by
  refine ⟨?_, ?_, fun E K => ?run⟩
  case run =>
    simp only [cc2__sum_pool_kernel_eq_skeleton]; unfold cc2__sum_pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the two runs leave, read back as the body's payloads -/

theorem hz2 : (![0, 0] : Fin 2 → Nat) = fun _ => 0 := funext fun a => by fin_cases a <;> rfl

/-- At an even point the accumulator's stores cover it. -/
theorem scoverEven (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) (y : S256x1.Idx) :
    ∃ pc ∈ (runEven c i arg2 harg2 arg3 harg3 arg4 harg4 hc0 hc1 x0).1, y ∈ pc.1.set :=
  View.cover_of_tiledL (runEven c i arg2 harg2 arg3 harg3 arg4 harg4 hc0 hc1 x0).1 S256x1.size (by sl_kernel_rfl) y

/-- What an even point leaves in the accumulator. -/
def soutEven (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : Vec F S256x1 .f32 :=
  VS.read (Elt F) (VS.writes (Elt F) VS.junk (runEven c i arg2 harg2 arg3 harg3 arg4 harg4 hc0 hc1 x0).1)

/-- It is the accumulation step applied to the cleared accumulator: the last store covers the buffer, and the
    accumulator it read back is what the clearing store wrote. -/
theorem soutEven_eq (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : soutEven c i arg2 harg2 arg3 harg3 arg4 harg4 hc0 hc1 x0 = k2_pay2 i x0 (k2_pay1 (F := F)) := by
  unfold soutEven
  rw [View.read_writes_eq_canon _ _ _ (scoverEven c i arg2 harg2 arg3 harg3 arg4 harg4 hc0 hc1 x0)]
  unfold runEven; dsimp only
  rw [View.canon_cons_unit_zero hz2]
  sl_unfold_words
  rw [View.readCov_unit_zero arg4.view hz2, View.readAt_eq_ld, harg2.read_unread, View.ld_unit_zero (S := S256x2048) hz2]

/-- At an odd point the accumulator's stores cover it, and so do the output buffer's. -/
theorem scoverOdd (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).2.1, y ∈ pc.1.set :=
  View.cover_of_tiledL (runOdd c i arg2 harg2 arg3 harg3 arg4 harg4 hc0 hc1 x0 xs).2.1 S256x1.size (by sl_kernel_rfl) y
theorem coverOdd (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).1, y ∈ pc.1.set :=
  View.cover_of_tiledL (runOdd c i arg2 harg2 arg3 harg3 arg4 harg4 hc0 hc1 x0 xs).1 S256x1.size (by sl_kernel_rfl) y

/-- What an odd point leaves in the accumulator and in the output's buffer. -/
def soutOdd (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VS.read (Elt F) (VS.writes (Elt F) VS.junk (runOdd c i arg2 harg2 arg3 harg3 arg4 harg4 hc0 hc1 x0 xs).2.1)
def outOdd (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VO.read (Elt F) (VO.writes (Elt F) VO.junk (runOdd c i arg2 harg2 arg3 harg3 arg4 harg4 hc0 hc1 x0 xs).1)

/-- The accumulator: the accumulation step applied to what the point before left. -/
theorem soutOdd_eq (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : soutOdd c i arg2 harg2 arg3 harg3 arg4 harg4 hc0 hc1 x0 xs = k2_pay2 i x0 xs := by
  unfold soutOdd
  rw [View.read_writes_eq_canon _ _ _ (scoverOdd c i arg2 harg2 arg3 harg3 arg4 harg4 hc0 hc1 x0 xs)]
  unfold runOdd; dsimp only
  sl_unfold_words
  rw [View.canon_unit_zero hz2]
  simp only [View.readAt_eq_ld, harg2.read_unread, harg4.read_unread, View.ld_unit_zero (S := S256x2048) hz2, View.ld_unit_zero (S := S256x1) hz2]

/-- The output's buffer: the new accumulator times the reciprocal of the pixel count. -/
theorem outOdd_eq (c : Dev nD) (i : grid2.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : outOdd c i arg2 harg2 arg3 harg3 arg4 harg4 hc0 hc1 x0 xs = k2_pay3 (k2_pay2 i x0 xs) := by
  unfold outOdd
  rw [View.read_writes_eq_canon _ _ _ (coverOdd c i arg2 harg2 arg3 harg3 arg4 harg4 hc0 hc1 x0 xs)]
  unfold runOdd; dsimp only
  rw [View.canon_unit_zero hz2]
  sl_unfold_words
  rw [View.readCov_unit_zero arg4.view hz2]
  simp only [View.readAt_eq_ld, harg2.read_unread, harg4.read_unread, View.ld_unit_zero (S := S256x2048) hz2, View.ld_unit_zero (S := S256x1) hz2]

end Cert.RefRegion2

end
-- ==== Proof.RefData2.lean ====
/-
  One pooling region of the reference: its proof data and what it leaves in its output array.

  The region's input array y has shape [2048, 2304]; its output array is a [2048, 1] column. The grid is 8 row
  blocks of 256 rows by 2 lane tiles of 2048 lanes; the second tile overhangs the row (only its first 256 lanes are
  inside the array), so what its staging buffer holds beyond them is not determined — but the body masks exactly
  those lanes to zero, so nothing it computes depends on them. Point 2r stages lanes 0..2047 of row block r and
  leaves in the accumulator the row sums of that tile; point 2r+1 stages lanes 2048..2303 (and 1792 undetermined
  lanes), adds the row sums of the lanes inside the row, and writes the accumulator times the reciprocal of the
  pixel count into the output's block r, which the pipeline writes back. So after the region row p of the output
  column is (the sum of the 2304 entries of row p of y) times that reciprocal: the pooled column of y.
-/
import proofs.«103361_g2000304880361579_pallasbulk_792_2_alg».proof.Proof.RefBody2
import proofs.«103361_g2000304880361579_pallasbulk_792_2_alg».proof.Proof.RefPayload
import proofs.«103361_g2000304880361579_pallasbulk_792_2_alg».proof.Proof.PoolSpec

set_option maxRecDepth 16384

noncomputable section

namespace Cert.RefRegion2

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the buffer contents when the region is entered
variable (V : (c : Dev nD) → (b : Ref sig .tc) → Buf (Elt Ideal) ((c : Thread nD τ).loc b))

/-! ## The tile a point stages -/

/-- Window `w`'s block at point `t`, its part inside the array, read off the array as the region finds it. -/
def iblk (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

/-- The staged tile with zeros on the lanes beyond the row's end. -/
def xin (c : Dev nD) (t : Fin cfg2.N) : Vec Ideal S256x2048 .f32 :=
  win2_0.fill (grid2.coords t) (fun _ => (0 : EReal)) (iblk V c 0 t)

/-- Where the tiles sit: every tile has all 256 rows; a first tile (k = 0) has all 2048 lanes inside the row, a second
    (k = 1) only 256. Decided over the grid. -/
theorem tile_facts : ∀ t : Fin cfg2.N, win2_0.xsize (grid2.coords t) 0 = 256
    ∧ (((grid2.coords t) 1).val = 0 ∧ win2_0.xsize (grid2.coords t) 1 = 2048
      ∨ ((grid2.coords t) 1).val = 1 ∧ win2_0.xsize (grid2.coords t) 1 = 256) :=
  (by decide +kernel : ∀ t : Fin grid2.N, win2_0.xsize (grid2.coords t) 0 = 256
    ∧ (((grid2.coords t) 1).val = 0 ∧ win2_0.xsize (grid2.coords t) 1 = 2048
      ∨ ((grid2.coords t) 1).val = 1 ∧ win2_0.xsize (grid2.coords t) 1 = 256))

/-- A lane the mask keeps lies inside the row, so the staged tile is the array's there whatever fills the rest. -/
theorem kept_lane_moved (t : Fin cfg2.N) (p : Fin 256) (j : Fin 2048)
    (h : ((grid2.coords t) 1).val * 2048 + j.val < 2304) : win2_0.moved (grid2.coords t) (ix2 p j) = true := by
  refine (win2_0.moved_iff _ _).mpr fun a => ?_
  obtain ⟨h0, h1⟩ := tile_facts t
  match a with
  | ⟨0, _⟩ => show p.val < win2_0.xsize (grid2.coords t) 0; rw [h0]; exact p.isLt
  | ⟨1, _⟩ =>
    show j.val < win2_0.xsize (grid2.coords t) 1
    rcases h1 with ⟨hk, hx⟩ | ⟨hk, hx⟩
    · rw [hx]; exact j.isLt
    · rw [hx]; rw [hk] at h; omega

/-- The accumulation step does not depend on what fills the staged tile beyond the row's end. -/
theorem pay2_indep (c : Dev nD) (t : Fin cfg2.N) (d : S256x2048.Idx → EReal) (s : Vec Ideal S256x1 .f32) :
    k2_pay2 (F := Ideal) (grid2.coords t) (win2_0.fill (grid2.coords t) d (iblk V c 0 t)) s
      = k2_pay2 (F := Ideal) (grid2.coords t) (xin V c t) s := by
  funext y
  obtain ⟨p, z, rfl⟩ : ∃ (p : Fin 256) (z : Fin 1), y = ix2 p z := ⟨y 0, y 1, eq_ix2 y⟩
  rw [Cert.RefPayload.pay2_2, Cert.RefPayload.pay2_2]
  congr 1
  refine Finset.sum_congr rfl fun j _ => ?_
  split
  · rename_i h
    have hm := kept_lane_moved t p j h
    unfold xin Window.fill
    rw [dif_pos hm, dif_pos hm]
  · rfl

/-! ## What the accumulator and the output's buffer hold after each point -/

/-- After an even point: the row sums of the first tile. -/
def accEven (c : Dev nD) (t : Fin cfg2.N) : Vec Ideal S256x1 .f32 :=
  k2_pay2 (F := Ideal) (grid2.coords t) (xin V c t) (k2_pay1 (F := Ideal))

/-- After point `n`: at an even point the first tile's row sums, at an odd point those plus the second tile's. -/
def accAt (c : Dev nD) (n : ℕ) (hn : n < cfg2.N) : Vec Ideal S256x1 .f32 :=
  if n % 2 = 0 then accEven V c ⟨n, hn⟩
  else k2_pay2 (F := Ideal) (grid2.coords ⟨n, hn⟩) (xin V c ⟨n, hn⟩) (accEven V c ⟨n - 1, Nat.lt_of_le_of_lt (Nat.sub_le _ _) hn⟩)

theorem accAt_even (c : Dev nD) (t : Fin cfg2.N) (h : t.val % 2 = 0) : accAt V c t.val t.isLt = accEven V c t := by
  unfold accAt; rw [if_pos h]
theorem accAt_odd (c : Dev nD) (t : Fin cfg2.N) (h : t.val % 2 = 1) :
    accAt V c t.val t.isLt = k2_pay2 (F := Ideal) (grid2.coords t) (xin V c t) (accAt V c (t.val - 1) (Nat.lt_of_le_of_lt (Nat.sub_le _ _) t.isLt)) := by
  have h1 : ¬ t.val % 2 = 0 := by omega
  have h2 : (t.val - 1) % 2 = 0 := by omega
  unfold accAt; rw [if_neg h1, if_pos h2]

/-- The output's staging buffer after point `t` (stored only at the odd points; at an even point nothing reads this). -/
def outAt (c : Dev nD) (t : Fin cfg2.N) : Vec Ideal S256x1 .f32 := k2_pay3 (F := Ideal) (accAt V c t.val t.isLt)

/-! ## The region's invariant and proof data -/

/-- Before point `n`: at the start the resting invariant (the accumulator at anything); afterwards the accumulator at what
    point `n - 1` left, the other scoped buffers and the generator register. -/
def PhiS (c : Dev nD) : (n : ℕ) → n ≤ cfg2.N → sProp 𝕄
  | 0, _ => Pipeline.ΦA spec2 c
  | n + 1, hn => iprop(iprop(owns (c : Thread nD τ) scM fullShare (accAt V c n hn) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare (accAt V c n hn) ∗ others c) ∗ (∃ r, prngReg c r)) := rfl
theorem PhiS_pos (c : Dev nD) (n : ℕ) (h : n ≤ cfg2.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-- The proof data: the arrays as the region finds them; after the body the input's buffer at its tile (zeros beyond the
    row's end) and the output's at `outAt`; the invariant `PhiS`; nothing owed; full shares. -/
def dat (c : Dev nD) : Dat τ (Elt Ideal) Unit ℕ (UR sig nD τ) ℕ cfg2 c where
  A w := V c (Pipeline.arrRef spec2 w)
  after w t := match w with
    | ⟨0, _⟩ => xin V c t
    | ⟨1, _⟩ => outAt V c t
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem after_in (c : Dev nD) (t : Fin cfg2.N) : (dat V c).after 0 t = xin V c t := by dsimp only [dat]
theorem after_out (c : Dev nD) (t : Fin cfg2.N) : (dat V c).after 1 t = outAt V c t := by dsimp only [dat]
theorem PhiS_castSucc (c : Dev nD) (t : Fin cfg2.N) :
    (dat V c).Φ t.castSucc = PhiS V c t.val (Nat.le_of_lt t.isLt) := by
  dsimp only [dat]; simp only [Fin.coe_castSucc]

/-! ## What the body finds in the staging buffers -/

/-- The input's buffer was just fetched: the tile on the lanes inside the row, anything elsewhere. -/
theorem before_in (c : Dev nD) (t : Fin cfg2.N) (d) :
    (dat V c).before 0 t d = win2_0.fill (grid2.coords t) d (iblk V c 0 t) := by
  unfold Dat.before; rw [if_pos (fetch2_0 t)]; rfl

/-- The output's buffer holds nothing anyone named: at an even point it was written back at the point before (or this is
    the first point); at an odd point the even point before it left it alone. -/
theorem before_out_even (c : Dev nD) (t : Fin cfg2.N) (ht : t.val % 2 = 0) (d) : (dat V c).before 1 t d = d := by
  unfold Dat.before
  rw [nofetch_out t, if_neg Bool.false_ne_true]
  by_cases hz : t.val = 0
  · rw [if_pos hz]
  · rw [if_neg hz]
    dsimp only
    rw [if_pos (flush_out_odd ⟨t.val - 1, _⟩ (by show (t.val - 1) % 2 = 1; omega))]
theorem before_out (c : Dev nD) (t : Fin cfg2.N) (d) : (dat V c).before 1 t d = d := by
  rcases Nat.mod_two_eq_zero_or_one t.val with h | h
  · exact before_out_even V c t h d
  · unfold Dat.before
    rw [nofetch_out t, if_neg Bool.false_ne_true, if_neg (by omega : ¬ t.val = 0)]
    dsimp only
    rw [noflush_out_even ⟨t.val - 1, _⟩ (by show (t.val - 1) % 2 = 0; omega), if_neg Bool.false_ne_true]
    have hi : idle2 1 (grid2.coords ⟨t.val - 1, Nat.lt_of_le_of_lt (Nat.sub_le _ _) t.isLt⟩) = true :=
      idle_out_even ⟨t.val - 1, Nat.lt_of_le_of_lt (Nat.sub_le _ _) t.isLt⟩ (by show (t.val - 1) % 2 = 0; omega)
    rw [hi]
    dsimp only
    rw [Dat.found_eq_before]
    exact before_out_even V c ⟨t.val - 1, _⟩ (by show (t.val - 1) % 2 = 0; omega) d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_in t) fullShare ((dat V c).before 0 t d))
    ∗ (∃ d, owns (c : Thread nD τ) (ms_out t) fullShare ((dat V c).before 1 t d)))

def bodyPost (c : Dev nD) (t : Fin cfg2.N) : sProp 𝕄 :=
  iprop((dat V c).Φ t.succ ∗ (dat V c).owesAt () t.succ
    ∗ (dat V c).leaves 0 t
    ∗ (dat V c).leaves 1 t)

/-- The input window's post: its buffer handed back as the body found it — the tile on the lanes inside the row, anything
    beyond (the window's last block overhangs, so only the part inside the array is stated). -/
theorem leaves_in (c : Dev nD) (t : Fin cfg2.N) :
    (dat V c).leaves 0 t = iprop(∃ d, owns (c : Thread nD τ) (ms_in t) fullShare (win2_0.fill (grid2.coords t) d (iblk V c 0 t))) := by
  show iprop(∃ d, owns (c : Thread nD τ) (ms_in t) fullShare (win2_0.fill (grid2.coords t) d (win2_0.cut (grid2.coords t) (xin V c t)))) = _
  unfold xin
  simp only [Window.cut_fill]

/-- The output window's post at an odd point: its buffer at the new accumulator times the reciprocal of the pixel count. -/
theorem leaves_out_odd (c : Dev nD) (t : Fin cfg2.N) (h : t.val % 2 = 1) :
    (dat V c).leaves 1 t = owns (c : Thread nD τ) (ms_out t) fullShare (k2_pay3 (F := Ideal) (accAt V c t.val t.isLt)) := by
  unfold Dat.leaves; rw [live_out_odd t h]; rfl

set_option maxHeartbeats 4000000 in
/-- The body at any point. At an even point the accumulator (at anything at the very first point, at what the point before
    left afterwards) is cleared and rebuilt from the staged tile, and the output's buffer is handed back untouched; at an odd
    point the accumulator is read at what the even point before left, extended, and the output's buffer stored. What the
    stores leave is the body's payloads (the stores cover the buffers), and those do not depend on what fills the staged
    tile beyond the row's end. -/
theorem sound_body (c : Dev nD) (t : Fin cfg2.N) :
    bodyPre V c t ⊢ wp frame (wpE (defs₀ (F := Ideal)) Variants.none c none) Set.univ (bodyAt2 t) (fun _ => bodyPost V c t) := by
  unfold bodyPre bodyPost bodyAt2
  simp only [before_in, before_out]
  rw [show (dat V c).owesAt () t.succ = (dat V c).owesAt () t.castSucc from rfl]
  rw [show (dat V c).Φ t.succ = PhiS V c (t.val + 1) t.isLt from rfl, PhiS_succ]
  rw [leaves_in]
  have hN : cfg2.N = 16 := N_2
  rcases Nat.mod_two_eq_zero_or_one t.val with h0 | h1
  · have hc0 : condFirst (grid2.coords t) := (hcondFirst t).mpr h0
    have hc1 : ¬condLast (grid2.coords t) := fun h => by have := (hcondLast t).mp h; omega
    rw [Dat.leaves_idle (dat V c) 1 t (idle_out_even t h0) (noflush_out_even t h0)]
    simp only [before_out]
    rw [accAt_even V c t h0]
    unfold accEven
    by_cases hz : t.val = 0
    · rw [PhiS_castSucc V c t, PhiS_zero V c _ _ hz, PhiA_eq]
      iintro ⟨⟨⟨HS0, Hr⟩, Hg⟩, Ho, ⟨%d0, H0⟩, ⟨%d1, H1⟩⟩
      iapply ((runEven c (grid2.coords t) _ _ _ _ _ _ hc0 hc1 (win2_0.fill (grid2.coords t) d0 (iblk V c 0 t))).2 d1 Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
    · rw [PhiS_castSucc V c t, PhiS_pos V c _ _ hz]
      iintro ⟨⟨⟨HS0, Hr⟩, Hg⟩, Ho, ⟨%d0, H0⟩, ⟨%d1, H1⟩⟩
      iapply ((runEven c (grid2.coords t) _ _ _ _ _ _ hc0 hc1 (win2_0.fill (grid2.coords t) d0 (iblk V c 0 t))).2 d1 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
  · have hc0 : ¬condFirst (grid2.coords t) := fun h => by have := (hcondFirst t).mp h; omega
    have hc1 : condLast (grid2.coords t) := (hcondLast t).mpr h1
    have hz : t.val ≠ 0 := by omega
    rw [leaves_out_odd V c t h1]
    rw [accAt_odd V c t h1]
    rw [PhiS_castSucc V c t, PhiS_pos V c _ _ hz]
    iintro ⟨⟨⟨HS0, Hr⟩, Hg⟩, Ho, ⟨%d0, H0⟩, ⟨%d1, H1⟩⟩
    iapply ((runOdd c (grid2.coords t) _ _ _ _ _ _ hc0 hc1 (win2_0.fill (grid2.coords t) d0 (iblk V c 0 t)) (accAt V c (t.val - 1) (by omega))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro
          exact (View.read_writes_of_cover _ _ _ _ _ (scoverOdd c _ _ _ _ _ _ _ hc0 hc1 _ _)).trans
            ((soutOdd_eq c _ _ _ _ _ _ _ hc0 hc1 _ _).trans (pay2_indep V c t d0 _))
        iexact Hr
      iexact Hg
    isplitl [Ho]; · iexact Ho
    isplitl [H0]; · iexists d0; iexact H0
    unfold owns; iexists _; isplitr
    swap; · iexact H1
    ipureintro
    exact (View.read_writes_of_cover _ _ _ _ _ (coverOdd c _ _ _ _ _ _ _ hc0 hc1 _ _)).trans
      ((outOdd_eq c _ _ _ _ _ _ _ hc0 hc1 _ _).trans (congrArg (k2_pay3 (F := Ideal)) (pay2_indep V c t d0 _)))

/-- The library's body obligation (the form for windows whose blocks may overhang), at every point. -/
theorem body_obligation (c : Dev nD) : BodyObligationLoose (dat V c) (defs₀ (F := Ideal)) Variants.none () Set.univ := fun t => by
  rw [bigSep_W2, bigSep_W2]
  exact sound_body V c t

/-! ## The invariant at the region's two ends -/

theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg2.N) ⊢ Pipeline.ΦA spec2 c := by
  have hN : cfg2.N = 16 := N_2
  rw [show (dat V c).Φ (Fin.last cfg2.N) = PhiS V c (Fin.last cfg2.N).val (Nat.le_of_lt_succ (Fin.last cfg2.N).isLt) from rfl,
    PhiS_pos V c _ _ (by rw [Fin.val_last]; omega), PhiA_eq]
  iintro ⟨⟨HS0, Hr⟩, Hg⟩
  isplitl [HS0 Hr]
  · isplitl [HS0]
    · iexists _; iexact HS0
    iexact Hr
  iexact Hg

/-! ## The arrays after the region -/

/-- The input array is never written. -/
theorem final_in (c : Dev nD) : (dat V c).arrAt 0 cfg2.N = V c main_v6 :=
  ((dat V c).arrAt_in 0 rfl _).trans (A_eq V c 0)

/-- Where the blocks sit: point t = 2r + k stages input block (r, k) and holds output block (r, 0). Decided over the grid. -/
theorem in_index : ∀ t : Fin cfg2.N, win2_0.index t (0 : Fin 2) = t.val / 2 ∧ win2_0.index t (1 : Fin 2) = t.val % 2 :=
  (by decide +kernel : ∀ t : Fin grid2.N, _)
theorem out_index : ∀ t : Fin cfg2.N, win2_1.index t (0 : Fin 2) = t.val / 2 ∧ win2_1.index t (1 : Fin 2) = 0 :=
  (by decide +kernel : ∀ t : Fin grid2.N, _)
theorem tile_of_point : ∀ t : Fin cfg2.N, ((grid2.coords t) 1).val = t.val % 2 :=
  (by decide +kernel : ∀ t : Fin grid2.N, _)

/-- Two spellings of one entry of a flattened view. -/
theorem entry_congr (A : FVec Ideal Cert.Pool.SFlat .f32) {r r' : Fin 2048} {l l' : Fin 2304} (hr : r.val = r'.val) (hl : l.val = l'.val) :
    A (ix2 r l) = A (ix2 r' l') := by
  cases Fin.ext hr; cases Fin.ext hl; rfl

/-- The staged tile at a lane inside the row is the input array's entry: row 256 (t / 2) + p, lane 2048 (t % 2) + j. -/
theorem xin_apply (c : Dev nD) (t : Fin cfg2.N) (p : Fin 256) (j : Fin 2048) (hj : (t.val % 2) * 2048 + j.val < 2304) :
    xin V c t (ix2 p j) = (V c main_v6 : FVec Ideal Cert.Pool.SFlat .f32)
      (ix2 (⟨(t.val / 2) * 256 + p.val, by have := t.isLt; have hN : cfg2.N = 16 := N_2; omega⟩ : Fin 2048) (⟨(t.val % 2) * 2048 + j.val, hj⟩ : Fin 2304)) := by
  obtain ⟨e0, e1⟩ := in_index t
  have hm := kept_lane_moved t p j (by rw [tile_of_point t]; exact hj)
  unfold xin Window.fill
  rw [dif_pos hm]
  unfold iblk
  rw [View.read_apply]
  show V c main_v6 _ = V c main_v6 _
  refine congrArg (V c main_v6) ?_
  funext a
  apply Fin.ext
  match a with
  | ⟨0, _⟩ => show win2_0.index t (0 : Fin 2) * 256 + 1 * p.val = (t.val / 2) * 256 + p.val; omega
  | ⟨1, _⟩ => show win2_0.index t (1 : Fin 2) * 2048 + 1 * j.val = (t.val % 2) * 2048 + j.val; omega

/-- What an odd point t = 2r + 1 stores into the output's buffer: at row p the pooled value of row 256 r + p of the
    input array — the two accumulation steps are one sum over the row's 2304 lanes. -/
theorem out_value (c : Dev nD) (t : Fin cfg2.N) (hodd : t.val % 2 = 1) (p : Fin 256) (z : Fin 1) :
    outAt V c t (ix2 p z) = Cert.Pool.rowMean (V c main_v6)
      (⟨(t.val / 2) * 256 + p.val, by have := t.isLt; have hN : cfg2.N = 16 := N_2; omega⟩ : Fin 2048) := by
  have hN : cfg2.N = 16 := N_2
  have hlt := t.isLt
  have hrow : (t.val / 2) * 256 + p.val < 2048 := by omega
  unfold outAt
  rw [accAt_odd V c t hodd, accAt_even V c ⟨t.val - 1, Nat.lt_of_le_of_lt (Nat.sub_le _ _) t.isLt⟩ (by show (t.val - 1) % 2 = 0; omega)]
  unfold accEven
  refine (Cert.RefPayload.two_steps_2 (grid2.coords ⟨t.val - 1, Nat.lt_of_le_of_lt (Nat.sub_le _ _) t.isLt⟩) (grid2.coords t)
    (by rw [tile_of_point]; show (t.val - 1) % 2 = 0; omega) (by rw [tile_of_point]; exact hodd)
    (xin V c ⟨t.val - 1, Nat.lt_of_le_of_lt (Nat.sub_le _ _) t.isLt⟩) (xin V c t)
    (fun n => if h : n < 2304 then (V c main_v6 : FVec Ideal Cert.Pool.SFlat .f32) (ix2 (⟨(t.val / 2) * 256 + p.val, hrow⟩ : Fin 2048) (⟨n, h⟩ : Fin 2304)) else 0)
    p z ?_ ?_).trans ?_
  · intro j
    have hj : j.val < 2304 := by have := j.isLt; omega
    rw [dif_pos hj, xin_apply V c ⟨t.val - 1, Nat.lt_of_le_of_lt (Nat.sub_le _ _) t.isLt⟩ p j (by show ((t.val - 1) % 2) * 2048 + j.val < 2304; omega)]
    exact entry_congr _ (by show ((t.val - 1) / 2) * 256 + p.val = (t.val / 2) * 256 + p.val; omega) (by show ((t.val - 1) % 2) * 2048 + j.val = j.val; omega)
  · intro j hj
    rw [dif_pos hj, xin_apply V c t p j (by omega)]
    exact entry_congr _ rfl (by show (t.val % 2) * 2048 + j.val = 2048 + j.val; omega)
  · unfold Cert.Pool.rowMean
    refine congrArg (fun s : EReal => s * Cert.Pool.invHW) ?_
    exact Finset.sum_congr rfl fun j _ => dif_pos j.isLt

/-- What an odd point writes back: its 256 rows of the pooled column of the input array. -/
theorem written_back (c : Dev nD) (t : Fin cfg2.N) (hodd : t.val % 2 = 1) :
    (dat V c).flushed 1 t
      = ((cfg2.win 1).blk t).view.read (Elt Ideal) (Cert.Pool.colMean (V c main_v6) : Buf (Elt Ideal) ((cfg2.win 1).arr.view.loc (c : Thread nD τ))) := by
  show (cfg2.win 1).cut (grid2.coords t) ((dat V c).after 1 t) = _
  rw [after_out]
  obtain ⟨e0, e1⟩ := out_index t
  funext j
  rw [View.read_apply]
  show outAt V c t (win2_1.xinj (grid2.coords t) j) = Cert.Pool.colMean (V c main_v6) (((cfg2.win 1).blk t).view.emb j)
  obtain ⟨p, z, hy⟩ : ∃ (p : Fin 256) (z : Fin 1), win2_1.xinj (grid2.coords t) j = ix2 p z := ⟨_, _, eq_ix2 _⟩
  have hp : p.val = (j 0).val := (congrArg (fun y : S256x1.Idx => (y 0).val) hy).symm
  rw [hy, out_value V c t hodd p z]
  show Cert.Pool.rowMean (V c main_v6) _ = Cert.Pool.rowMean (V c main_v6) _
  refine congrArg (Cert.Pool.rowMean (V c main_v6)) (Fin.ext ?_)
  show (t.val / 2) * 256 + p.val = win2_1.index t (0 : Fin 2) * 256 + 1 * (j 0).val
  omega

/-- An entry of the output column lies in point t's block iff its row is one of the block's 256 rows. -/
theorem mem_rows (t : Fin cfg2.N) (i : S2048x1.Idx) :
    i ∈ ((cfg2.win 1).blk t).view.set ↔ ∀ a : Fin 2, win2_1.index t a * S256x1.size a ≤ (i a).val
      ∧ (i a).val < win2_1.index t a * S256x1.size a + S256x1.size a := by
  show i ∈ ((View.whole main_v7).slice (win2_1.rect t)).set ↔ _
  rw [View.set_slice_whole, Rect.mem_set_unit]
  exact Iff.rfl

/-- Row r of the output column is written back at the odd point of its row block: the eight written blocks cover it. -/
theorem rows_covered (i : S2048x1.Idx) :
    ∃ t : Fin cfg2.N, (cfg2.win 1).flush t = true ∧ i ∈ ((cfg2.win 1).blk t).view.set := by
  have hN : cfg2.N = 16 := N_2
  have hi0 : (i 0).val < 2048 := (i 0).isLt
  have hi1 : (i 1).val < 1 := (i 1).isLt
  let t : Fin cfg2.N := ⟨2 * ((i 0).val / 256) + 1, by omega⟩
  obtain ⟨e0, e1⟩ := out_index t
  have ht : t.val = 2 * ((i 0).val / 256) + 1 := rfl
  refine ⟨t, flush_out_odd t (by omega), ?_⟩
  rw [mem_rows]
  intro a
  match a with
  | ⟨0, _⟩ =>
    show win2_1.index t (0 : Fin 2) * 256 ≤ (i 0).val ∧ (i 0).val < win2_1.index t (0 : Fin 2) * 256 + 256
    omega
  | ⟨1, _⟩ =>
    show win2_1.index t (1 : Fin 2) * 1 ≤ (i 1).val ∧ (i 1).val < win2_1.index t (1 : Fin 2) * 1 + 1
    omega

/-- The output array ends holding the pooled column of the input array. -/
theorem final_out (c : Dev nD) :
    (dat V c).arrAt 1 cfg2.N = (Cert.Pool.colMean (V c main_v6) : Buf (Elt Ideal) ((cfg2.win 1).arr.view.loc (c : Thread nD τ))) :=
  (dat V c).arrAt_eq_of_cover 1 _ (fun t hf => written_back V c t ((flush2_1 t).mp hf)) rows_covered

end Cert.RefRegion2

end
-- ==== Proof.RefBody3.lean ====
/-
  One pooling region of the reference, its body run at a grid point.

  The region walks a grid of 8 row blocks by 2 lane tiles. At a point (r, k) the body first clears the
  accumulator (a [256, 1] scratch) when k = 0, then adds to it the lane sums of the staged tile with the lanes
  beyond the row's end masked to zero, and, when k = 1, multiplies the accumulator by the reciprocal of the pixel
  count and stores that into the output's staging buffer. So there are two kinds of points: at an even point
  (k = 0) the scratch is rebuilt from nothing and the output's buffer is left alone; at an odd point (k = 1) the
  scratch is read, extended, and the output's buffer is written whole.

  This module decides the two branch conditions over the grid, says where the output window is idle, and runs
  the body symbolically in each of the two cases on arbitrary whole memrefs: what the scratch and the output
  buffer end up holding is recorded as the list of stores made into them.
-/
import proofs.«103361_g2000304880361579_pallasbulk_792_2_alg».proof.Proof.Gen.ReferenceIdeal.Launch
import proofs.«103361_g2000304880361579_pallasbulk_792_2_alg».proof.Proof.Gen.ReferenceIdeal.Skeleton
import proofs.«103361_g2000304880361579_pallasbulk_792_2_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.RefRegion3

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- "This is the first lane tile of its row block" (k = 0): the accumulator is cleared. -/
abbrev condFirst (i : grid3.Coords) : Prop :=
  (Scalar.cmpi .ne (Scalar.extui (Scalar.cmpi .eq (BitVec.ofNat 32 (i 1).val) 0#32)) 0#32) = 1#1
/-- It holds at the even points. -/
theorem hcondFirst : ∀ t : Fin cfg3.N, condFirst (grid3.coords t) ↔ t.val % 2 = 0 :=
  (by decide +kernel : ∀ t : Fin grid3.N, condFirst (grid3.coords t) ↔ t.val % 2 = 0)

/-- "This is the last lane tile of its row block" (k = 1): the mean is stored. -/
abbrev condLast (i : grid3.Coords) : Prop := k3_cond2 i = 1#1
/-- It holds at the odd points. -/
theorem hcondLast : ∀ t : Fin cfg3.N, condLast (grid3.coords t) ↔ t.val % 2 = 1 :=
  (by decide +kernel : ∀ t : Fin grid3.N, condLast (grid3.coords t) ↔ t.val % 2 = 1)

/-! ## Where the windows are idle -/

/-- The input window is never idle. -/
theorem live_in : ∀ t : Fin cfg3.N, cfg3.idle 0 (grid3.coords t) = false := by decide +kernel
/-- At an even point nothing is stored into the output's buffer, and the block is not written back. -/
theorem idle_out_even : ∀ t : Fin cfg3.N, t.val % 2 = 0 → cfg3.idle 1 (grid3.coords t) = true := by decide +kernel
theorem noflush_out_even : ∀ t : Fin cfg3.N, t.val % 2 = 0 → (cfg3.win 1).flush t = false := by decide +kernel
/-- At an odd point the output's buffer is stored whole and written back. -/
theorem live_out_odd : ∀ t : Fin cfg3.N, t.val % 2 = 1 → cfg3.idle 1 (grid3.coords t) = false := by decide +kernel
theorem flush_out_odd : ∀ t : Fin cfg3.N, t.val % 2 = 1 → (cfg3.win 1).flush t = true := by decide +kernel
/-- The output window is never fetched. -/
theorem nofetch_out : ∀ t : Fin cfg3.N, (cfg3.win 1).fetch t = false := by decide +kernel

/-! ## The memrefs the body is called with -/

abbrev ms_in (t : Fin cfg3.N) : Memref sig .tc .vmem S256x2048 .f32 := win3_0.stage (cfg3.slots t 0)
abbrev hs_in (t : Fin cfg3.N) : (ms_in t).IsWhole := hstage3_0 ((cfg3.slots t 0).cast nbuf3_0)
abbrev ms_out (t : Fin cfg3.N) : Memref sig .tc .vmem S256x1 .f32 := win3_1.stage (cfg3.slots t 1)
abbrev hs_out (t : Fin cfg3.N) : (ms_out t).IsWhole := hstage3_1 ((cfg3.slots t 1).cast nbuf3_1)
/-- The accumulator: a whole scoped buffer of the kernel's own. -/
abbrev scM : Memref sig .tc .vmem S256x1 .f32 := Memref.whole cc3_scratch0
/-- Views through which the accumulator's and the output buffer's contents are stated. -/
abbrev VS : View sig .tc .vmem S256x1 .f32 := scM.view
abbrev VO : View sig .tc .vmem S256x1 .f32 := (Memref.whole cc3_stg1_0 : Memref sig .tc .vmem S256x1 .f32).view

/-- Every scoped buffer that is neither a staging buffer of this region nor its accumulator, at some contents each:
    the other regions' buffers, which ride through this region unopened. -/
abbrev others (c : Dev nD) : sProp 𝕄 :=
  Pipeline.scopedRestBut (Ix := Unit) (Name := ℕ) (U := UR sig nD τ) (Lvl := ℕ) (Val := Elt F) spec3 c [cc3_scratch0]

/-- The region's resting invariant: the accumulator (as a memref) at some contents, the other scoped buffers, and the
    generator register at some state. -/
theorem PhiA_eq (c : Dev nD) :
    (Pipeline.ΦA spec3 c : sProp 𝕄)
      = iprop(iprop((∃ d, owns (c : Thread nD τ) scM fullShare d) ∗ others c) ∗ (∃ r, prngReg c r)) := by
  have h : (Pipeline.scopedRest (Ix := Unit) (Name := ℕ) (U := UR sig nD τ) (Lvl := ℕ) (Val := Elt F) spec3 c : sProp 𝕄)
      = iprop((∃ f : Buf (Elt F) ((c : Thread nD τ).loc cc3_scratch0), ((c : Thread nD τ).loc cc3_scratch0) ↦{fullShare} f)
          ∗ Pipeline.scopedRestBut (Ix := Unit) (Name := ℕ) (U := UR sig nD τ) (Lvl := ℕ) (Val := Elt F) spec3 c [cc3_scratch0]) :=
    Pipeline.scopedRest_split_of_list spec3 c [cc3_scratch0] (by decide) (by decide)
  unfold Pipeline.ΦA; rw [h]; simp only [scM, owns_whole]; try rfl

/-! ## The body run in each case -/

set_option maxHeartbeats 1000000 in
/-- AT AN EVEN POINT (the first condition holds, the second does not): on whole memrefs, the input's at contents
    `x0`, the output's at contents `xi1` that are handed back untouched, the accumulator at anything, the body runs
    to the continuation with the input's as it was and the accumulator holding the stores `LS` (last first). -/
noncomputable def runEven (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) :
    { LS : List (View.Piece (Elt F) S256x1 .f32) //
      ∀ (xi1 : Vec F S256x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS)) -∗ K ⟨⟩))
          ⊢ wp frame (wpE (defs₀ (F := F)) Variants.none c none) E (cc3__sum_pool_kernel i arg2 harg2 arg3 harg3 arg4 harg4) K } := by
  refine ⟨?_, fun xi1 E K => ?run⟩
  case run =>
    simp only [cc3__sum_pool_kernel_eq_skeleton]; unfold cc3__sum_pool_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

set_option maxHeartbeats 1000000 in
/-- AT AN ODD POINT (the first condition fails, the second holds): on whole memrefs, the input's at contents `x0`,
    the output's at anything, the accumulator at the contents `xs` the point before left, the body runs to the
    continuation with the input's as it was, the output's buffer holding the stores `LO` and the accumulator the
    stores `LS` (last first). -/
noncomputable def runOdd (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs
            ∗ (iprop(owns (c : Thread nD τ) arg2 fullShare x0 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc3__sum_pool_kernel i arg2 harg2 arg3 harg3 arg4 harg4) K } := by
  refine ⟨?_, ?_, fun E K => ?run⟩
  case run =>
    simp only [cc3__sum_pool_kernel_eq_skeleton]; unfold cc3__sum_pool_kernel_skel
    unfold owns
    iintro ⟨⟨%f0, %hf0, H0⟩, ⟨%d1, %f1, -, H1⟩, ⟨%fs0, %hfs0, HS0⟩, Hk⟩
    obtain rfl := harg2.eq_unread hf0; obtain rfl := harg4.eq_unread hfs0
    sl_exec (disch := first | exact hc0 | exact hc1)
    sl_step
    iapply Hk
    isplitl [H0]
    · iexists _; isplitr; · ipureintro; exact harg2.read_unread _
      iexact H0
    isplitl [H1]; · iexists _; iexact H1
    iexists _; iexact HS0

/-! ## What the two runs leave, read back as the body's payloads -/

theorem hz2 : (![0, 0] : Fin 2 → Nat) = fun _ => 0 := funext fun a => by fin_cases a <;> rfl

/-- At an even point the accumulator's stores cover it. -/
theorem scoverEven (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) (y : S256x1.Idx) :
    ∃ pc ∈ (runEven c i arg2 harg2 arg3 harg3 arg4 harg4 hc0 hc1 x0).1, y ∈ pc.1.set :=
  View.cover_of_tiledL (runEven c i arg2 harg2 arg3 harg3 arg4 harg4 hc0 hc1 x0).1 S256x1.size (by sl_kernel_rfl) y

/-- What an even point leaves in the accumulator. -/
def soutEven (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : Vec F S256x1 .f32 :=
  VS.read (Elt F) (VS.writes (Elt F) VS.junk (runEven c i arg2 harg2 arg3 harg3 arg4 harg4 hc0 hc1 x0).1)

/-- It is the accumulation step applied to the cleared accumulator: the last store covers the buffer, and the
    accumulator it read back is what the clearing store wrote. -/
theorem soutEven_eq (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : condFirst i) (hc1 : ¬condLast i)
    (x0 : Vec F S256x2048 .f32) : soutEven c i arg2 harg2 arg3 harg3 arg4 harg4 hc0 hc1 x0 = k3_pay2 i x0 (k3_pay1 (F := F)) := by
  unfold soutEven
  rw [View.read_writes_eq_canon _ _ _ (scoverEven c i arg2 harg2 arg3 harg3 arg4 harg4 hc0 hc1 x0)]
  unfold runEven; dsimp only
  rw [View.canon_cons_unit_zero hz2]
  sl_unfold_words
  rw [View.readCov_unit_zero arg4.view hz2, View.readAt_eq_ld, harg2.read_unread, View.ld_unit_zero (S := S256x2048) hz2]

/-- At an odd point the accumulator's stores cover it, and so do the output buffer's. -/
theorem scoverOdd (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).2.1, y ∈ pc.1.set :=
  View.cover_of_tiledL (runOdd c i arg2 harg2 arg3 harg3 arg4 harg4 hc0 hc1 x0 xs).2.1 S256x1.size (by sl_kernel_rfl) y
theorem coverOdd (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) (y : S256x1.Idx) :
    ∃ pc ∈ (runOdd c i arg2 harg2 arg3 harg3 arg4 harg4 hc0 hc1 x0 xs).1, y ∈ pc.1.set :=
  View.cover_of_tiledL (runOdd c i arg2 harg2 arg3 harg3 arg4 harg4 hc0 hc1 x0 xs).1 S256x1.size (by sl_kernel_rfl) y

/-- What an odd point leaves in the accumulator and in the output's buffer. -/
def soutOdd (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VS.read (Elt F) (VS.writes (Elt F) VS.junk (runOdd c i arg2 harg2 arg3 harg3 arg4 harg4 hc0 hc1 x0 xs).2.1)
def outOdd (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : Vec F S256x1 .f32 :=
  VO.read (Elt F) (VO.writes (Elt F) VO.junk (runOdd c i arg2 harg2 arg3 harg3 arg4 harg4 hc0 hc1 x0 xs).1)

/-- The accumulator: the accumulation step applied to what the point before left. -/
theorem soutOdd_eq (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : soutOdd c i arg2 harg2 arg3 harg3 arg4 harg4 hc0 hc1 x0 xs = k3_pay2 i x0 xs := by
  unfold soutOdd
  rw [View.read_writes_eq_canon _ _ _ (scoverOdd c i arg2 harg2 arg3 harg3 arg4 harg4 hc0 hc1 x0 xs)]
  unfold runOdd; dsimp only
  sl_unfold_words
  rw [View.canon_unit_zero hz2]
  simp only [View.readAt_eq_ld, harg2.read_unread, harg4.read_unread, View.ld_unit_zero (S := S256x2048) hz2, View.ld_unit_zero (S := S256x1) hz2]

/-- The output's buffer: the new accumulator times the reciprocal of the pixel count. -/
theorem outOdd_eq (c : Dev nD) (i : grid3.Coords) (arg2 : Memref sig .tc .vmem S256x2048 .f32) (harg2 : arg2.IsWhole) (arg3 : Memref sig .tc .vmem S256x1 .f32) (harg3 : arg3.IsWhole) (arg4 : Memref sig .tc .vmem S256x1 .f32) (harg4 : arg4.IsWhole) (hc0 : ¬condFirst i) (hc1 : condLast i)
    (x0 : Vec F S256x2048 .f32) (xs : Vec F S256x1 .f32) : outOdd c i arg2 harg2 arg3 harg3 arg4 harg4 hc0 hc1 x0 xs = k3_pay3 (k3_pay2 i x0 xs) := by
  unfold outOdd
  rw [View.read_writes_eq_canon _ _ _ (coverOdd c i arg2 harg2 arg3 harg3 arg4 harg4 hc0 hc1 x0 xs)]
  unfold runOdd; dsimp only
  rw [View.canon_unit_zero hz2]
  sl_unfold_words
  rw [View.readCov_unit_zero arg4.view hz2]
  simp only [View.readAt_eq_ld, harg2.read_unread, harg4.read_unread, View.ld_unit_zero (S := S256x2048) hz2, View.ld_unit_zero (S := S256x1) hz2]

end Cert.RefRegion3

end
-- ==== Proof.RefData3.lean ====
/-
  One pooling region of the reference: its proof data and what it leaves in its output array.

  The region's input array y has shape [2048, 2304]; its output array is a [2048, 1] column. The grid is 8 row
  blocks of 256 rows by 2 lane tiles of 2048 lanes; the second tile overhangs the row (only its first 256 lanes are
  inside the array), so what its staging buffer holds beyond them is not determined — but the body masks exactly
  those lanes to zero, so nothing it computes depends on them. Point 2r stages lanes 0..2047 of row block r and
  leaves in the accumulator the row sums of that tile; point 2r+1 stages lanes 2048..2303 (and 1792 undetermined
  lanes), adds the row sums of the lanes inside the row, and writes the accumulator times the reciprocal of the
  pixel count into the output's block r, which the pipeline writes back. So after the region row p of the output
  column is (the sum of the 2304 entries of row p of y) times that reciprocal: the pooled column of y.
-/
import proofs.«103361_g2000304880361579_pallasbulk_792_2_alg».proof.Proof.RefBody3
import proofs.«103361_g2000304880361579_pallasbulk_792_2_alg».proof.Proof.RefPayload
import proofs.«103361_g2000304880361579_pallasbulk_792_2_alg».proof.Proof.PoolSpec

set_option maxRecDepth 16384

noncomputable section

namespace Cert.RefRegion3

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

-- the buffer contents when the region is entered
variable (V : (c : Dev nD) → (b : Ref sig .tc) → Buf (Elt Ideal) ((c : Thread nD τ).loc b))

/-! ## The tile a point stages -/

/-- Window `w`'s block at point `t`, its part inside the array, read off the array as the region finds it. -/
def iblk (c : Dev nD) (w : Fin cfg3.W) (t : Fin cfg3.N) : ((cfg3.win w).xblock (cfg3.grid.coords t)).Idx → Elt Ideal (cfg3.win w).elt :=
  ((cfg3.win w).blk t).view.read (Elt Ideal) (V c (Pipeline.arrRef spec3 w))

/-- The staged tile with zeros on the lanes beyond the row's end. -/
def xin (c : Dev nD) (t : Fin cfg3.N) : Vec Ideal S256x2048 .f32 :=
  win3_0.fill (grid3.coords t) (fun _ => (0 : EReal)) (iblk V c 0 t)

/-- Where the tiles sit: every tile has all 256 rows; a first tile (k = 0) has all 2048 lanes inside the row, a second
    (k = 1) only 256. Decided over the grid. -/
theorem tile_facts : ∀ t : Fin cfg3.N, win3_0.xsize (grid3.coords t) 0 = 256
    ∧ (((grid3.coords t) 1).val = 0 ∧ win3_0.xsize (grid3.coords t) 1 = 2048
      ∨ ((grid3.coords t) 1).val = 1 ∧ win3_0.xsize (grid3.coords t) 1 = 256) :=
  (by decide +kernel : ∀ t : Fin grid3.N, win3_0.xsize (grid3.coords t) 0 = 256
    ∧ (((grid3.coords t) 1).val = 0 ∧ win3_0.xsize (grid3.coords t) 1 = 2048
      ∨ ((grid3.coords t) 1).val = 1 ∧ win3_0.xsize (grid3.coords t) 1 = 256))

/-- A lane the mask keeps lies inside the row, so the staged tile is the array's there whatever fills the rest. -/
theorem kept_lane_moved (t : Fin cfg3.N) (p : Fin 256) (j : Fin 2048)
    (h : ((grid3.coords t) 1).val * 2048 + j.val < 2304) : win3_0.moved (grid3.coords t) (ix2 p j) = true := by
  refine (win3_0.moved_iff _ _).mpr fun a => ?_
  obtain ⟨h0, h1⟩ := tile_facts t
  match a with
  | ⟨0, _⟩ => show p.val < win3_0.xsize (grid3.coords t) 0; rw [h0]; exact p.isLt
  | ⟨1, _⟩ =>
    show j.val < win3_0.xsize (grid3.coords t) 1
    rcases h1 with ⟨hk, hx⟩ | ⟨hk, hx⟩
    · rw [hx]; exact j.isLt
    · rw [hx]; rw [hk] at h; omega

/-- The accumulation step does not depend on what fills the staged tile beyond the row's end. -/
theorem pay2_indep (c : Dev nD) (t : Fin cfg3.N) (d : S256x2048.Idx → EReal) (s : Vec Ideal S256x1 .f32) :
    k3_pay2 (F := Ideal) (grid3.coords t) (win3_0.fill (grid3.coords t) d (iblk V c 0 t)) s
      = k3_pay2 (F := Ideal) (grid3.coords t) (xin V c t) s := by
  funext y
  obtain ⟨p, z, rfl⟩ : ∃ (p : Fin 256) (z : Fin 1), y = ix2 p z := ⟨y 0, y 1, eq_ix2 y⟩
  rw [Cert.RefPayload.pay2_3, Cert.RefPayload.pay2_3]
  congr 1
  refine Finset.sum_congr rfl fun j _ => ?_
  split
  · rename_i h
    have hm := kept_lane_moved t p j h
    unfold xin Window.fill
    rw [dif_pos hm, dif_pos hm]
  · rfl

/-! ## What the accumulator and the output's buffer hold after each point -/

/-- After an even point: the row sums of the first tile. -/
def accEven (c : Dev nD) (t : Fin cfg3.N) : Vec Ideal S256x1 .f32 :=
  k3_pay2 (F := Ideal) (grid3.coords t) (xin V c t) (k3_pay1 (F := Ideal))

/-- After point `n`: at an even point the first tile's row sums, at an odd point those plus the second tile's. -/
def accAt (c : Dev nD) (n : ℕ) (hn : n < cfg3.N) : Vec Ideal S256x1 .f32 :=
  if n % 2 = 0 then accEven V c ⟨n, hn⟩
  else k3_pay2 (F := Ideal) (grid3.coords ⟨n, hn⟩) (xin V c ⟨n, hn⟩) (accEven V c ⟨n - 1, Nat.lt_of_le_of_lt (Nat.sub_le _ _) hn⟩)

theorem accAt_even (c : Dev nD) (t : Fin cfg3.N) (h : t.val % 2 = 0) : accAt V c t.val t.isLt = accEven V c t := by
  unfold accAt; rw [if_pos h]
theorem accAt_odd (c : Dev nD) (t : Fin cfg3.N) (h : t.val % 2 = 1) :
    accAt V c t.val t.isLt = k3_pay2 (F := Ideal) (grid3.coords t) (xin V c t) (accAt V c (t.val - 1) (Nat.lt_of_le_of_lt (Nat.sub_le _ _) t.isLt)) := by
  have h1 : ¬ t.val % 2 = 0 := by omega
  have h2 : (t.val - 1) % 2 = 0 := by omega
  unfold accAt; rw [if_neg h1, if_pos h2]

/-- The output's staging buffer after point `t` (stored only at the odd points; at an even point nothing reads this). -/
def outAt (c : Dev nD) (t : Fin cfg3.N) : Vec Ideal S256x1 .f32 := k3_pay3 (F := Ideal) (accAt V c t.val t.isLt)

/-! ## The region's invariant and proof data -/

/-- Before point `n`: at the start the resting invariant (the accumulator at anything); afterwards the accumulator at what
    point `n - 1` left, the other scoped buffers and the generator register. -/
def PhiS (c : Dev nD) : (n : ℕ) → n ≤ cfg3.N → sProp 𝕄
  | 0, _ => Pipeline.ΦA spec3 c
  | n + 1, hn => iprop(iprop(owns (c : Thread nD τ) scM fullShare (accAt V c n hn) ∗ others c) ∗ (∃ r, prngReg c r))

theorem PhiS_zero (c : Dev nD) (n : ℕ) (h : n ≤ cfg3.N) (hz : n = 0) : PhiS V c n h = Pipeline.ΦA spec3 c := by
  subst hz; rfl
theorem PhiS_succ (c : Dev nD) (n : ℕ) (hn : n < cfg3.N) :
    PhiS V c (n + 1) hn = iprop(iprop(owns (c : Thread nD τ) scM fullShare (accAt V c n hn) ∗ others c) ∗ (∃ r, prngReg c r)) := rfl
theorem PhiS_pos (c : Dev nD) (n : ℕ) (h : n ≤ cfg3.N) (hz : n ≠ 0) :
    PhiS V c n h = iprop(iprop(owns (c : Thread nD τ) scM fullShare (accAt V c (n - 1) (by omega)) ∗ others c) ∗ (∃ r, prngReg c r)) := by
  cases n with
  | zero => exact absurd rfl hz
  | succ n => rfl

/-- The proof data: the arrays as the region finds them; after the body the input's buffer at its tile (zeros beyond the
    row's end) and the output's at `outAt`; the invariant `PhiS`; nothing owed; full shares. -/
def dat (c : Dev nD) : Dat τ (Elt Ideal) Unit ℕ (UR sig nD τ) ℕ cfg3 c where
  A w := V c (Pipeline.arrRef spec3 w)
  after w t := match w with
    | ⟨0, _⟩ => xin V c t
    | ⟨1, _⟩ => outAt V c t
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]
theorem after_in (c : Dev nD) (t : Fin cfg3.N) : (dat V c).after 0 t = xin V c t := by dsimp only [dat]
theorem after_out (c : Dev nD) (t : Fin cfg3.N) : (dat V c).after 1 t = outAt V c t := by dsimp only [dat]
theorem PhiS_castSucc (c : Dev nD) (t : Fin cfg3.N) :
    (dat V c).Φ t.castSucc = PhiS V c t.val (Nat.le_of_lt t.isLt) := by
  dsimp only [dat]; simp only [Fin.coe_castSucc]

/-! ## What the body finds in the staging buffers -/

/-- The input's buffer was just fetched: the tile on the lanes inside the row, anything elsewhere. -/
theorem before_in (c : Dev nD) (t : Fin cfg3.N) (d) :
    (dat V c).before 0 t d = win3_0.fill (grid3.coords t) d (iblk V c 0 t) := by
  unfold Dat.before; rw [if_pos (fetch3_0 t)]; rfl

/-- The output's buffer holds nothing anyone named: at an even point it was written back at the point before (or this is
    the first point); at an odd point the even point before it left it alone. -/
theorem before_out_even (c : Dev nD) (t : Fin cfg3.N) (ht : t.val % 2 = 0) (d) : (dat V c).before 1 t d = d := by
  unfold Dat.before
  rw [nofetch_out t, if_neg Bool.false_ne_true]
  by_cases hz : t.val = 0
  · rw [if_pos hz]
  · rw [if_neg hz]
    dsimp only
    rw [if_pos (flush_out_odd ⟨t.val - 1, _⟩ (by show (t.val - 1) % 2 = 1; omega))]
theorem before_out (c : Dev nD) (t : Fin cfg3.N) (d) : (dat V c).before 1 t d = d := by
  rcases Nat.mod_two_eq_zero_or_one t.val with h | h
  · exact before_out_even V c t h d
  · unfold Dat.before
    rw [nofetch_out t, if_neg Bool.false_ne_true, if_neg (by omega : ¬ t.val = 0)]
    dsimp only
    rw [noflush_out_even ⟨t.val - 1, _⟩ (by show (t.val - 1) % 2 = 0; omega), if_neg Bool.false_ne_true]
    have hi : idle3 1 (grid3.coords ⟨t.val - 1, Nat.lt_of_le_of_lt (Nat.sub_le _ _) t.isLt⟩) = true :=
      idle_out_even ⟨t.val - 1, Nat.lt_of_le_of_lt (Nat.sub_le _ _) t.isLt⟩ (by show (t.val - 1) % 2 = 0; omega)
    rw [hi]
    dsimp only
    rw [Dat.found_eq_before]
    exact before_out_even V c ⟨t.val - 1, _⟩ (by show (t.val - 1) % 2 = 0; omega) d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_in t) fullShare ((dat V c).before 0 t d))
    ∗ (∃ d, owns (c : Thread nD τ) (ms_out t) fullShare ((dat V c).before 1 t d)))

def bodyPost (c : Dev nD) (t : Fin cfg3.N) : sProp 𝕄 :=
  iprop((dat V c).Φ t.succ ∗ (dat V c).owesAt () t.succ
    ∗ (dat V c).leaves 0 t
    ∗ (dat V c).leaves 1 t)

/-- The input window's post: its buffer handed back as the body found it — the tile on the lanes inside the row, anything
    beyond (the window's last block overhangs, so only the part inside the array is stated). -/
theorem leaves_in (c : Dev nD) (t : Fin cfg3.N) :
    (dat V c).leaves 0 t = iprop(∃ d, owns (c : Thread nD τ) (ms_in t) fullShare (win3_0.fill (grid3.coords t) d (iblk V c 0 t))) := by
  show iprop(∃ d, owns (c : Thread nD τ) (ms_in t) fullShare (win3_0.fill (grid3.coords t) d (win3_0.cut (grid3.coords t) (xin V c t)))) = _
  unfold xin
  simp only [Window.cut_fill]

/-- The output window's post at an odd point: its buffer at the new accumulator times the reciprocal of the pixel count. -/
theorem leaves_out_odd (c : Dev nD) (t : Fin cfg3.N) (h : t.val % 2 = 1) :
    (dat V c).leaves 1 t = owns (c : Thread nD τ) (ms_out t) fullShare (k3_pay3 (F := Ideal) (accAt V c t.val t.isLt)) := by
  unfold Dat.leaves; rw [live_out_odd t h]; rfl

set_option maxHeartbeats 4000000 in
/-- The body at any point. At an even point the accumulator (at anything at the very first point, at what the point before
    left afterwards) is cleared and rebuilt from the staged tile, and the output's buffer is handed back untouched; at an odd
    point the accumulator is read at what the even point before left, extended, and the output's buffer stored. What the
    stores leave is the body's payloads (the stores cover the buffers), and those do not depend on what fills the staged
    tile beyond the row's end. -/
theorem sound_body (c : Dev nD) (t : Fin cfg3.N) :
    bodyPre V c t ⊢ wp frame (wpE (defs₀ (F := Ideal)) Variants.none c none) Set.univ (bodyAt3 t) (fun _ => bodyPost V c t) := by
  unfold bodyPre bodyPost bodyAt3
  simp only [before_in, before_out]
  rw [show (dat V c).owesAt () t.succ = (dat V c).owesAt () t.castSucc from rfl]
  rw [show (dat V c).Φ t.succ = PhiS V c (t.val + 1) t.isLt from rfl, PhiS_succ]
  rw [leaves_in]
  have hN : cfg3.N = 16 := N_3
  rcases Nat.mod_two_eq_zero_or_one t.val with h0 | h1
  · have hc0 : condFirst (grid3.coords t) := (hcondFirst t).mpr h0
    have hc1 : ¬condLast (grid3.coords t) := fun h => by have := (hcondLast t).mp h; omega
    rw [Dat.leaves_idle (dat V c) 1 t (idle_out_even t h0) (noflush_out_even t h0)]
    simp only [before_out]
    rw [accAt_even V c t h0]
    unfold accEven
    by_cases hz : t.val = 0
    · rw [PhiS_castSucc V c t, PhiS_zero V c _ _ hz, PhiA_eq]
      iintro ⟨⟨⟨HS0, Hr⟩, Hg⟩, Ho, ⟨%d0, H0⟩, ⟨%d1, H1⟩⟩
      iapply ((runEven c (grid3.coords t) _ _ _ _ _ _ hc0 hc1 (win3_0.fill (grid3.coords t) d0 (iblk V c 0 t))).2 d1 Set.univ _)
      isplitl [H0]; · iexact H0
      isplitl [H1]; · iexact H1
      isplitl [HS0]; · iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
    · rw [PhiS_castSucc V c t, PhiS_pos V c _ _ hz]
      iintro ⟨⟨⟨HS0, Hr⟩, Hg⟩, Ho, ⟨%d0, H0⟩, ⟨%d1, H1⟩⟩
      iapply ((runEven c (grid3.coords t) _ _ _ _ _ _ hc0 hc1 (win3_0.fill (grid3.coords t) d0 (iblk V c 0 t))).2 d1 Set.univ _)
      isplitl [H0]; · iexact H0
      isplitl [H1]; · iexact H1
      isplitl [HS0]; · iexists _; iexact HS0
      iintro ⟨H0, H1, ⟨%es0, HS0⟩⟩
      isplitl [HS0 Hr Hg]
      · isplitl [HS0 Hr]
        · isplitl [HS0]
          · unfold owns; iexists _; isplitr
            swap; · iexact HS0
            ipureintro
            exact (View.read_writes_of_cover _ _ _ _ _ (scoverEven c _ _ _ _ _ _ _ hc0 hc1 _)).trans
              ((soutEven_eq c _ _ _ _ _ _ _ hc0 hc1 _).trans (pay2_indep V c t d0 _))
          iexact Hr
        iexact Hg
      isplitl [Ho]; · iexact Ho
      isplitl [H0]; · iexists d0; iexact H0
      iexists d1; iexact H1
  · have hc0 : ¬condFirst (grid3.coords t) := fun h => by have := (hcondFirst t).mp h; omega
    have hc1 : condLast (grid3.coords t) := (hcondLast t).mpr h1
    have hz : t.val ≠ 0 := by omega
    rw [leaves_out_odd V c t h1]
    rw [accAt_odd V c t h1]
    rw [PhiS_castSucc V c t, PhiS_pos V c _ _ hz]
    iintro ⟨⟨⟨HS0, Hr⟩, Hg⟩, Ho, ⟨%d0, H0⟩, ⟨%d1, H1⟩⟩
    iapply ((runOdd c (grid3.coords t) _ _ _ _ _ _ hc0 hc1 (win3_0.fill (grid3.coords t) d0 (iblk V c 0 t)) (accAt V c (t.val - 1) (by omega))).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hr Hg]
    · isplitl [HS0 Hr]
      · isplitl [HS0]
        · unfold owns; iexists _; isplitr
          swap; · iexact HS0
          ipureintro
          exact (View.read_writes_of_cover _ _ _ _ _ (scoverOdd c _ _ _ _ _ _ _ hc0 hc1 _ _)).trans
            ((soutOdd_eq c _ _ _ _ _ _ _ hc0 hc1 _ _).trans (pay2_indep V c t d0 _))
        iexact Hr
      iexact Hg
    isplitl [Ho]; · iexact Ho
    isplitl [H0]; · iexists d0; iexact H0
    unfold owns; iexists _; isplitr
    swap; · iexact H1
    ipureintro
    exact (View.read_writes_of_cover _ _ _ _ _ (coverOdd c _ _ _ _ _ _ _ hc0 hc1 _ _)).trans
      ((outOdd_eq c _ _ _ _ _ _ _ hc0 hc1 _ _).trans (congrArg (k3_pay3 (F := Ideal)) (pay2_indep V c t d0 _)))

/-- The library's body obligation (the form for windows whose blocks may overhang), at every point. -/
theorem body_obligation (c : Dev nD) : BodyObligationLoose (dat V c) (defs₀ (F := Ideal)) Variants.none () Set.univ := fun t => by
  rw [bigSep_W3, bigSep_W3]
  exact sound_body V c t

/-! ## The invariant at the region's two ends -/

theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg3.N) ⊢ Pipeline.ΦA spec3 c := by
  have hN : cfg3.N = 16 := N_3
  rw [show (dat V c).Φ (Fin.last cfg3.N) = PhiS V c (Fin.last cfg3.N).val (Nat.le_of_lt_succ (Fin.last cfg3.N).isLt) from rfl,
    PhiS_pos V c _ _ (by rw [Fin.val_last]; omega), PhiA_eq]
  iintro ⟨⟨HS0, Hr⟩, Hg⟩
  isplitl [HS0 Hr]
  · isplitl [HS0]
    · iexists _; iexact HS0
    iexact Hr
  iexact Hg

/-! ## The arrays after the region -/

/-- The input array is never written. -/
theorem final_in (c : Dev nD) : (dat V c).arrAt 0 cfg3.N = V c main_v9 :=
  ((dat V c).arrAt_in 0 rfl _).trans (A_eq V c 0)

/-- Where the blocks sit: point t = 2r + k stages input block (r, k) and holds output block (r, 0). Decided over the grid. -/
theorem in_index : ∀ t : Fin cfg3.N, win3_0.index t (0 : Fin 2) = t.val / 2 ∧ win3_0.index t (1 : Fin 2) = t.val % 2 :=
  (by decide +kernel : ∀ t : Fin grid3.N, _)
theorem out_index : ∀ t : Fin cfg3.N, win3_1.index t (0 : Fin 2) = t.val / 2 ∧ win3_1.index t (1 : Fin 2) = 0 :=
  (by decide +kernel : ∀ t : Fin grid3.N, _)
theorem tile_of_point : ∀ t : Fin cfg3.N, ((grid3.coords t) 1).val = t.val % 2 :=
  (by decide +kernel : ∀ t : Fin grid3.N, _)

/-- Two spellings of one entry of a flattened view. -/
theorem entry_congr (A : FVec Ideal Cert.Pool.SFlat .f32) {r r' : Fin 2048} {l l' : Fin 2304} (hr : r.val = r'.val) (hl : l.val = l'.val) :
    A (ix2 r l) = A (ix2 r' l') := by
  cases Fin.ext hr; cases Fin.ext hl; rfl

/-- The staged tile at a lane inside the row is the input array's entry: row 256 (t / 2) + p, lane 2048 (t % 2) + j. -/
theorem xin_apply (c : Dev nD) (t : Fin cfg3.N) (p : Fin 256) (j : Fin 2048) (hj : (t.val % 2) * 2048 + j.val < 2304) :
    xin V c t (ix2 p j) = (V c main_v9 : FVec Ideal Cert.Pool.SFlat .f32)
      (ix2 (⟨(t.val / 2) * 256 + p.val, by have := t.isLt; have hN : cfg3.N = 16 := N_3; omega⟩ : Fin 2048) (⟨(t.val % 2) * 2048 + j.val, hj⟩ : Fin 2304)) := by
  obtain ⟨e0, e1⟩ := in_index t
  have hm := kept_lane_moved t p j (by rw [tile_of_point t]; exact hj)
  unfold xin Window.fill
  rw [dif_pos hm]
  unfold iblk
  rw [View.read_apply]
  show V c main_v9 _ = V c main_v9 _
  refine congrArg (V c main_v9) ?_
  funext a
  apply Fin.ext
  match a with
  | ⟨0, _⟩ => show win3_0.index t (0 : Fin 2) * 256 + 1 * p.val = (t.val / 2) * 256 + p.val; omega
  | ⟨1, _⟩ => show win3_0.index t (1 : Fin 2) * 2048 + 1 * j.val = (t.val % 2) * 2048 + j.val; omega

/-- What an odd point t = 2r + 1 stores into the output's buffer: at row p the pooled value of row 256 r + p of the
    input array — the two accumulation steps are one sum over the row's 2304 lanes. -/
theorem out_value (c : Dev nD) (t : Fin cfg3.N) (hodd : t.val % 2 = 1) (p : Fin 256) (z : Fin 1) :
    outAt V c t (ix2 p z) = Cert.Pool.rowMean (V c main_v9)
      (⟨(t.val / 2) * 256 + p.val, by have := t.isLt; have hN : cfg3.N = 16 := N_3; omega⟩ : Fin 2048) := by
  have hN : cfg3.N = 16 := N_3
  have hlt := t.isLt
  have hrow : (t.val / 2) * 256 + p.val < 2048 := by omega
  unfold outAt
  rw [accAt_odd V c t hodd, accAt_even V c ⟨t.val - 1, Nat.lt_of_le_of_lt (Nat.sub_le _ _) t.isLt⟩ (by show (t.val - 1) % 2 = 0; omega)]
  unfold accEven
  refine (Cert.RefPayload.two_steps_3 (grid3.coords ⟨t.val - 1, Nat.lt_of_le_of_lt (Nat.sub_le _ _) t.isLt⟩) (grid3.coords t)
    (by rw [tile_of_point]; show (t.val - 1) % 2 = 0; omega) (by rw [tile_of_point]; exact hodd)
    (xin V c ⟨t.val - 1, Nat.lt_of_le_of_lt (Nat.sub_le _ _) t.isLt⟩) (xin V c t)
    (fun n => if h : n < 2304 then (V c main_v9 : FVec Ideal Cert.Pool.SFlat .f32) (ix2 (⟨(t.val / 2) * 256 + p.val, hrow⟩ : Fin 2048) (⟨n, h⟩ : Fin 2304)) else 0)
    p z ?_ ?_).trans ?_
  · intro j
    have hj : j.val < 2304 := by have := j.isLt; omega
    rw [dif_pos hj, xin_apply V c ⟨t.val - 1, Nat.lt_of_le_of_lt (Nat.sub_le _ _) t.isLt⟩ p j (by show ((t.val - 1) % 2) * 2048 + j.val < 2304; omega)]
    exact entry_congr _ (by show ((t.val - 1) / 2) * 256 + p.val = (t.val / 2) * 256 + p.val; omega) (by show ((t.val - 1) % 2) * 2048 + j.val = j.val; omega)
  · intro j hj
    rw [dif_pos hj, xin_apply V c t p j (by omega)]
    exact entry_congr _ rfl (by show (t.val % 2) * 2048 + j.val = 2048 + j.val; omega)
  · unfold Cert.Pool.rowMean
    refine congrArg (fun s : EReal => s * Cert.Pool.invHW) ?_
    exact Finset.sum_congr rfl fun j _ => dif_pos j.isLt

/-- What an odd point writes back: its 256 rows of the pooled column of the input array. -/
theorem written_back (c : Dev nD) (t : Fin cfg3.N) (hodd : t.val % 2 = 1) :
    (dat V c).flushed 1 t
      = ((cfg3.win 1).blk t).view.read (Elt Ideal) (Cert.Pool.colMean (V c main_v9) : Buf (Elt Ideal) ((cfg3.win 1).arr.view.loc (c : Thread nD τ))) := by
  show (cfg3.win 1).cut (grid3.coords t) ((dat V c).after 1 t) = _
  rw [after_out]
  obtain ⟨e0, e1⟩ := out_index t
  funext j
  rw [View.read_apply]
  show outAt V c t (win3_1.xinj (grid3.coords t) j) = Cert.Pool.colMean (V c main_v9) (((cfg3.win 1).blk t).view.emb j)
  obtain ⟨p, z, hy⟩ : ∃ (p : Fin 256) (z : Fin 1), win3_1.xinj (grid3.coords t) j = ix2 p z := ⟨_, _, eq_ix2 _⟩
  have hp : p.val = (j 0).val := (congrArg (fun y : S256x1.Idx => (y 0).val) hy).symm
  rw [hy, out_value V c t hodd p z]
  show Cert.Pool.rowMean (V c main_v9) _ = Cert.Pool.rowMean (V c main_v9) _
  refine congrArg (Cert.Pool.rowMean (V c main_v9)) (Fin.ext ?_)
  show (t.val / 2) * 256 + p.val = win3_1.index t (0 : Fin 2) * 256 + 1 * (j 0).val
  omega

/-- An entry of the output column lies in point t's block iff its row is one of the block's 256 rows. -/
theorem mem_rows (t : Fin cfg3.N) (i : S2048x1.Idx) :
    i ∈ ((cfg3.win 1).blk t).view.set ↔ ∀ a : Fin 2, win3_1.index t a * S256x1.size a ≤ (i a).val
      ∧ (i a).val < win3_1.index t a * S256x1.size a + S256x1.size a := by
  show i ∈ ((View.whole main_v10).slice (win3_1.rect t)).set ↔ _
  rw [View.set_slice_whole, Rect.mem_set_unit]
  exact Iff.rfl

/-- Row r of the output column is written back at the odd point of its row block: the eight written blocks cover it. -/
theorem rows_covered (i : S2048x1.Idx) :
    ∃ t : Fin cfg3.N, (cfg3.win 1).flush t = true ∧ i ∈ ((cfg3.win 1).blk t).view.set := by
  have hN : cfg3.N = 16 := N_3
  have hi0 : (i 0).val < 2048 := (i 0).isLt
  have hi1 : (i 1).val < 1 := (i 1).isLt
  let t : Fin cfg3.N := ⟨2 * ((i 0).val / 256) + 1, by omega⟩
  obtain ⟨e0, e1⟩ := out_index t
  have ht : t.val = 2 * ((i 0).val / 256) + 1 := rfl
  refine ⟨t, flush_out_odd t (by omega), ?_⟩
  rw [mem_rows]
  intro a
  match a with
  | ⟨0, _⟩ =>
    show win3_1.index t (0 : Fin 2) * 256 ≤ (i 0).val ∧ (i 0).val < win3_1.index t (0 : Fin 2) * 256 + 256
    omega
  | ⟨1, _⟩ =>
    show win3_1.index t (1 : Fin 2) * 1 ≤ (i 1).val ∧ (i 1).val < win3_1.index t (1 : Fin 2) * 1 + 1
    omega

/-- The output array ends holding the pooled column of the input array. -/
theorem final_out (c : Dev nD) :
    (dat V c).arrAt 1 cfg3.N = (Cert.Pool.colMean (V c main_v9) : Buf (Elt Ideal) ((cfg3.win 1).arr.view.loc (c : Thread nD τ))) :=
  (dat V c).arrAt_eq_of_cover 1 _ (fun t hf => written_back V c t ((flush3_1 t).mp hf)) rows_covered

end Cert.RefRegion3

end
-- ==== Proof.RefRun.lean ====
/-
  The reference's run, item by item.

  The reference pools four views. Its @main is nine items in a row: a host stretch that flattens the first view, the
  first pooling region, a host stretch that re-lays the first region's column as [8, 256] and flattens the second
  view, the second region, and so on; the last stretch re-lays the fourth column.

  The contents of a core's buffers at the ten boundaries between items are a fold from the launch memory: a host
  stretch applies its operations; a region leaves its two arrays (the flattened view, which it only reads, and the
  column it writes) at what its pipeline leaves in them and every other buffer untouched. Each region's own account
  (its proof data at the contents it is entered from, the obligation of its body, its invariant at the two ends, and
  what its arrays hold afterwards: the flattened view unchanged, the column at the pooled column of that view) is
  taken from the region's module; here the regions are threaded through @main.

  Reading the fold backwards gives the values. A result buffer is written once, by the re-laying that follows its
  region, and by nothing later; what is re-laid is the region's column, the pooled column of the flattened view;
  the flattened view is the row-major re-laying of the argument, which nothing writes. Together: the pooled view
  of the argument. The arguments themselves are written by no item.

  The thread state carried from item to item is: every buffer that outlives a region, whole, at the boundary's
  contents; the core's generator register at some state; nothing owed to any other core. At the end it is read
  against the final memory.
-/
import proofs.«103361_g2000304880361579_pallasbulk_792_2_alg».proof.Proof.RefData0
import proofs.«103361_g2000304880361579_pallasbulk_792_2_alg».proof.Proof.RefData1
import proofs.«103361_g2000304880361579_pallasbulk_792_2_alg».proof.Proof.RefData2
import proofs.«103361_g2000304880361579_pallasbulk_792_2_alg».proof.Proof.RefData3
import proofs.«103361_g2000304880361579_pallasbulk_792_2_alg».proof.Proof.PoolSpec
import proofs.«103361_g2000304880361579_pallasbulk_792_2_alg».proof.Proof.Gen.ReferenceIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.RefSide

open Cert.ReferenceIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen (hostOps0 hostOps1 hostOps2 hostOps3 hostOps4 hostOps0_sub hostOps1_sub hostOps2_sub hostOps3_sub hostOps4_sub
  hostOps0_fresh hostOps1_fresh hostOps2_fresh hostOps3_fresh hostOps4_fresh
  hostOps0_writes hostOps1_writes hostOps2_writes hostOps3_writes hostOps4_writes
  hostOps0_W hostOps1_W hostOps2_W hostOps3_W hostOps4_W
  launch0 launch1 launch2 launch3 cellOf_inj main_chain adm)

local notation "𝕄" => MT nD τ sig Unit (Elt Ideal) ℕ (UR sig nD τ) ℕ

variable (m : (ℓ : Loc nD τ sig) → Buf (Elt Ideal) ℓ)

/-! ## The buffer contents at each boundary between @main's items -/

/-- Core c's buffers at launch. -/
abbrev W0 : Dev nD → Valuation τ sig (Elt Ideal) := fun c b => m (c, b)

/-- After the host stretch before region 0 (region 0's entry). -/
abbrev W1 : Dev nD → Valuation τ sig (Elt Ideal) := fun c => StableHlo.after hostOps0 (W0 m c)
/-- The same read at the TensorCore's references. -/
abbrev B1 : (c : Dev nD) → (b : Ref sig .tc) → Buf (Elt Ideal) ((c : Thread nD τ).loc b) := fun c b => W1 m c b
/-- At region 0's exit: its two arrays at what the pipeline leaves, every other buffer as entered. -/
def W2 (c : Dev nD) : Valuation τ sig (Elt Ideal) :=
  Pipeline.withArrays spec0 c (W1 m c) fun w => (Cert.RefRegion0.dat (B1 m) c).arrAt w cfg0.N
theorem W2_arr (c : Dev nD) (w : Fin cfg0.W) :
    W2 m c (Proc.devRef .tc (Pipeline.arrRef spec0 w)) = (Cert.RefRegion0.dat (B1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev B2 : (c : Dev nD) → (b : Ref sig .tc) → Buf (Elt Ideal) ((c : Thread nD τ).loc b) := fun c b => W2 m c b
theorem hF0 (c : Dev nD) (w : Fin cfg0.W) :
    (Cert.RefRegion0.dat (B1 m) c).arrAt w cfg0.N = B2 m c (Pipeline.arrRef spec0 w) :=
  (W2_arr m c w).symm
theorem hrest0 (c : Dev nD) : ∀ b, b ∉ Finset.univ.image (Pipeline.arrRef spec0) → B2 m c b = B1 m c b :=
  fun b hb => W2_of_ne m c b fun w e => hb (Finset.mem_image.mpr ⟨w, Finset.mem_univ _, e⟩)

/-- After the host stretch before region 1 (region 1's entry). -/
abbrev W3 : Dev nD → Valuation τ sig (Elt Ideal) := fun c => StableHlo.after hostOps1 (W2 m c)
/-- The same read at the TensorCore's references. -/
abbrev B3 : (c : Dev nD) → (b : Ref sig .tc) → Buf (Elt Ideal) ((c : Thread nD τ).loc b) := fun c b => W3 m c b
/-- At region 1's exit: its two arrays at what the pipeline leaves, every other buffer as entered. -/
def W4 (c : Dev nD) : Valuation τ sig (Elt Ideal) :=
  Pipeline.withArrays spec1 c (W3 m c) fun w => (Cert.RefRegion1.dat (B3 m) c).arrAt w cfg1.N
theorem W4_arr (c : Dev nD) (w : Fin cfg1.W) :
    W4 m c (Proc.devRef .tc (Pipeline.arrRef spec1 w)) = (Cert.RefRegion1.dat (B3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev B4 : (c : Dev nD) → (b : Ref sig .tc) → Buf (Elt Ideal) ((c : Thread nD τ).loc b) := fun c b => W4 m c b
theorem hF1 (c : Dev nD) (w : Fin cfg1.W) :
    (Cert.RefRegion1.dat (B3 m) c).arrAt w cfg1.N = B4 m c (Pipeline.arrRef spec1 w) :=
  (W4_arr m c w).symm
theorem hrest1 (c : Dev nD) : ∀ b, b ∉ Finset.univ.image (Pipeline.arrRef spec1) → B4 m c b = B3 m c b :=
  fun b hb => W4_of_ne m c b fun w e => hb (Finset.mem_image.mpr ⟨w, Finset.mem_univ _, e⟩)

/-- After the host stretch before region 2 (region 2's entry). -/
abbrev W5 : Dev nD → Valuation τ sig (Elt Ideal) := fun c => StableHlo.after hostOps2 (W4 m c)
/-- The same read at the TensorCore's references. -/
abbrev B5 : (c : Dev nD) → (b : Ref sig .tc) → Buf (Elt Ideal) ((c : Thread nD τ).loc b) := fun c b => W5 m c b
/-- At region 2's exit: its two arrays at what the pipeline leaves, every other buffer as entered. -/
def W6 (c : Dev nD) : Valuation τ sig (Elt Ideal) :=
  Pipeline.withArrays spec2 c (W5 m c) fun w => (Cert.RefRegion2.dat (B5 m) c).arrAt w cfg2.N
theorem W6_arr (c : Dev nD) (w : Fin cfg2.W) :
    W6 m c (Proc.devRef .tc (Pipeline.arrRef spec2 w)) = (Cert.RefRegion2.dat (B5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev B6 : (c : Dev nD) → (b : Ref sig .tc) → Buf (Elt Ideal) ((c : Thread nD τ).loc b) := fun c b => W6 m c b
theorem hF2 (c : Dev nD) (w : Fin cfg2.W) :
    (Cert.RefRegion2.dat (B5 m) c).arrAt w cfg2.N = B6 m c (Pipeline.arrRef spec2 w) :=
  (W6_arr m c w).symm
theorem hrest2 (c : Dev nD) : ∀ b, b ∉ Finset.univ.image (Pipeline.arrRef spec2) → B6 m c b = B5 m c b :=
  fun b hb => W6_of_ne m c b fun w e => hb (Finset.mem_image.mpr ⟨w, Finset.mem_univ _, e⟩)

/-- After the host stretch before region 3 (region 3's entry). -/
abbrev W7 : Dev nD → Valuation τ sig (Elt Ideal) := fun c => StableHlo.after hostOps3 (W6 m c)
/-- The same read at the TensorCore's references. -/
abbrev B7 : (c : Dev nD) → (b : Ref sig .tc) → Buf (Elt Ideal) ((c : Thread nD τ).loc b) := fun c b => W7 m c b
/-- At region 3's exit: its two arrays at what the pipeline leaves, every other buffer as entered. -/
def W8 (c : Dev nD) : Valuation τ sig (Elt Ideal) :=
  Pipeline.withArrays spec3 c (W7 m c) fun w => (Cert.RefRegion3.dat (B7 m) c).arrAt w cfg3.N
theorem W8_arr (c : Dev nD) (w : Fin cfg3.W) :
    W8 m c (Proc.devRef .tc (Pipeline.arrRef spec3 w)) = (Cert.RefRegion3.dat (B7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- The same read at the TensorCore's references. -/
abbrev B8 : (c : Dev nD) → (b : Ref sig .tc) → Buf (Elt Ideal) ((c : Thread nD τ).loc b) := fun c b => W8 m c b
theorem hF3 (c : Dev nD) (w : Fin cfg3.W) :
    (Cert.RefRegion3.dat (B7 m) c).arrAt w cfg3.N = B8 m c (Pipeline.arrRef spec3 w) :=
  (W8_arr m c w).symm
theorem hrest3 (c : Dev nD) : ∀ b, b ∉ Finset.univ.image (Pipeline.arrRef spec3) → B8 m c b = B7 m c b :=
  fun b hb => W8_of_ne m c b fun w e => hb (Finset.mem_image.mpr ⟨w, Finset.mem_univ _, e⟩)

/-- After the last host stretch: what @main returns with. -/
abbrev W9 : Dev nD → Valuation τ sig (Elt Ideal) := fun c => StableHlo.after hostOps4 (W8 m c)

/-! ## What the boundaries' contents are

A host stretch leaves every buffer it does not write as it found it; a region leaves every buffer that is not one of its two
arrays as it found it. So a buffer's contents at the end are its contents right after the item that wrote it last. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h
theorem W7_of (c : Dev nD) (r : Ref sig .tc) (h : r ∉ hostOps3_W) : W7 m c (Proc.devRef .tc r) = W6 m c (Proc.devRef .tc r) :=
  StableHlo.after_of_writes_sub hostOps3 _ hostOps3_writes h
theorem W9_of (c : Dev nD) (r : Ref sig .tc) (h : r ∉ hostOps4_W) : W9 m c (Proc.devRef .tc r) = W8 m c (Proc.devRef .tc r) :=
  StableHlo.after_of_writes_sub hostOps4 _ hostOps4_writes h

/-! ### View 0 -/

/-- The argument of view 0 is written by no item. -/
theorem W9_main_arg0 (c : Dev nD) : W9 m c (Proc.devRef .tc main_arg0) = m ((c : Thread nD τ).loc main_arg0) :=
  (W9_of m c main_arg0 (by decide)).trans <| (W8_of_ne m c main_arg0 (by decide)).trans <| (W7_of m c main_arg0 (by decide)).trans <| (W6_of_ne m c main_arg0 (by decide)).trans <| (W5_of m c main_arg0 (by decide)).trans <| (W4_of_ne m c main_arg0 (by decide)).trans <| (W3_of m c main_arg0 (by decide)).trans <| (W2_of_ne m c main_arg0 (by decide)).trans <| (W1_of m c main_arg0 (by decide)).trans <| rfl
/-- The flattened view when region 0 is entered: the row-major re-laying of the argument as [2048, 2304]. -/
theorem W1_main_v0 (c : Dev nD) :
    W1 m c (Proc.devRef .tc main_v0) = (shapeCast Cert.Pool.SFlat (m ((c : Thread nD τ).loc main_arg0)) Cert.Pool.hin : FVec Ideal Cert.Pool.SFlat .f32) := by
  have h0 : W0 m c (Proc.devRef .tc main_arg0) = m ((c : Thread nD τ).loc main_arg0) :=
    rfl
  have h1 : W1 m c (Proc.devRef .tc main_v0)
      = (shapeCast Cert.Pool.SFlat (W0 m c (Proc.devRef .tc main_arg0)) Cert.Pool.hin : FVec Ideal Cert.Pool.SFlat .f32) := by
    show StableHlo.after hostOps0 (W0 m c) (Proc.devRef .tc main_v0) = _
    after_results
    rfl
  rw [h1, h0]
/-- What region 0 leaves in its output column: the pooled column of the flattened view. -/
theorem W2_main_v1 (c : Dev nD) :
    W2 m c (Proc.devRef .tc main_v1) = Cert.Pool.colMean (shapeCast Cert.Pool.SFlat (m ((c : Thread nD τ).loc main_arg0)) Cert.Pool.hin) := by
  have h := (W2_arr m c 1).trans (Cert.RefRegion0.final_out (B1 m) c)
  rw [show B1 m c main_v0 = W1 m c (Proc.devRef .tc main_v0) from rfl, W1_main_v0 m c] at h
  exact h
/-- The column re-laid as [8, 256]: the pooled view. -/
theorem W3_main_v2 (c : Dev nD) : W3 m c (Proc.devRef .tc main_v2) = Cert.Pool.G (m ((c : Thread nD τ).loc main_arg0)) := by
  have h1 : W3 m c (Proc.devRef .tc main_v2)
      = (shapeCast Cert.Pool.SOut (W2 m c (Proc.devRef .tc main_v1)) Cert.Pool.hout : FVec Ideal Cert.Pool.SOut .f32) := by
    show StableHlo.after hostOps1 (W2 m c) (Proc.devRef .tc main_v2) = _
    after_results
    rfl
  rw [h1, W2_main_v1 m c]
  rfl
/-- No later item writes it. -/
theorem W9_main_v2 (c : Dev nD) : W9 m c (Proc.devRef .tc main_v2) = Cert.Pool.G (m ((c : Thread nD τ).loc main_arg0)) :=
  (W9_of m c main_v2 (by decide)).trans <| (W8_of_ne m c main_v2 (by decide)).trans <| (W7_of m c main_v2 (by decide)).trans <| (W6_of_ne m c main_v2 (by decide)).trans <| (W5_of m c main_v2 (by decide)).trans <| (W4_of_ne m c main_v2 (by decide)).trans <| W3_main_v2 m c

/-! ### View 1 -/

/-- The argument of view 1 is written by no item. -/
theorem W9_main_arg1 (c : Dev nD) : W9 m c (Proc.devRef .tc main_arg1) = m ((c : Thread nD τ).loc main_arg1) :=
  (W9_of m c main_arg1 (by decide)).trans <| (W8_of_ne m c main_arg1 (by decide)).trans <| (W7_of m c main_arg1 (by decide)).trans <| (W6_of_ne m c main_arg1 (by decide)).trans <| (W5_of m c main_arg1 (by decide)).trans <| (W4_of_ne m c main_arg1 (by decide)).trans <| (W3_of m c main_arg1 (by decide)).trans <| (W2_of_ne m c main_arg1 (by decide)).trans <| (W1_of m c main_arg1 (by decide)).trans <| rfl
/-- The flattened view when region 1 is entered: the row-major re-laying of the argument as [2048, 2304]. -/
theorem W3_main_v3 (c : Dev nD) :
    W3 m c (Proc.devRef .tc main_v3) = (shapeCast Cert.Pool.SFlat (m ((c : Thread nD τ).loc main_arg1)) Cert.Pool.hin : FVec Ideal Cert.Pool.SFlat .f32) := by
  have h0 : W2 m c (Proc.devRef .tc main_arg1) = m ((c : Thread nD τ).loc main_arg1) :=
    (W2_of_ne m c main_arg1 (by decide)).trans <| (W1_of m c main_arg1 (by decide)).trans <| rfl
  have h1 : W3 m c (Proc.devRef .tc main_v3)
      = (shapeCast Cert.Pool.SFlat (W2 m c (Proc.devRef .tc main_arg1)) Cert.Pool.hin : FVec Ideal Cert.Pool.SFlat .f32) := by
    show StableHlo.after hostOps1 (W2 m c) (Proc.devRef .tc main_v3) = _
    after_results
    rfl
  rw [h1, h0]
/-- What region 1 leaves in its output column: the pooled column of the flattened view. -/
theorem W4_main_v4 (c : Dev nD) :
    W4 m c (Proc.devRef .tc main_v4) = Cert.Pool.colMean (shapeCast Cert.Pool.SFlat (m ((c : Thread nD τ).loc main_arg1)) Cert.Pool.hin) := by
  have h := (W4_arr m c 1).trans (Cert.RefRegion1.final_out (B3 m) c)
  rw [show B3 m c main_v3 = W3 m c (Proc.devRef .tc main_v3) from rfl, W3_main_v3 m c] at h
  exact h
/-- The column re-laid as [8, 256]: the pooled view. -/
theorem W5_main_v5 (c : Dev nD) : W5 m c (Proc.devRef .tc main_v5) = Cert.Pool.G (m ((c : Thread nD τ).loc main_arg1)) := by
  have h1 : W5 m c (Proc.devRef .tc main_v5)
      = (shapeCast Cert.Pool.SOut (W4 m c (Proc.devRef .tc main_v4)) Cert.Pool.hout : FVec Ideal Cert.Pool.SOut .f32) := by
    show StableHlo.after hostOps2 (W4 m c) (Proc.devRef .tc main_v5) = _
    after_results
    rfl
  rw [h1, W4_main_v4 m c]
  rfl
/-- No later item writes it. -/
theorem W9_main_v5 (c : Dev nD) : W9 m c (Proc.devRef .tc main_v5) = Cert.Pool.G (m ((c : Thread nD τ).loc main_arg1)) :=
  (W9_of m c main_v5 (by decide)).trans <| (W8_of_ne m c main_v5 (by decide)).trans <| (W7_of m c main_v5 (by decide)).trans <| (W6_of_ne m c main_v5 (by decide)).trans <| W5_main_v5 m c

/-! ### View 2 -/

/-- The argument of view 2 is written by no item. -/
theorem W9_main_arg2 (c : Dev nD) : W9 m c (Proc.devRef .tc main_arg2) = m ((c : Thread nD τ).loc main_arg2) :=
  (W9_of m c main_arg2 (by decide)).trans <| (W8_of_ne m c main_arg2 (by decide)).trans <| (W7_of m c main_arg2 (by decide)).trans <| (W6_of_ne m c main_arg2 (by decide)).trans <| (W5_of m c main_arg2 (by decide)).trans <| (W4_of_ne m c main_arg2 (by decide)).trans <| (W3_of m c main_arg2 (by decide)).trans <| (W2_of_ne m c main_arg2 (by decide)).trans <| (W1_of m c main_arg2 (by decide)).trans <| rfl
/-- The flattened view when region 2 is entered: the row-major re-laying of the argument as [2048, 2304]. -/
theorem W5_main_v6 (c : Dev nD) :
    W5 m c (Proc.devRef .tc main_v6) = (shapeCast Cert.Pool.SFlat (m ((c : Thread nD τ).loc main_arg2)) Cert.Pool.hin : FVec Ideal Cert.Pool.SFlat .f32) := by
  have h0 : W4 m c (Proc.devRef .tc main_arg2) = m ((c : Thread nD τ).loc main_arg2) :=
    (W4_of_ne m c main_arg2 (by decide)).trans <| (W3_of m c main_arg2 (by decide)).trans <| (W2_of_ne m c main_arg2 (by decide)).trans <| (W1_of m c main_arg2 (by decide)).trans <| rfl
  have h1 : W5 m c (Proc.devRef .tc main_v6)
      = (shapeCast Cert.Pool.SFlat (W4 m c (Proc.devRef .tc main_arg2)) Cert.Pool.hin : FVec Ideal Cert.Pool.SFlat .f32) := by
    show StableHlo.after hostOps2 (W4 m c) (Proc.devRef .tc main_v6) = _
    after_results
    rfl
  rw [h1, h0]
/-- What region 2 leaves in its output column: the pooled column of the flattened view. -/
theorem W6_main_v7 (c : Dev nD) :
    W6 m c (Proc.devRef .tc main_v7) = Cert.Pool.colMean (shapeCast Cert.Pool.SFlat (m ((c : Thread nD τ).loc main_arg2)) Cert.Pool.hin) := by
  have h := (W6_arr m c 1).trans (Cert.RefRegion2.final_out (B5 m) c)
  rw [show B5 m c main_v6 = W5 m c (Proc.devRef .tc main_v6) from rfl, W5_main_v6 m c] at h
  exact h
/-- The column re-laid as [8, 256]: the pooled view. -/
theorem W7_main_v8 (c : Dev nD) : W7 m c (Proc.devRef .tc main_v8) = Cert.Pool.G (m ((c : Thread nD τ).loc main_arg2)) := by
  have h1 : W7 m c (Proc.devRef .tc main_v8)
      = (shapeCast Cert.Pool.SOut (W6 m c (Proc.devRef .tc main_v7)) Cert.Pool.hout : FVec Ideal Cert.Pool.SOut .f32) := by
    show StableHlo.after hostOps3 (W6 m c) (Proc.devRef .tc main_v8) = _
    after_results
    rfl
  rw [h1, W6_main_v7 m c]
  rfl
/-- No later item writes it. -/
theorem W9_main_v8 (c : Dev nD) : W9 m c (Proc.devRef .tc main_v8) = Cert.Pool.G (m ((c : Thread nD τ).loc main_arg2)) :=
  (W9_of m c main_v8 (by decide)).trans <| (W8_of_ne m c main_v8 (by decide)).trans <| W7_main_v8 m c

/-! ### View 3 -/

/-- The argument of view 3 is written by no item. -/
theorem W9_main_arg3 (c : Dev nD) : W9 m c (Proc.devRef .tc main_arg3) = m ((c : Thread nD τ).loc main_arg3) :=
  (W9_of m c main_arg3 (by decide)).trans <| (W8_of_ne m c main_arg3 (by decide)).trans <| (W7_of m c main_arg3 (by decide)).trans <| (W6_of_ne m c main_arg3 (by decide)).trans <| (W5_of m c main_arg3 (by decide)).trans <| (W4_of_ne m c main_arg3 (by decide)).trans <| (W3_of m c main_arg3 (by decide)).trans <| (W2_of_ne m c main_arg3 (by decide)).trans <| (W1_of m c main_arg3 (by decide)).trans <| rfl
/-- The flattened view when region 3 is entered: the row-major re-laying of the argument as [2048, 2304]. -/
theorem W7_main_v9 (c : Dev nD) :
    W7 m c (Proc.devRef .tc main_v9) = (shapeCast Cert.Pool.SFlat (m ((c : Thread nD τ).loc main_arg3)) Cert.Pool.hin : FVec Ideal Cert.Pool.SFlat .f32) := by
  have h0 : W6 m c (Proc.devRef .tc main_arg3) = m ((c : Thread nD τ).loc main_arg3) :=
    (W6_of_ne m c main_arg3 (by decide)).trans <| (W5_of m c main_arg3 (by decide)).trans <| (W4_of_ne m c main_arg3 (by decide)).trans <| (W3_of m c main_arg3 (by decide)).trans <| (W2_of_ne m c main_arg3 (by decide)).trans <| (W1_of m c main_arg3 (by decide)).trans <| rfl
  have h1 : W7 m c (Proc.devRef .tc main_v9)
      = (shapeCast Cert.Pool.SFlat (W6 m c (Proc.devRef .tc main_arg3)) Cert.Pool.hin : FVec Ideal Cert.Pool.SFlat .f32) := by
    show StableHlo.after hostOps3 (W6 m c) (Proc.devRef .tc main_v9) = _
    after_results
    rfl
  rw [h1, h0]
/-- What region 3 leaves in its output column: the pooled column of the flattened view. -/
theorem W8_main_v10 (c : Dev nD) :
    W8 m c (Proc.devRef .tc main_v10) = Cert.Pool.colMean (shapeCast Cert.Pool.SFlat (m ((c : Thread nD τ).loc main_arg3)) Cert.Pool.hin) := by
  have h := (W8_arr m c 1).trans (Cert.RefRegion3.final_out (B7 m) c)
  rw [show B7 m c main_v9 = W7 m c (Proc.devRef .tc main_v9) from rfl, W7_main_v9 m c] at h
  exact h
/-- The column re-laid as [8, 256]: the pooled view. -/
theorem W9_main_v11 (c : Dev nD) : W9 m c (Proc.devRef .tc main_v11) = Cert.Pool.G (m ((c : Thread nD τ).loc main_arg3)) := by
  have h1 : W9 m c (Proc.devRef .tc main_v11)
      = (shapeCast Cert.Pool.SOut (W8 m c (Proc.devRef .tc main_v10)) Cert.Pool.hout : FVec Ideal Cert.Pool.SOut .f32) := by
    show StableHlo.after hostOps4 (W8 m c) (Proc.devRef .tc main_v11) = _
    after_results
    rfl
  rw [h1, W8_main_v10 m c]
  rfl

/-! ## The proof data family and the thread state -/

/-- Every pipeline's proof data, each at its region's entry contents. -/
def pdats : (p : Fin 4) → (c : Dev nD) → Dat τ (Elt Ideal) Unit ℕ (UR sig nD τ) ℕ (Pipeline.pin (pcfgs (F := Ideal)) adm p) c
  | ⟨0, _⟩ => fun c => Cert.RefRegion0.dat (B1 m) c
  | ⟨1, _⟩ => fun c => Cert.RefRegion1.dat (B3 m) c
  | ⟨2, _⟩ => fun c => Cert.RefRegion2.dat (B5 m) c
  | ⟨3, _⟩ => fun c => Cert.RefRegion3.dat (B7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)
/-- A host stretch as an item: over the unscoped references from the contents W, with R riding along. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the generator register at some state. -/
abbrev Tₙ (c : Dev nD) : sProp 𝕄 := iprop(StableHlo.held (c : Thread nD τ) (Pipeline.ucRefs τ sig) (W9 m c) ∗ ∃ r, prngReg c r)

/-! ## The regions as items -/

set_option backward.isDefEq.respectTransparency.types false in
/-- Region 0 over the thread state: entered from every unscoped buffer at W1, left at W2. Its arrays are split out of
    the unscoped buffers and put back at the exit contents; the generator register goes into the region's invariant and
    comes back; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Cert.RefRegion0.body_obligation (B1 m) c
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (B1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (B1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Cert.RefRegion0.hin (B1 m) c)
    unfold Pipeline.ΦA
    iintro ⟨Hp, -, Hr⟩
    isplitl [Hr]; · iexact Hr
    iexact Hp
  hout c := by
    rw [Pipeline.ownSems0_none]
    refine BIBase.Entails.trans (Cert.RefRegion0.hout (B1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (B1 m c) (B2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out of
    the unscoped buffers and put back at the exit contents; the generator register goes into the region's invariant and
    comes back; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := Cert.RefRegion1.body_obligation (B3 m) c
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (B3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (B3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Cert.RefRegion1.hin (B3 m) c)
    unfold Pipeline.ΦA
    iintro ⟨Hp, -, Hr⟩
    isplitl [Hr]; · iexact Hr
    iexact Hp
  hout c := by
    rw [Pipeline.ownSems0_none]
    refine BIBase.Entails.trans (Cert.RefRegion1.hout (B3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (B3 m c) (B4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out of
    the unscoped buffers and put back at the exit contents; the generator register goes into the region's invariant and
    comes back; nothing is owed; the kernel has no semaphore of its own. -/
def reg2 : Pipeline.RegionSeg (pcfgs (F := Ideal)) adm (pdats m) () defs₀ 𝒱₀ L lv 2 where
  win := launch2.win.to₀
  block_pos := launch2.block_pos
  stage_whole := launch2.stage_whole
  K := PEmpty
  osem k := k.elim
  ho := Pipeline.OwnSemFacts.none _
  hbody c := Cert.RefRegion2.body_obligation (B5 m) c
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (B5 m c)
  hentry c := by
    rw [Pipeline.ownSems0_none]
    have hsplit := Pipeline.arrays_of_unscopedBufs (p := 2) (pcfgs (F := Ideal)) adm (pdats m) launch2.win launch2.arr_whole c
      ((pdats m 2 c).share_full fun _ => rfl) (B5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Cert.RefRegion2.hin (B5 m) c)
    unfold Pipeline.ΦA
    iintro ⟨Hp, -, Hr⟩
    isplitl [Hr]; · iexact Hr
    iexact Hp
  hout c := by
    rw [Pipeline.ownSems0_none]
    refine BIBase.Entails.trans (Cert.RefRegion2.hout (B5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun _ => rfl)
      (B5 m c) (B6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. Its arrays are split out of
    the unscoped buffers and put back at the exit contents; the generator register goes into the region's invariant and
    comes back; nothing is owed; the kernel has no semaphore of its own. -/
def reg3 : Pipeline.RegionSeg (pcfgs (F := Ideal)) adm (pdats m) () defs₀ 𝒱₀ L lv 3 where
  win := launch3.win.to₀
  block_pos := launch3.block_pos
  stage_whole := launch3.stage_whole
  K := PEmpty
  osem k := k.elim
  ho := Pipeline.OwnSemFacts.none _
  hbody c := Cert.RefRegion3.body_obligation (B7 m) c
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (B7 m c)
  hentry c := by
    rw [Pipeline.ownSems0_none]
    have hsplit := Pipeline.arrays_of_unscopedBufs (p := 3) (pcfgs (F := Ideal)) adm (pdats m) launch3.win launch3.arr_whole c
      ((pdats m 3 c).share_full fun _ => rfl) (B7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Cert.RefRegion3.hin (B7 m) c)
    unfold Pipeline.ΦA
    iintro ⟨Hp, -, Hr⟩
    isplitl [Hr]; · iexact Hr
    iexact Hp
  hout c := by
    rw [Pipeline.ownSems0_none]
    refine BIBase.Entails.trans (Cert.RefRegion3.hout (B7 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) ((pdats m 3 c).share_full fun _ => rfl)
      (B7 m c) (B8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's nine items in order: a host stretch from its boundary's contents, a region per pooled view. -/
abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)) ]
/-- @main is the run of the items. -/
theorem main_run (c : Dev nD) : main (F := Ideal) c = Pipeline.Seg.run (segs m) := (main_chain c).trans (by chain_rfl)

/-- The last item's exit state is the last thread state beside the core owing nothing. -/
theorem last_link (c : Dev nD) :
    iprop(StableHlo.held (c : Thread nD τ) (Pipeline.ucRefs τ sig) (W9 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

set_option backward.isDefEq.respectTransparency.types false in
/-- Every weakly fair execution of the reference from memory m with zero counters terminates; in every final state each of
    the four results holds the pooled view of its argument, and each argument holds what it held at launch. The last
    thread state holds every unscoped buffer at the last boundary's contents; read against the final state it gives the
    buffers' contents, and the lemmas above say what those are. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Pool.G (m ((c.tc : Thread nD τ).loc main_arg0))
      ∧ r.2.mem ((c.tc : Thread nD τ).loc main_v5) = Cert.Pool.G (m ((c.tc : Thread nD τ).loc main_arg1))
      ∧ r.2.mem ((c.tc : Thread nD τ).loc main_v8) = Cert.Pool.G (m ((c.tc : Thread nD τ).loc main_arg2))
      ∧ r.2.mem ((c.tc : Thread nD τ).loc main_v11) = Cert.Pool.G (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h c =>
      ⟨(h c _ (mem_uc main_v2 (by decide))).trans (W9_main_v2 m c),
       (h c _ (mem_uc main_v5 (by decide))).trans (W9_main_v5 m c),
       (h c _ (mem_uc main_v8 (by decide))).trans (W9_main_v8 m c),
       (h c _ (mem_uc main_v11 (by decide))).trans (W9_main_v11 m c),
       (h c _ (mem_uc main_arg0 (by decide))).trans (W9_main_arg0 m c),
       (h c _ (mem_uc main_arg1 (by decide))).trans (W9_main_arg1 m c),
       (h c _ (mem_uc main_arg2 (by decide))).trans (W9_main_arg2 m c),
       (h c _ (mem_uc main_arg3 (by decide))).trans (W9_main_arg3 m c)⟩)

end Cert.RefSide

end
-- ==== Proof.lean ====
/-
  The certificate: four views f32[8, 256, 48, 48] are average-pooled over their 48 × 48 pixels.

  Both programs flatten a view to [2048, 2304] (one row per (image, channel) pair, one lane per pixel), compute the
  [2048, 1] column whose row p is the sum of row p's 2304 entries times the reciprocal of the pixel count (the same
  float literal in both programs, never evaluated), and re-lay that column as [8, 256]. The kernel pools all four
  views in one region whose blocks hold whole rows, so each row's sum is one lane sum. The reference pools each view
  in a region of its own, taking a row in two lane tiles of 2048 lanes: it accumulates the first tile's lane sums and
  then those of the second tile with the lanes beyond the row's end (all but its first 256) masked to zero. A sum of
  2304 terms is the sum of its first 2048 terms plus the sum of its last 256: the two programs compute one function
  of the arguments, `Cert.Pool.G`, on the extended reals, with no finiteness needed — so the precondition is never
  opened. The ideal pass rewrote nothing in the kernel, so the preservation claim is trivial.

  The kernel's frames are the generated ones; its value is read off the generated frame run (KernelValue). The
  reference's four regions are proved one by one (RefBodyK, RefDataK: each region's body, proof data and the column it
  leaves) and composed with the host reshapes around them (RefRun), which gives both its frame and its values.
-/
import proofs.«103361_g2000304880361579_pallasbulk_792_2_alg».proof.Defs
import proofs.«103361_g2000304880361579_pallasbulk_792_2_alg».proof.Proof.Gen.Kernel
import proofs.«103361_g2000304880361579_pallasbulk_792_2_alg».proof.Proof.Gen.Kernel.Frame
import proofs.«103361_g2000304880361579_pallasbulk_792_2_alg».proof.Proof.Gen.KernelIdeal
import proofs.«103361_g2000304880361579_pallasbulk_792_2_alg».proof.Proof.Gen.KernelIdeal.Frame
import proofs.«103361_g2000304880361579_pallasbulk_792_2_alg».proof.Proof.Gen.ReferenceIdeal
import proofs.«103361_g2000304880361579_pallasbulk_792_2_alg».proof.Proof.Gen.Pre_finite_inputs
import proofs.«103361_g2000304880361579_pallasbulk_792_2_alg».proof.Proof.KernelValue
import proofs.«103361_g2000304880361579_pallasbulk_792_2_alg».proof.Proof.RefRun

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run through the four regions, the results dropped. -/
theorem frame_reference : Cert.frame_ReferenceIdeal := fun m ρ _ =>
  (θ_run Cert.ReferenceIdeal.defs _ _).mono (fun _ h c => (h c).2.2.2.2) (Cert.RefSide.run m ρ)

/-- The ideal pass rewrote no operation of the kernel. -/
theorem preserves : Cert.preserves_Kernel_KernelIdeal := trivial

/-- From memories agreeing on the four views both programs end with each result at the pooled view `Cert.Pool.G` of
    the corresponding argument. -/
theorem algebraic : Cert.algebraic_KernelIdeal_ReferenceIdeal := by
  intro m ρ m' ρ' _ hagree
  refine ⟨_, _, _, _, Cert.KernelSide.run m ρ, ?_⟩
  refine (θ_run Cert.ReferenceIdeal.defs _ _).mono (fun _ h c => ?_) (Cert.RefSide.run m' ρ')
  obtain ⟨h0, h1, h2, h3, hargs⟩ := h c
  obtain ⟨a0, a1, a2, a3⟩ := hagree c
  exact ⟨h0.trans (congrArg Cert.Pool.G a0), h1.trans (congrArg Cert.Pool.G a1), h2.trans (congrArg Cert.Pool.G a2),
    h3.trans (congrArg Cert.Pool.G a3), hargs⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
